-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x256 : Shape := ⟨3, ![4096, 2, 256]⟩
abbrev S4096 : Shape := ⟨1, ![4096]⟩
abbrev S_ : Shape := ⟨0, ![]⟩
abbrev S4096x2 : Shape := ⟨2, ![4096, 2]⟩

class Facts : Prop where
  bcast_S_S4096x2x256 : S_.BroadcastsInDim S4096x2x256 (![] : Fin 0 → Fin S4096x2x256.rank)
  reducesTo_S4096x2x256_S_d0_1_2 : S4096x2x256.ReducesTo [0, 1, 2] S_
  h_S_ : 0 < S_.numel
  reducesTo_S4096x2x256_S4096x2_d2 : S4096x2x256.ReducesTo [2] S4096x2
  bcast_S_S4096x2 : S_.BroadcastsInDim S4096x2 (![] : Fin 0 → Fin S4096x2.rank)
  reducesTo_S4096x2_S_d0_1 : S4096x2.ReducesTo [0, 1] S_

variable [Facts]

def fn {F : FTy → Type} [FloatOps F] (main_arg0 : FVec F S4096x2x256 .f32) (main_arg1 : IVec S4096 32) : IVec S_ 1 :=
  let main_v0 : FVec F S4096x2x256 .f32 := Host.absf main_arg0
  let main_cst : FVec F S_ .f32 := constant S_ .f32 0x7F800000#32
  let main_v1 : FVec F S4096x2x256 .f32 := broadcastInDim S4096x2x256 ![] bcast_S_S4096x2x256 main_cst
  let main_v2 : IVec S4096x2x256 1 := cmpf .olt main_v0 main_v1
  let main_c : IVec S_ 1 := constantI S_ 1 1#1
  let main_v3 : IVec S_ 1 := (fun x v => Host.reduce IntOp.andi x v reducesTo_S4096x2x256_S_d0_1_2 h_S_) main_v2 main_c
  let main_v4 : FVec F S4096x2x256 .f32 := mulf main_arg0 main_arg0
  let main_cst_0 : FVec F S_ .f32 := constant S_ .f32 0x00000000#32
  let main_v5 : FVec F S4096x2 .f32 := (fun x v => Host.reduceAdd x v reducesTo_S4096x2x256_S4096x2_d2 h_S_) main_v4 main_cst_0
  let main_cst_1 : FVec F S_ .f32 := constant S_ .f32 0x00000000#32
  let main_v6 : FVec F S4096x2 .f32 := broadcastInDim S4096x2 ![] bcast_S_S4096x2 main_cst_1
  let main_v7 : IVec S4096x2 1 := cmpf .ogt main_v5 main_v6
  let main_c_2 : IVec S_ 1 := constantI S_ 1 1#1
  let main_v8 : IVec S_ 1 := (fun x v => Host.reduce IntOp.andi x v reducesTo_S4096x2_S_d0_1 h_S_) main_v7 main_c_2
  let main_v9 : IVec S_ 1 := andi main_v3 main_v8
  main_v9
-- ==== Kernel.lean ====
abbrev S4096x2x256 : Shape := ⟨3, ![4096, 2, 256]⟩
abbrev S4096 : Shape := ⟨1, ![4096]⟩
abbrev S2x4096x256 : Shape := ⟨3, ![2, 4096, 256]⟩
abbrev S8192x256 : Shape := ⟨2, ![8192, 256]⟩
abbrev S1x4096 : Shape := ⟨2, ![1, 4096]⟩
abbrev S2x4096 : Shape := ⟨2, ![2, 4096]⟩
abbrev S8192 : Shape := ⟨1, ![8192]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩

abbrev nBuf : Space → Nat
  | .hbm => 15
  | .vmem => 13
  | .smem => 0
  | _ => 0

abbrev bufTy : (tb : Table) → Fin (tcTables nBuf tb) → BufTy
  | .hbm, ⟨0, _⟩ => ⟨S4096x2x256, .f32⟩
  | .hbm, ⟨1, _⟩ => ⟨S4096, .i32⟩
  | .hbm, ⟨2, _⟩ => ⟨S2x4096x256, .f32⟩
  | .hbm, ⟨3, _⟩ => ⟨S8192x256, .f32⟩
  | .hbm, ⟨4, _⟩ => ⟨S1x4096, .i32⟩
  | .hbm, ⟨5, _⟩ => ⟨S2x4096, .i32⟩
  | .hbm, ⟨6, _⟩ => ⟨S8192, .i32⟩
  | .hbm, ⟨7, _⟩ => ⟨S8192x1, .i32⟩
  | .hbm, ⟨8, _⟩ => ⟨S1x8192, .i32⟩
  | .hbm, ⟨9, _⟩ => ⟨S8192x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S4096x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v74 : BitVec 1 := Scalar.cmpi .eq arg1 c7_i32
  let v75 : BitVec 32 := Scalar.extui v74
  let c0_i32_28 : BitVec 32 := 0#32
  let v76 : BitVec 1 := Scalar.cmpi .ne v75 c0_i32_28
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S4096x2x256_S2x4096x256_1_0_2 : S4096x2x256.Transposes [1, 0, 2] S2x4096x256
  shapeCasts_S2x4096x256_S8192x256 : S2x4096x256.ShapeCasts S8192x256
  shapeCasts_S4096_S1x4096 : S4096.ShapeCasts S1x4096
  bcast_S1x4096_S2x4096_0_1 : S1x4096.BroadcastsInDim S2x4096 (![0, 1] : Fin 2 → Fin S2x4096.rank)
  shapeCasts_S2x4096_S8192 : S2x4096.ShapeCasts S8192
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  natLt_1_32 : 1 < 32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  transposes_S1024x256_p1_0_S256x1024 : S1024x256.Transposes [1, 0] S256x1024
  reduces_S1024x1024_S1024 : S1024x1024.Reduces [1] S1024
  reducesTo_S8192x1_S_d0_1 : S8192x1.ReducesTo [0, 1] S_
  h_S_ : 0 < S_.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x2x256 : Shape := ⟨3, ![4096, 2, 256]⟩
abbrev S4096 : Shape := ⟨1, ![4096]⟩
abbrev S2x4096x256 : Shape := ⟨3, ![2, 4096, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S256x8192 : Shape := ⟨2, ![256, 8192]⟩
abbrev S8192x8192 : Shape := ⟨2, ![8192, 8192]⟩
abbrev S1x4096 : Shape := ⟨2, ![1, 4096]⟩
abbrev S2x4096 : Shape := ⟨2, ![2, 4096]⟩
abbrev S1x8192 : Shape := ⟨2, ![1, 8192]⟩

abbrev nBuf : Space → Nat
  | .hbm => 55
  | .vmem => 0
  | .smem => 0
  | _ => 0

abbrev bufTy : (tb : Table) → Fin (tcTables nBuf tb) → BufTy
  | .hbm, ⟨0, _⟩ => ⟨S4096x2x256, .f32⟩
  | .hbm, ⟨1, _⟩ => ⟨S4096, .i32⟩
  | .hbm, ⟨2, _⟩ => ⟨S2x4096x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S8192x256, .f32⟩
  | .hbm, ⟨10, _⟩ => ⟨S8192x256, .f32⟩
  | .hbm, ⟨11, _⟩ => ⟨S256x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S1x4096, .i32⟩
  | .hbm, ⟨18, _⟩ => ⟨S2x4096, .i32⟩
  | .hbm, ⟨19, _⟩ => ⟨S8192, .i32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .f32⟩
  | .hbm, ⟨27, _⟩ => ⟨S8192x1, .i32⟩
  | .hbm, ⟨28, _⟩ => ⟨S1x8192, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S4096x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_2 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]

class Facts₀ : Prop where
  transposes_S4096x2x256_S2x4096x256_1_0_2 : S4096x2x256.Transposes [1, 0, 2] S2x4096x256
  shapeCasts_S2x4096x256_S8192x256 : S2x4096x256.ShapeCasts S8192x256
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  shapeCasts_S4096_S1x4096 : S4096.ShapeCasts S1x4096
  bcast_S1x4096_S2x4096_0_1 : S1x4096.BroadcastsInDim S2x4096 (![0, 1] : Fin 2 → Fin S2x4096.rank)
  shapeCasts_S2x4096_S8192 : S2x4096.ShapeCasts S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Entry.lean ====
import proofs.«152556_j7945689498002_1_alg».proof.Proof.Gen.Kernel.Launch
import proofs.«152556_j7945689498002_1_alg».proof.Proof.Gen.Kernel.Skeleton
import proofs.«152556_j7945689498002_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
The region's entry: what each TensorCore buffer holds when the one kernel region of the program is
entered (the seven host operations before it applied to the launch memory), the block of each
window's array that a grid point works on, and the program as "host lines, the region, host lines".
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the host operations before the region
    (the transpose and reshape of the features, the tiling and two reshapes of the labels) applied
    to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is host lines, the region, host lines: it reduces to the region continued by the
    later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.K.Steps.lean ====
import proofs.«152556_j7945689498002_1_alg».proof.Proof.K.Entry

/-!
What the three running sums and the output block hold after each grid point, as pure functions of
the blocks the point works on.

A grid point `(i0, i1)` works on the row block `i0` and the column block `i1`. The three scratch
columns carry, for each of the 1024 rows of the row block, the sum over the column blocks seen so
far of: the masked exponentials, the masked scaled similarities, and the positive-pair counts. They
are cleared at the first column block (`i1 = 0`), every point adds its block's row sums, and the
last column block (`i1 = 7`) turns them into the row losses.
-/

noncomputable section

namespace Cert.Kernel.Hand

open Idealize.ShloMosaic Idealize.ShloMosaic.TcCoe
open Idealize.SL Idealize.SL.Sem
open Cert.Kernel Cert.Kernel.Gen

variable {F : FTy → Type} [FloatOps F]

/-- The three running sums: masked exponentials, masked scaled similarities, positive-pair counts. -/
abbrev Acc (F : FTy → Type) : Type := Vec F S1024x1 .f32 × Vec F S1024x1 .f32 × Vec F S1024x1 .f32

/-- The running sums just cleared. -/
def accZero : Acc F := (k0_pay7 (F := F), k0_pay8 (F := F), k0_pay9 (F := F))

/-- One grid point's update of the running sums `a` (as the point finds them after the clearing, if
    it clears) from its row block `q`, its column block `k` and the two label blocks. -/
def accStep (i : grid0.Coords) (q k : Vec F S1024x256 .f32) (lr : Vec F S1024x1 .i32) (lc : Vec F S1x1024 .i32)
    (a : Acc F) : Acc F :=
  (k0_pay3 (k0_pay10 q) (k0_pay11 k) (k0_pay12 (F := F) i) a.1,
   k0_pay4 (k0_pay10 q) (k0_pay11 k) (k0_pay12 (F := F) i) (k0_pay13 lr lc) a.2.1,
   k0_pay5 (k0_pay12 (F := F) i) (k0_pay13 (F := F) lr lc) a.2.2)

/-- The row losses from the finished running sums. -/
def lossOf (a : Acc F) : Vec F S1024x1 .f32 := k0_pay6 a.2.1 a.2.2 a.1

variable (m : (ℓ : Loc nD τ sig) → Buf (Elt F) ℓ)

/-- The running sums after the body at position `n` of the grid walk: cleared first at the points
    with `n % 8 = 0` (the first column block of a row block), else what position `n - 1` left. -/
def accAt (c : Dev nD) : (n : ℕ) → n < cfg0.N → Acc F
  | 0, hn => accStep (grid0.coords ⟨0, hn⟩) (iblk m c 0 ⟨0, hn⟩) (iblk m c 1 ⟨0, hn⟩) (iblk m c 2 ⟨0, hn⟩) (iblk m c 3 ⟨0, hn⟩) accZero
  | n + 1, hn => accStep (grid0.coords ⟨n + 1, hn⟩) (iblk m c 0 ⟨n + 1, hn⟩) (iblk m c 1 ⟨n + 1, hn⟩) (iblk m c 2 ⟨n + 1, hn⟩) (iblk m c 3 ⟨n + 1, hn⟩)
      (if (n + 1) % 8 = 0 then accZero else accAt c n (Nat.lt_of_succ_lt hn))

/-- The output block after the body at point `t` (meaningful at the points of the last column
    block, where it is stored and written back): the row losses of that point's running sums. -/
def outAt (c : Dev nD) (t : Fin cfg0.N) : Vec F S1024x1 .f32 := lossOf (accAt m c t.val t.isLt)

theorem accAt_first (c : Dev nD) (t : Fin cfg0.N) (h : t.val % 8 = 0) :
    accAt m c t.val t.isLt = accStep (grid0.coords t) (iblk m c 0 t) (iblk m c 1 t) (iblk m c 2 t) (iblk m c 3 t) accZero := by
  obtain ⟨n, hn⟩ := t
  cases n with
  | zero => rfl
  | succ n => exact congrArg _ (if_pos h)

theorem accAt_next (c : Dev nD) (t : Fin cfg0.N) (h : ¬ t.val % 8 = 0) :
    accAt m c t.val t.isLt = accStep (grid0.coords t) (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd (Nat.zero_mod _) h
  | succ n => exact congrArg _ (if_neg h)

end Cert.Kernel.Hand

end
-- ==== Proof.K.Dats.lean ====
import proofs.«152556_j7945689498002_1_alg».proof.Proof.K.Steps

/-!
The proof data of the one pipeline: the arrays as the region finds them, what the body leaves in each
window's buffer at each grid point, and the invariant carried from point to point.

The invariant before the first point is the class's (the three running-sum columns at anything);
before any later point it owns the three columns at the running sums the point before left.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The three running-sum columns: whole scoped buffers of the kernel's own, passed beside the windows. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2

/-- The class's invariant with the three columns as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant before position `n` of the grid walk: before the first point the class's; afterwards
    the three columns at the running sums position `n - 1` left, and the generator register at some
    state. -/
def PhiS (c : Dev nD) : (n : ℕ) → n ≤ cfg0.N → sProp 𝕄
  | 0, _ => Pipeline.ΦA spec0 c
  | n + 1, hn => iprop(iprop(owns (c : Thread nD τ) scM0_0 fullShare (accAt m c n hn).1 ∗ owns (c : Thread nD τ) scM0_1 fullShare (accAt m c n hn).2.1 ∗ owns (c : Thread nD τ) scM0_2 fullShare (accAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn).1 ∗ owns (c : Thread nD τ) scM0_1 fullShare (accAt m c n hn).2.1 ∗ owns (c : Thread nD τ) scM0_2 fullShare (accAt m c n hn).2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega)).1 ∗ owns (c : Thread nD τ) scM0_1 fullShare (accAt m c (n - 1) (by omega)).2.1 ∗ owns (c : Thread nD τ) scM0_2 fullShare (accAt m c (n - 1) (by omega)).2.2) ∗ (∃ r, prngReg c r)) := by
  cases n with
  | zero => exact absurd rfl hz
  | succ n => rfl

/-- The proof data of the one pipeline on core `c`. The two feature windows read the same array and
    split its share between them. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m c).A w = V m c (Pipeline.arrRef spec0 w) := by
  dsimp only [dats]

theorem PhiS_castSucc (c : Dev nD) (t : Fin cfg0.N) :
    (dats m c).Φ t.castSucc = PhiS m c t.val (Nat.le_of_lt t.isLt) := by
  dsimp only [dats]; simp only [Fin.coe_castSucc]

theorem after0 (c : Dev nD) (t : Fin cfg0.N) : (dats m c).after 0 t = iblk m c 0 t := by dsimp only [dats]
theorem after1 (c : Dev nD) (t : Fin cfg0.N) : (dats m c).after 1 t = iblk m c 1 t := by dsimp only [dats]
theorem after2 (c : Dev nD) (t : Fin cfg0.N) : (dats m c).after 2 t = iblk m c 2 t := by dsimp only [dats]
theorem after3 (c : Dev nD) (t : Fin cfg0.N) : (dats m c).after 3 t = iblk m c 3 t := by dsimp only [dats]
theorem after4 (c : Dev nD) (t : Fin cfg0.N) : (dats m c).after 4 t = outAt m c t := by dsimp only [dats]

theorem q0 (c : Dev nD) : (dats m c).q 0 = fullShare.left := by dsimp only [dats]
theorem q1 (c : Dev nD) : (dats m c).q 1 = fullShare.right := by dsimp only [dats]

/-- What the launch hands the region is the invariant before the first point. -/
theorem hin (c : Dev nD) : Pipeline.ΦA spec0 c ⊢ (dats m c).Φ 0 := by
  rw [show (dats m c).Φ 0 = PhiS m c 0 (Nat.zero_le _) from rfl, PhiS_zero m c 0 _ rfl]
  try exact Idealize.SL.BI.Entails.refl _

/-- After any point but the first the invariant gives the class's back: the named running sums are
    forgotten. -/
theorem Phi_out (c : Dev nD) (t : Fin (cfg0.N + 1)) (ht : t.val ≠ 0) : (dats m c).Φ t ⊢ Pipeline.ΦA spec0 c := by
  rw [show (dats m c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m c).Φ (Fin.last cfg0.N) ⊢ Pipeline.ΦA spec0 c :=
  Phi_out m c _ (by rw [Fin.val_last]; have : cfg0.N = 64 := N_0; omega)

end Cert.Kernel.Hand

end
-- ==== Proof.K.Cases.lean ====
import proofs.«152556_j7945689498002_1_alg».proof.Proof.K.Dats

/-!
What the runs of the body at a grid point are stated over: the two branch conditions of the body in
closed form over the grid, where the output window is idle and where it is written back, the
staging memrefs of each window at a point, and that each input window's current staging buffer
holds its block at every point.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The condition of the first branch of the body (clear the running sums): the column block is the
    first. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the second branch of the body (emit the row losses): the column block is the
    last. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last column block the output window is idle and not written back; -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- at the last column block it is live. -/
theorem liveAt0_4 : ∀ t : Fin cfg0.N, cond0_1 (grid0.coords t) → cfg0.idle 4 (grid0.coords t) = false := by decide +kernel

/-- Each window's current staging memref at point `t`, spelled as the pipeline passes it, and its wholeness. -/
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)

/-- Each input window's current staging buffer holds its block at every point, fetched there or not:
    unfetched, the block index has not moved. -/
theorem before0_0 (c : Dev nD) (t : Fin cfg0.N) (d) : (dats m c).before 0 t d = iblk m c 0 t :=
  ((dats m c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before0_1 (c : Dev nD) (t : Fin cfg0.N) (d) : (dats m c).before 1 t d = iblk m c 1 t :=
  ((dats m c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before0_2 (c : Dev nD) (t : Fin cfg0.N) (d) : (dats m c).before 2 t d = iblk m c 2 t :=
  ((dats m c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before0_3 (c : Dev nD) (t : Fin cfg0.N) (d) : (dats m c).before 3 t d = iblk m c 3 t :=
  ((dats m c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.Kernel.Hand

end
-- ==== Proof.K.RunB.lean ====
import proofs.«152556_j7945689498002_1_alg».proof.Proof.K.Cases
import Idealize.ShloMosaic.Lib.Pipeline.Value

/-!
The body at a grid point of a middle column block (neither the first nor the last): it adds the
block's row sums to the three running sums and leaves the output window's buffer untouched.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The offsets of a whole-buffer load or store are zero. -/
theorem hz : (![0, 0] : Fin 2 → Nat) = fun _ => 0 := funext fun a => by fin_cases a <;> rfl

/-- One store through the whole-buffer rectangle leaves its payload, whatever the buffer held. -/
theorem read_store_whole {sg : RefSig} {κ : Kind} {sp : Space} {S : Shape} {e : EltTy} (hS : S.rank = 2)
    (v : View sg κ sp S e) (f : v.ty.Contents (Elt F)) (off : Fin S.rank → Nat) (h0 : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h0 inb y⟩), View.canon_unit_zero h0]

set_option maxHeartbeats 4000000 in
/-- The body in the middle case: from the four input buffers at their blocks, the output buffer at
    anything (handed back untouched) and the three running sums at `a0`, `a1`, `a2`, it runs to the
    same with the running sums advanced by the block's row sums. -/
theorem run_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 x1 : Vec F S1024x256 .f32) (x2 : Vec F S1024x1 .i32) (x3 : Vec F S1x1024 .i32) (xi4 : Vec F S1024x1 .f32)
    (a0 a1 a2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4
        ∗ owns (c : Thread nD τ) arg7 fullShare a0 ∗ owns (c : Thread nD τ) arg8 fullShare a1 ∗ owns (c : Thread nD τ) arg9 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4
            ∗ owns (c : Thread nD τ) arg7 fullShare (k0_pay3 (k0_pay10 x0) (k0_pay11 x1) (k0_pay12 (F := F) i) a0)
            ∗ owns (c : Thread nD τ) arg8 fullShare (k0_pay4 (k0_pay10 x0) (k0_pay11 x1) (k0_pay12 (F := F) i) (k0_pay13 x2 x3) a1)
            ∗ owns (c : Thread nD τ) arg9 fullShare (k0_pay5 (k0_pay12 (F := F) i) (k0_pay13 (F := F) x2 x3) a2)) -∗ K ⟨⟩))
      ⊢ wp frame (wpE (defs₀ (F := F)) Variants.none c none) E (cc0__supcon_kernel i arg2 harg2 arg3 harg3 arg4 harg4 arg5 harg5 arg6 harg6 arg7 harg7 arg8 harg8 arg9 harg9) K := by
  simp only [cc0__supcon_kernel_eq_skeleton]; unfold cc0__supcon_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg6.eq_unread hf4
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    rw [read_store_whole rfl _ _ _ hz]
    sl_unfold_run_names
    simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz]
  isplitl [HS1]
  · iexists _; isplitr; swap; · iexact HS1
    ipureintro
    rw [read_store_whole rfl _ _ _ hz]
    sl_unfold_run_names
    simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz]
  iexists _; isplitr; swap; · iexact HS2
  ipureintro
  rw [read_store_whole rfl _ _ _ hz]
  sl_unfold_run_names
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz]

end Cert.Kernel.Hand

end
-- ==== Proof.K.RunA.lean ====
import proofs.«152556_j7945689498002_1_alg».proof.Proof.K.RunB

/-!
The body at a grid point of the first column block: it clears the three running sums, then adds the
block's row sums, and leaves the output window's buffer untouched.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A store through the whole-buffer rectangle, made last, leaves its payload, whatever came before. -/
theorem read_store_whole_cons {sg : RefSig} {κ : Kind} {sp : Space} {S : Shape} {e : EltTy} (hS : S.rank = 2)
    (v : View sg κ sp S e) (f : v.ty.Contents (Elt F)) (off : Fin S.rank → Nat) (h0 : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.Mem.head _, View.mem_set_unit_zero h0 inb y⟩), View.canon_cons_unit_zero h0]

set_option maxHeartbeats 4000000 in
/-- The body in the first-column-block case: from the four input buffers at their blocks, the output
    buffer at anything (handed back untouched) and the three running sums at anything, it runs to the
    same with the running sums at the block's row sums added to the cleared columns. -/
theorem run_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 x1 : Vec F S1024x256 .f32) (x2 : Vec F S1024x1 .i32) (x3 : Vec F S1x1024 .i32) (xi4 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4
            ∗ owns (c : Thread nD τ) arg7 fullShare (k0_pay3 (k0_pay10 x0) (k0_pay11 x1) (k0_pay12 (F := F) i) (k0_pay7 (F := F)))
            ∗ owns (c : Thread nD τ) arg8 fullShare (k0_pay4 (k0_pay10 x0) (k0_pay11 x1) (k0_pay12 (F := F) i) (k0_pay13 x2 x3) (k0_pay8 (F := F)))
            ∗ owns (c : Thread nD τ) arg9 fullShare (k0_pay5 (k0_pay12 (F := F) i) (k0_pay13 (F := F) x2 x3) (k0_pay9 (F := F)))) -∗ K ⟨⟩))
      ⊢ wp frame (wpE (defs₀ (F := F)) Variants.none c none) E (cc0__supcon_kernel i arg2 harg2 arg3 harg3 arg4 harg4 arg5 harg5 arg6 harg6 arg7 harg7 arg8 harg8 arg9 harg9) K := by
  simp only [cc0__supcon_kernel_eq_skeleton]; unfold cc0__supcon_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    rw [read_store_whole_cons rfl _ _ _ hz]
    sl_unfold_run_names
    simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz, View.readCov_unit_zero (S := S1024x1) _ hz]
  isplitl [HS1]
  · iexists _; isplitr; swap; · iexact HS1
    ipureintro
    rw [read_store_whole_cons rfl _ _ _ hz]
    sl_unfold_run_names
    simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz, View.readCov_unit_zero (S := S1024x1) _ hz]
  iexists _; isplitr; swap; · iexact HS2
  ipureintro
  rw [read_store_whole_cons rfl _ _ _ hz]
  sl_unfold_run_names
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz, View.readCov_unit_zero (S := S1024x1) _ hz]

end Cert.Kernel.Hand

end
-- ==== Proof.K.RunC.lean ====
import proofs.«152556_j7945689498002_1_alg».proof.Proof.K.RunA

/-!
The body at a grid point of the last column block: it adds the block's row sums to the three running
sums and stores the row losses computed from them into the output window's buffer.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The body in the last-column-block case: from the four input buffers at their blocks, the output
    buffer at anything and the three running sums at `a0`, `a1`, `a2`, it runs to the same with the
    running sums advanced by the block's row sums and the output buffer at the row losses of the
    advanced sums. -/
theorem run_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 x1 : Vec F S1024x256 .f32) (x2 : Vec F S1024x1 .i32) (x3 : Vec F S1x1024 .i32)
    (a0 a1 a2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ owns (c : Thread nD τ) arg7 fullShare a0 ∗ owns (c : Thread nD τ) arg8 fullShare a1 ∗ owns (c : Thread nD τ) arg9 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay6 (k0_pay4 (k0_pay10 x0) (k0_pay11 x1) (k0_pay12 (F := F) i) (k0_pay13 x2 x3) a1) (k0_pay5 (k0_pay12 (F := F) i) (k0_pay13 (F := F) x2 x3) a2) (k0_pay3 (k0_pay10 x0) (k0_pay11 x1) (k0_pay12 (F := F) i) a0))
            ∗ owns (c : Thread nD τ) arg7 fullShare (k0_pay3 (k0_pay10 x0) (k0_pay11 x1) (k0_pay12 (F := F) i) a0)
            ∗ owns (c : Thread nD τ) arg8 fullShare (k0_pay4 (k0_pay10 x0) (k0_pay11 x1) (k0_pay12 (F := F) i) (k0_pay13 x2 x3) a1)
            ∗ owns (c : Thread nD τ) arg9 fullShare (k0_pay5 (k0_pay12 (F := F) i) (k0_pay13 (F := F) x2 x3) a2)) -∗ K ⟨⟩))
      ⊢ wp frame (wpE (defs₀ (F := F)) Variants.none c none) E (cc0__supcon_kernel i arg2 harg2 arg3 harg3 arg4 harg4 arg5 harg5 arg6 harg6 arg7 harg7 arg8 harg8 arg9 harg9) K := by
  simp only [cc0__supcon_kernel_eq_skeleton]; unfold cc0__supcon_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_run_names
    rw [read_store_whole_cons rfl _ _ _ hz]
    simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz, View.readCov_unit_zero (S := S1024x1) _ hz]
  isplitl [HS0]
  · iexists _; isplitr; swap; · iexact HS0
    ipureintro
    sl_unfold_run_names
    rw [read_store_whole_cons rfl _ _ _ hz]
    simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz]
  isplitl [HS1]
  · iexists _; isplitr; swap; · iexact HS1
    ipureintro
    sl_unfold_run_names
    rw [read_store_whole_cons rfl _ _ _ hz]
    simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz]
  iexists _; isplitr; swap; · iexact HS2
  ipureintro
  sl_unfold_run_names
  rw [read_store_whole_cons rfl _ _ _ hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz]

end Cert.Kernel.Hand

end
-- ==== Proof.K.Body.lean ====
import proofs.«152556_j7945689498002_1_alg».proof.Proof.K.RunC

/-!
The body obligation of the one pipeline: at every grid point, from the invariant and every window's
current buffer at what it then holds, the kernel's body runs to the invariant at the next point and
every buffer at what the proof data says the body leaves. By cases on the column block of the
point: the first (the running sums are cleared first), a middle one, the last (the row losses are
stored into the output window's buffer).
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What the body is called with at point `t`, the windows one by one, -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d)))

/-- and what it returns. -/
def bodyPost (c : Dev nD) (t : Fin cfg0.N) : sProp 𝕄 :=
  iprop((dats m c).Φ t.succ ∗ (dats m c).owesAt () t.succ
    ∗ (dats m c).leavesExact 0 t
    ∗ (dats m c).leavesExact 1 t
    ∗ (dats m c).leavesExact 2 t
    ∗ (dats m c).leavesExact 3 t
    ∗ (dats m c).leavesExact 4 t)

set_option maxHeartbeats 4800000 in
/-- The body at any point. The inputs' buffers hold their blocks; the closed forms of the two branch
    conditions say which case the point is in; the invariant hands the body the three running sums at
    what the point before left (at anything at the first point) and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m c).owesAt () t.succ = (dats m c).owesAt () t.castSucc from rfl]
  rw [show (dats m c).Φ t.succ = PhiS m c (t.val + 1) t.isLt from rfl, PhiS_succ]
  have hN : t.val < 64 := lt_of_lt_of_eq t.isLt (show cfg0.N = 64 from N_0)
  rw [show (dats m c).leavesExact 0 t = owns (c : Thread nD τ) (ms0_0 t) fullShare ((dats m c).after 0 t) from by
    unfold Dat.leavesExact; rw [liveAt0_0 t], after0]
  rw [show (dats m c).leavesExact 1 t = owns (c : Thread nD τ) (ms0_1 t) fullShare ((dats m c).after 1 t) from by
    unfold Dat.leavesExact; rw [liveAt0_1 t], after1]
  rw [show (dats m c).leavesExact 2 t = owns (c : Thread nD τ) (ms0_2 t) fullShare ((dats m c).after 2 t) from by
    unfold Dat.leavesExact; rw [liveAt0_2 t], after2]
  rw [show (dats m c).leavesExact 3 t = owns (c : Thread nD τ) (ms0_3 t) fullShare ((dats m c).after 3 t) from by
    unfold Dat.leavesExact; rw [liveAt0_3 t], after3]
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dats m c) 4 t (idleAt0_4 t hc1) (noFlush0_4 t hc1)]
    rw [accAt_first m c t h0]
    unfold accStep accZero; dsimp only
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩⟩
      iapply (run_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk m c 0 t) (iblk m c 1 t) (iblk m c 2 t) (iblk m c 3 t) ((dats m c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply (run_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk m c 0 t) (iblk m c 1 t) (iblk m c 2 t) (iblk m c 3 t) ((dats m c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond0_0 (grid0.coords t) := fun h => h0 ((hcond0_0 t).mp h)
    by_cases h1 : t.val % 8 = 7
    · have hc1 : cond0_1 (grid0.coords t) := (hcond0_1 t).mpr h1
      rw [show (dats m c).leavesExact 4 t = owns (c : Thread nD τ) (ms0_4 t) fullShare ((dats m c).after 4 t) from by
        unfold Dat.leavesExact; rw [liveAt0_4 t hc1], after4]
      unfold outAt lossOf
      rw [accAt_next m c t h0]
      unfold accStep; dsimp only
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply (run_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dats m c) 4 t (idleAt0_4 t hc1) (noFlush0_4 t hc1)]
      rw [accAt_next m c t h0]
      unfold accStep; dsimp only
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply (run_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk m c 0 t) (iblk m c 1 t) (iblk m c 2 t) (iblk m c 3 t) ((dats m c).before 4 t d4) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m c) (defs₀ (F := F)) Variants.none () Set.univ := fun t => by
  rw [bigSep_W0, bigSep_W0]
  exact sound_body m c t

end Cert.Kernel.Hand

end
-- ==== Proof.K.LaunchLemmas.lean ====
import proofs.«152556_j7945689498002_1_alg».proof.Proof.K.Entry

/-!
Two windows of the kernel region read the same array (the features, as an 8192 x 256 matrix), so
the pipeline holds that array in two halves, one per window.  This module relates the pipeline's
holding of its arrays to the four distinct buffers behind them, each whole; names the buffer
contents when the region is left and after the host operations that follow it; and records which
buffers the host operations write.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A proposition held in two parts beside a rest is the whole beside the rest. -/
theorem join_front {A A₁ A₂ R : sProp 𝕄} (h : A ⊣⊢ iprop(A₁ ∗ A₂)) :
    (iprop(A₁ ∗ A₂ ∗ R) : sProp 𝕄) = iprop(A ∗ R) := by
  have h1 : (iprop(A₁ ∗ A₂ ∗ R) : sProp 𝕄) ⊢ iprop(A ∗ R) := by
    iintro ⟨H1, H2, HR⟩
    isplitl [H1 H2]
    · iapply h.2
      isplitl [H1]; · iexact H1
      iexact H2
    iexact HR
  have h2 : (iprop(A ∗ R) : sProp 𝕄) ⊢ iprop(A₁ ∗ A₂ ∗ R) := by
    iintro ⟨H, HR⟩
    ihave H' := h.1 $$ H
    icases H' with ⟨H1, H2⟩
    isplitl [H1]; · iexact H1
    isplitl [H2]; · iexact H2
    iexact HR
  exact BI.equiv_iff.mp ⟨h1, h2⟩

section
variable (dats : (c : Dev nD) → Dat τ (Elt F) Unit ℕ (UR sig nD τ) ℕ cfg0 c)

/-- The share of its array each window holds: the two windows on the features array a half each, every
    other window its whole array. -/
theorem share_0 (c : Dev nD) (hq0 : (dats c).q 0 = fullShare.left) : (dats c).share 0 = fullShare.left := by
  unfold Dat.share; exact (if_neg (by decide)).trans hq0
theorem share_1 (c : Dev nD) (hq1 : (dats c).q 1 = fullShare.right) : (dats c).share 1 = fullShare.right := by
  unfold Dat.share; exact (if_neg (by decide)).trans hq1
theorem share_2 (c : Dev nD) (hq2 : (dats c).q 2 = fullShare) : (dats c).share 2 = fullShare := by
  unfold Dat.share; exact (if_neg (by decide)).trans hq2
theorem share_3 (c : Dev nD) (hq3 : (dats c).q 3 = fullShare) : (dats c).share 3 = fullShare := by
  unfold Dat.share; exact (if_neg (by decide)).trans hq3
theorem share_4 (c : Dev nD) : (dats c).share 4 = fullShare := by
  unfold Dat.share; exact if_pos (by decide)

/-- The pipeline's arrays at contents read off one valuation of the buffers are the four buffers behind
    them, whole at the full share: the two halves of the features array join. -/
theorem arrays_eq_arrBufs (c : Dev nD)
    (hq0 : (dats c).q 0 = fullShare.left) (hq1 : (dats c).q 1 = fullShare.right)
    (hq2 : (dats c).q 2 = fullShare) (hq3 : (dats c).q 3 = fullShare)
    (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    ((dats c).arrays Fw : sProp 𝕄) = Pipeline.arrBufs spec0 c V' := by
  unfold Dat.arrays Pipeline.arrBufs
  rw [bigSep_W0, bigSep_eq_bigSepL_of_eq [main_v1, main_v5, main_v6, main_v7] (by decide) (by decide)]
  simp only [bigSepL_cons_cons, bigSepL_singleton]
  rw [share_0 dats c hq0, share_1 dats c hq1, share_2 dats c hq2, share_3 dats c hq3, share_4 dats c,
    (arr_whole0 0).set_eq_univ, (arr_whole0 2).set_eq_univ, (arr_whole0 3).set_eq_univ, (arr_whole0 4).set_eq_univ,
    hF 0, hF 1, hF 2, hF 3, hF 4]
  exact join_front (pointsTo_share (PosShare.mem_left_op_right fullShare))
end

/-! ## What the host operations write -/

/-- The references the host operations before the region write. -/
abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_⟩ <;>
    (simp only [StableHlo.nullary_writes, StableHlo.unary_writes, StableHlo.binary_writes, StableHlo.reshape_writes, Finset.singleton_subset_iff, List.mem_toFinset]; exact List.mem_map_of_mem (by decide))

/-- The references the host operations after the region write. -/
abbrev hostOps1_W : List (Ref sig .tc) := [main_cst, main_v8, main_cst_0, main_v9, main_v10]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_⟩ <;>
    (simp only [StableHlo.nullary_writes, StableHlo.unary_writes, StableHlo.binary_writes, StableHlo.reshape_writes, Finset.singleton_subset_iff, List.mem_toFinset]; exact List.mem_map_of_mem (by decide))

/-- A buffer the host operations before the region do not write enters the region as launched. -/
theorem V_of (c : Dev nD) (r : Ref sig .tc) (h : r ∉ hostOps0_W) : V m c r = m ((c : Thread nD τ).loc r) :=
  StableHlo.after_of_writes_sub (hostOps0 (F := F)) (fun b => m (c, b)) hostOps0_writes h

/-! ## The buffers when the region is left, and after the host operations that follow -/

section Exit
variable (dats : (c : Dev nD) → Dat τ (Elt F) Unit ℕ (UR sig nD τ) ℕ cfg0 c)

/-- Core `c`'s buffer contents when the region is left: the output array as the write-backs leave it,
    every other buffer as the region found it. -/
def Wx (c : Dev nD) : Valuation τ sig (Elt F) :=
  Function.update (V0 m c) (Proc.devRef .tc main_v7) ((dats c).arrAt 4 cfg0.N)

/-- Its contents after the host operations that follow the region. -/
def Wend (c : Dev nD) : Valuation τ sig (Elt F) := StableHlo.after hostOps1 (Wx m dats c)

theorem Wx_v7 (c : Dev nD) : Wx m dats c (Proc.devRef .tc main_v7) = (dats c).arrAt 4 cfg0.N := by
  unfold Wx; exact Function.update_self _ _ _

theorem Wx_of (c : Dev nD) (r : Ref sig .tc) (h : r ∉ ([main_v7] : List (Ref sig .tc))) :
    Wx m dats c (Proc.devRef .tc r) = V m c r := by
  unfold Wx
  exact Function.update_of_ne (StableHlo.devRef_ne_of_ne (List.ne_of_not_mem_cons h) : (Proc.devRef .tc r : DevRef τ sig) ≠ Proc.devRef .tc main_v7) _ _

theorem Wend_of (c : Dev nD) (r : Ref sig .tc) (h : r ∉ hostOps1_W) :
    Wend m dats c (Proc.devRef .tc r) = Wx m dats c (Proc.devRef .tc r) :=
  StableHlo.after_of_writes_sub (hostOps1 (F := F)) _ hostOps1_writes h

/-- The result: minus the mean of the output array's 8192 entries. -/
theorem Wend_v10 (c : Dev nD) :
    Wend m dats c (Proc.devRef .tc main_v10)
      = Host.negf (F := F) (Host.divf (F := F) (Host.reduceAdd (F := F) ((dats c).arrAt 4 cfg0.N) (constant (F := F) S_ .f32 0x00000000#32) reducesTo_S8192x1_S_d0_1 h_S_) (constant (F := F) S_ .f32 0x46000000#32)) := by
  unfold Wend
  after_results
  rw [Wx_v7]

/-- Each window's array when the region is left is what `Wx` gives its buffer: an input array is
    never written, and stands as the region found it. -/
theorem arrAt_Wx (hA : ∀ c w, (dats c).A w = V m c (Pipeline.arrRef spec0 w)) (c : Dev nD) (w : Fin cfg0.W) :
    (dats c).arrAt w cfg0.N = Wx m dats c (Proc.devRef .tc (Pipeline.arrRef spec0 w)) :=
  match w with
  | ⟨0, _⟩ => ((dats c).arrAt_in 0 rfl _).trans ((hA c 0).trans (Wx_of m dats c main_v1 (by decide)).symm)
  | ⟨1, _⟩ => ((dats c).arrAt_in 1 rfl _).trans ((hA c 1).trans (Wx_of m dats c main_v1 (by decide)).symm)
  | ⟨2, _⟩ => ((dats c).arrAt_in 2 rfl _).trans ((hA c 2).trans (Wx_of m dats c main_v5 (by decide)).symm)
  | ⟨3, _⟩ => ((dats c).arrAt_in 3 rfl _).trans ((hA c 3).trans (Wx_of m dats c main_v6 (by decide)).symm)
  | ⟨4, _⟩ => (Wx_v7 m dats c).symm

/-- And the host operations after the region write none of them. -/
theorem arrAt_Wend (hA : ∀ c w, (dats c).A w = V m c (Pipeline.arrRef spec0 w)) (c : Dev nD) (w : Fin cfg0.W) :
    (dats c).arrAt w cfg0.N = Wend m dats c (Proc.devRef .tc (Pipeline.arrRef spec0 w)) :=
  (arrAt_Wx m dats hA c w).trans (Wend_of m dats c (Pipeline.arrRef spec0 w) (by revert w; decide)).symm

end Exit

end Cert.Kernel.Hand

end
-- ==== Proof.K.LaunchRun.lean ====
import proofs.«152556_j7945689498002_1_alg».proof.Proof.K.LaunchLemmas

/-!
The run of the whole program from any proof data for its one kernel region: the host operations
before the region, the region, the host operations after it.  Two windows of the region read the
same array, so that array is held in two halves, one per window; after the region the halves are
joined again, the later host operations run over whole buffers, and the result and the two
arguments are read off the final memory.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Run
variable (dats : (c : Dev nD) → Dat τ (Elt F) Unit ℕ (UR sig nD τ) ℕ cfg0 c)

/-! ## The host operations after the region -/

/-- The buffers no window stages hold at the region's exit what they held at its entry. -/
theorem rest_Wx (c : Dev nD) :
    (Pipeline.unscopedRest spec0 c (V m c) : sProp 𝕄)
      = Pipeline.unscopedRest spec0 c (fun b => Wx m dats c (Proc.devRef .tc b)) := by
  unfold Pipeline.unscopedRest
  exact bigSep_congr fun b hb => by
    beta_reduce
    rw [Wx_of m dats c b fun h => (Finset.mem_sdiff.mp hb).2
      (Finset.mem_image.mpr ⟨4, Finset.mem_univ _, (show Pipeline.arrRef spec0 4 = b from (List.mem_singleton.mp h).symm)⟩)]

set_option backward.isDefEq.respectTransparency.types false in
/-- The host operations after the region, run over all the unscoped buffers held whole. -/
theorem tail_held (c : Dev nD) (Q' : PUnit → sProp 𝕄) :
    iprop(((StableHlo.held (c.tc : Thread nD τ) (Pipeline.ucRefs τ sig) (Wend m dats c) : sProp 𝕄) -∗ Q' ⟨⟩)
        ∗ boundary (c.tc : Thread nD τ) ∗ (StableHlo.held (c.tc : Thread nD τ) (Pipeline.ucRefs τ sig) (Wx m dats c) : sProp 𝕄))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  iintro ⟨Hk, Hb⟩
  iapply (Pipeline.wp_seqs_then (fun q => (cfgs q).toPCfg (Val := Elt F)) defs₀ Variants.none c (Pipeline.ucRefs τ sig) [] [hostOps1]
    (fun ops ho op h => by
      rw [List.mem_singleton] at ho; subst ho
      exact Pipeline.sub_ucRefs op ((List.forall_iff_forall_mem.mp hostOps1_sub) op h))
    (fun ops ho op h => by
      rw [List.mem_singleton] at ho; subst ho
      exact (List.forall_iff_forall_mem.mp hostOps1_fresh) op h)
    (Wx m dats c)) $$ Hb
  iintro Hb
  rw [Pipeline.chain_nil, wp_pure]
  imodintro
  iapply Hk
  icases Hb with ⟨-, H⟩
  iexact H

/-- The same from what the region hands back — the pipeline's arrays, the features array in two halves, and the
    buffers no window stages —, giving the arrays back as they were and those buffers after the operations. -/
theorem tail_run (hA : ∀ c w, (dats c).A w = V m c (Pipeline.arrRef spec0 w)) (c : Dev nD)
    (hq0 : (dats c).q 0 = fullShare.left) (hq1 : (dats c).q 1 = fullShare.right)
    (hq2 : (dats c).q 2 = fullShare) (hq3 : (dats c).q 3 = fullShare) (Q' : PUnit → sProp 𝕄) :
    iprop((iprop((dats c).arrays ((dats c).arrAt · cfg0.N)
              ∗ Pipeline.unscopedRest spec0 c (fun b => Wend m dats c (Proc.devRef .tc b))) -∗ Q' ⟨⟩)
        ∗ boundary (c.tc : Thread nD τ) ∗ (dats c).arrays ((dats c).arrAt · cfg0.N)
        ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have e_end : (iprop((dats c).arrays ((dats c).arrAt · cfg0.N)
        ∗ Pipeline.unscopedRest spec0 c (fun b => Wend m dats c (Proc.devRef .tc b))) : sProp 𝕄)
      = StableHlo.held (c.tc : Thread nD τ) (Pipeline.ucRefs τ sig) (Wend m dats c) := by
    rw [arrays_eq_arrBufs dats c hq0 hq1 hq2 hq3 (fun b => Wend m dats c (Proc.devRef .tc b)) _ (arrAt_Wend m dats hA c)]
    exact (Pipeline.unscopedBufs_split₀ cfgs (0 : Fin 1) winFacts₀0.arr_unscoped c _).symm.trans
      (Pipeline.unscopedBufs_held c (Wend m dats c))
  have e_x : (iprop((dats c).arrays ((dats c).arrAt · cfg0.N)
        ∗ Pipeline.unscopedRestP Pipeline.Prefetch.none spec0 c (V m c)) : sProp 𝕄)
      = StableHlo.held (c.tc : Thread nD τ) (Pipeline.ucRefs τ sig) (Wx m dats c) := by
    rw [Pipeline.unscopedRestP_none, rest_Wx m dats c,
      arrays_eq_arrBufs dats c hq0 hq1 hq2 hq3 (fun b => Wx m dats c (Proc.devRef .tc b)) _ (arrAt_Wx m dats hA c)]
    exact (Pipeline.unscopedBufs_split₀ cfgs (0 : Fin 1) winFacts₀0.arr_unscoped c _).symm.trans
      (Pipeline.unscopedBufs_held c (Wx m dats c))
  rw [e_end, e_x]
  exact tail_held m dats c Q'

end Run

section Launch
variable (dats : (c : Dev nD) → Dat τ (Elt F) Unit ℕ (UR sig nD τ) ℕ cfg0 c)

set_option backward.isDefEq.respectTransparency.types false in
/-- THE RUN. For any proof data of the kernel region whose arrays are the buffers as the region finds them, which holds
    the features array in two halves (one per window reading it) and every other input array whole, which owes nothing,
    whose body obligation holds and whose invariant is the scratch buffers and the generator register at its two ends:
    every weakly fair execution of the program on the TensorCores terminates, and in every final state the result is
    minus the mean of the entries the write-backs left in the output array, and the two arguments are as launched. -/
theorem run_of
    (hA : ∀ c w, (dats c).A w = V m c (Pipeline.arrRef spec0 w))
    (hq0 : ∀ c, (dats c).q 0 = fullShare.left) (hq1 : ∀ c, (dats c).q 1 = fullShare.right)
    (hq2 : ∀ c, (dats c).q 2 = fullShare) (hq3 : ∀ c, (dats c).q 3 = fullShare)
    (howed : ∀ c t, (dats c).owed t = 0)
    (hbody : ∀ c, Pipeline.BodyObligationLoose (dats c) defs₀ Variants.none () Set.univ)
    (hin : ∀ c, Pipeline.ΦA spec0 c ⊢ (dats c).Φ 0)
    (hout : ∀ c, (dats c).Φ (Fin.last cfg0.N) ⊢ Pipeline.ΦA spec0 c) :
    θ_run defs (onTc (τ := τ) (main (F := F))) ⟨m, fun _ => 0, ρ⟩ (fun r => ∀ c : Dev nD,
        r.2.mem ((c.tc : Thread nD τ).loc main_v10)
          = Host.negf (F := F) (Host.divf (F := F) (Host.reduceAdd (F := F) ((dats c).arrAt 4 cfg0.N) (constant (F := F) S_ .f32 0x00000000#32) reducesTo_S8192x1_S_d0_1 h_S_) (constant (F := F) S_ .f32 0x46000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  have phinj : Function.Injective (cellOf (nD := nD) (τ := τ)
      (Pipeline.pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) (fun _ => dats) ()
    phinj (0 : Fin 1) winFacts₀0 (Pipeline.OwnSemFacts.none spec0) (Pipeline.PreFacts.none spec0) emb₁ defs₀ Variants.none m ρ main
    (fun _ => Pipeline.chain [StableHlo.seq hostOps1]) hbody block_pos0 arr_whole0 stage_whole0 howed
    (G := fun _ => iprop(emp))
    (u₀ := initOf (Pipeline.cells _ phinj) (Pipeline.launchToks _ phinj))
    (hu₀ := by
      iintro Hu; imodintro
      isplitl [Hu]; · iapply (show (ownU _ : sProp 𝕄) ⊢ BI.own (emb₁ (initOf (Pipeline.cells _ phinj) (Pipeline.launchToks _ phinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => Entails.of_eq
      (arrays_eq_arrBufs dats c (hq0 c) (hq1 c) (hq2 c) (hq3 c) (V m c) _ (fun w => hA c w)).symm)
    (hpf := fun _ k => k.elim0)
    (X := fun c => iprop(∃ r, prngReg c r)) (Y := fun c => iprop(∃ r, prngReg c r))
    (Z := fun c => Pipeline.unscopedRestP Pipeline.Prefetch.none spec0 c (V m c))
    (Z' := fun c => Pipeline.unscopedRest spec0 c (fun b => Wend m dats c (Proc.devRef .tc b)))
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr]; · iexact Hr
      iexact Hp).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats hA c (hq0 c) (hq1 c) (hq2 c) (hq3 c) Q')
    (QY := fun c s => ∀ b ∈ Pipeline.restRefs sig spec0, s.mem ((c.tc : Thread nD τ).loc b) = Wend m dats c (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => Wend m dats c (Proc.devRef .tc b)) s')
      isplitl [HU] <;> iassumption)
    (hQ := fun s h c =>
      ⟨((h c).2.2 main_v10 (Pipeline.mem_restRefs_of main_v10 rfl (by decide))).trans (Wend_v10 m dats c),
       ((h c).2.2 main_arg0 (Pipeline.mem_restRefs_of main_arg0 rfl (by decide))).trans
          ((Wend_of m dats c main_arg0 (by decide)).trans ((Wx_of m dats c main_arg0 (by decide)).trans (V_of m c main_arg0 (by decide)))),
       ((h c).2.2 main_arg1 (Pipeline.mem_restRefs_of main_arg1 rfl (by decide))).trans
          ((Wend_of m dats c main_arg1 (by decide)).trans ((Wx_of m dats c main_arg1 (by decide)).trans (V_of m c main_arg1 (by decide))))⟩)

end Launch

end Cert.Kernel.Hand

end
-- ==== Proof.K.Frame.lean ====
import proofs.«152556_j7945689498002_1_alg».proof.Proof.K.Body
import proofs.«152556_j7945689498002_1_alg».proof.Proof.K.LaunchRun

/-!
The frame of the program: every weakly fair execution terminates, and in every final state the two
arguments are as launched. It is the run of the whole program from the proof data of its one
kernel region, keeping of the final state only what it says of the arguments.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The program runs to the end from any memory with zero counters and leaves its two arguments unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2)
    (run_of m ρ (dats m) (A_eq m) (q0 m) (q1 m) (fun _ => rfl) (fun _ => rfl) (fun _ _ => rfl)
      (fun c => (body_obligation m c).loose) (hin m) (hout m))

end Cert.Kernel.Hand

end
-- ==== Proof.KI.Entry.lean ====
import proofs.«152556_j7945689498002_1_alg».proof.Proof.Gen.KernelIdeal.Launch
import proofs.«152556_j7945689498002_1_alg».proof.Proof.Gen.KernelIdeal.Skeleton
import proofs.«152556_j7945689498002_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
The region's entry: what each TensorCore buffer holds when the one kernel region of the program is
entered (the seven host operations before it applied to the launch memory), the block of each
window's array that a grid point works on, and the program as "host lines, the region, host lines".
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffer contents when the region is entered: the host operations before the region
    (the transpose and reshape of the features, the tiling and two reshapes of the labels) applied
    to the launch memory. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program is host lines, the region, host lines: it reduces to the region continued by the
    later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (show List.Forall _ [hostOps0] from hostOps0_sub)
    (show List.Forall _ [hostOps0] from hostOps0_fresh) main_chain

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KI.Steps.lean ====
import proofs.«152556_j7945689498002_1_alg».proof.Proof.KI.Entry

/-!
What the three running sums and the output block hold after each grid point, as pure functions of
the blocks the point works on.

A grid point `(i0, i1)` works on the row block `i0` and the column block `i1`. The three scratch
columns carry, for each of the 1024 rows of the row block, the sum over the column blocks seen so
far of: the masked exponentials, the masked scaled similarities, and the positive-pair counts. They
are cleared at the first column block (`i1 = 0`), every point adds its block's row sums, and the
last column block (`i1 = 7`) turns them into the row losses.
-/

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F] [Named F]

/-- The three running sums: masked exponentials, masked scaled similarities, positive-pair counts. -/
abbrev Acc (F : FTy → Type) : Type := Vec F S1024x1 .f32 × Vec F S1024x1 .f32 × Vec F S1024x1 .f32

/-- The running sums just cleared. -/
def accZero : Acc F := (k0_pay7 (F := F), k0_pay8 (F := F), k0_pay9 (F := F))

/-- One grid point's update of the running sums `a` (as the point finds them after the clearing, if
    it clears) from its row block `q`, its column block `k` and the two label blocks. -/
def accStep (i : grid0.Coords) (q k : Vec F S1024x256 .f32) (lr : Vec F S1024x1 .i32) (lc : Vec F S1x1024 .i32)
    (a : Acc F) : Acc F :=
  (k0_pay3 (k0_pay10 q) (k0_pay11 k) (k0_pay12 (F := F) i) a.1,
   k0_pay4 (k0_pay10 q) (k0_pay11 k) (k0_pay12 (F := F) i) (k0_pay13 lr lc) a.2.1,
   k0_pay5 (k0_pay12 (F := F) i) (k0_pay13 (F := F) lr lc) a.2.2)

/-- The row losses from the finished running sums. -/
def lossOf (a : Acc F) : Vec F S1024x1 .f32 := k0_pay6 a.2.1 a.2.2 a.1

variable (m : (ℓ : Loc nD τ sig) → Buf (Elt F) ℓ)

/-- The running sums after the body at position `n` of the grid walk: cleared first at the points
    with `n % 8 = 0` (the first column block of a row block), else what position `n - 1` left. -/
def accAt (c : Dev nD) : (n : ℕ) → n < cfg0.N → Acc F
  | 0, hn => accStep (grid0.coords ⟨0, hn⟩) (iblk m c 0 ⟨0, hn⟩) (iblk m c 1 ⟨0, hn⟩) (iblk m c 2 ⟨0, hn⟩) (iblk m c 3 ⟨0, hn⟩) accZero
  | n + 1, hn => accStep (grid0.coords ⟨n + 1, hn⟩) (iblk m c 0 ⟨n + 1, hn⟩) (iblk m c 1 ⟨n + 1, hn⟩) (iblk m c 2 ⟨n + 1, hn⟩) (iblk m c 3 ⟨n + 1, hn⟩)
      (if (n + 1) % 8 = 0 then accZero else accAt c n (Nat.lt_of_succ_lt hn))

/-- The output block after the body at point `t` (meaningful at the points of the last column
    block, where it is stored and written back): the row losses of that point's running sums. -/
def outAt (c : Dev nD) (t : Fin cfg0.N) : Vec F S1024x1 .f32 := lossOf (accAt m c t.val t.isLt)

theorem accAt_first (c : Dev nD) (t : Fin cfg0.N) (h : t.val % 8 = 0) :
    accAt m c t.val t.isLt = accStep (grid0.coords t) (iblk m c 0 t) (iblk m c 1 t) (iblk m c 2 t) (iblk m c 3 t) accZero := by
  obtain ⟨n, hn⟩ := t
  cases n with
  | zero => rfl
  | succ n => exact congrArg _ (if_pos h)

theorem accAt_next (c : Dev nD) (t : Fin cfg0.N) (h : ¬ t.val % 8 = 0) :
    accAt m c t.val t.isLt = accStep (grid0.coords t) (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd (Nat.zero_mod _) h
  | succ n => exact congrArg _ (if_neg h)

end Cert.KernelIdeal.Hand

end
-- ==== Proof.KI.Dats.lean ====
import proofs.«152556_j7945689498002_1_alg».proof.Proof.KI.Steps

/-!
The proof data of the one pipeline: the arrays as the region finds them, what the body leaves in each
window's buffer at each grid point, and the invariant carried from point to point.

The invariant before the first point is the class's (the three running-sum columns at anything);
before any later point it owns the three columns at the running sums the point before left.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- The three running-sum columns: whole scoped buffers of the kernel's own, passed beside the windows. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2

/-- The class's invariant with the three columns as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant before position `n` of the grid walk: before the first point the class's; afterwards
    the three columns at the running sums position `n - 1` left, and the generator register at some
    state. -/
def PhiS (c : Dev nD) : (n : ℕ) → n ≤ cfg0.N → sProp 𝕄
  | 0, _ => Pipeline.ΦA spec0 c
  | n + 1, hn => iprop(iprop(owns (c : Thread nD τ) scM0_0 fullShare (accAt m c n hn).1 ∗ owns (c : Thread nD τ) scM0_1 fullShare (accAt m c n hn).2.1 ∗ owns (c : Thread nD τ) scM0_2 fullShare (accAt m c n hn).2.2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAt m c n hn).1 ∗ owns (c : Thread nD τ) scM0_1 fullShare (accAt m c n hn).2.1 ∗ owns (c : Thread nD τ) scM0_2 fullShare (accAt m c n hn).2.2) ∗ (∃ r, prngReg c r)) := rfl

theorem PhiS_pos (c : Dev nD) (n : ℕ) (h : n ≤ cfg0.N) (hz : n ≠ 0) :
    PhiS m c n h = iprop(iprop(owns (c : Thread nD τ) scM0_0 fullShare (accAt m c (n - 1) (by omega)).1 ∗ owns (c : Thread nD τ) scM0_1 fullShare (accAt m c (n - 1) (by omega)).2.1 ∗ owns (c : Thread nD τ) scM0_2 fullShare (accAt m c (n - 1) (by omega)).2.2) ∗ (∃ r, prngReg c r)) := by
  cases n with
  | zero => exact absurd rfl hz
  | succ n => rfl

/-- The proof data of the one pipeline on core `c`. The two feature windows read the same array and
    split its share between them. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m c).A w = V m c (Pipeline.arrRef spec0 w) := by
  dsimp only [dats]

theorem PhiS_castSucc (c : Dev nD) (t : Fin cfg0.N) :
    (dats m c).Φ t.castSucc = PhiS m c t.val (Nat.le_of_lt t.isLt) := by
  dsimp only [dats]; simp only [Fin.coe_castSucc]

theorem after0 (c : Dev nD) (t : Fin cfg0.N) : (dats m c).after 0 t = iblk m c 0 t := by dsimp only [dats]
theorem after1 (c : Dev nD) (t : Fin cfg0.N) : (dats m c).after 1 t = iblk m c 1 t := by dsimp only [dats]
theorem after2 (c : Dev nD) (t : Fin cfg0.N) : (dats m c).after 2 t = iblk m c 2 t := by dsimp only [dats]
theorem after3 (c : Dev nD) (t : Fin cfg0.N) : (dats m c).after 3 t = iblk m c 3 t := by dsimp only [dats]
theorem after4 (c : Dev nD) (t : Fin cfg0.N) : (dats m c).after 4 t = outAt m c t := by dsimp only [dats]

theorem q0 (c : Dev nD) : (dats m c).q 0 = fullShare.left := by dsimp only [dats]
theorem q1 (c : Dev nD) : (dats m c).q 1 = fullShare.right := by dsimp only [dats]

/-- What the launch hands the region is the invariant before the first point. -/
theorem hin (c : Dev nD) : Pipeline.ΦA spec0 c ⊢ (dats m c).Φ 0 := by
  rw [show (dats m c).Φ 0 = PhiS m c 0 (Nat.zero_le _) from rfl, PhiS_zero m c 0 _ rfl]
  try exact Idealize.SL.BI.Entails.refl _

/-- After any point but the first the invariant gives the class's back: the named running sums are
    forgotten. -/
theorem Phi_out (c : Dev nD) (t : Fin (cfg0.N + 1)) (ht : t.val ≠ 0) : (dats m c).Φ t ⊢ Pipeline.ΦA spec0 c := by
  rw [show (dats m c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m c).Φ (Fin.last cfg0.N) ⊢ Pipeline.ΦA spec0 c :=
  Phi_out m c _ (by rw [Fin.val_last]; have : cfg0.N = 64 := N_0; omega)

end Cert.KernelIdeal.Hand

end
-- ==== Proof.KI.Cases.lean ====
import proofs.«152556_j7945689498002_1_alg».proof.Proof.KI.Dats

/-!
What the runs of the body at a grid point are stated over: the two branch conditions of the body in
closed form over the grid, where the output window is idle and where it is written back, the
staging memrefs of each window at a point, and that each input window's current staging buffer
holds its block at every point.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- The condition of the first branch of the body (clear the running sums): the column block is the
    first. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the second branch of the body (emit the row losses): the column block is the
    last. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last column block the output window is idle and not written back; -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- at the last column block it is live. -/
theorem liveAt0_4 : ∀ t : Fin cfg0.N, cond0_1 (grid0.coords t) → cfg0.idle 4 (grid0.coords t) = false := by decide +kernel

/-- Each window's current staging memref at point `t`, spelled as the pipeline passes it, and its wholeness. -/
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)

/-- Each input window's current staging buffer holds its block at every point, fetched there or not:
    unfetched, the block index has not moved. -/
theorem before0_0 (c : Dev nD) (t : Fin cfg0.N) (d) : (dats m c).before 0 t d = iblk m c 0 t :=
  ((dats m c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before0_1 (c : Dev nD) (t : Fin cfg0.N) (d) : (dats m c).before 1 t d = iblk m c 1 t :=
  ((dats m c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before0_2 (c : Dev nD) (t : Fin cfg0.N) (d) : (dats m c).before 2 t d = iblk m c 2 t :=
  ((dats m c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before0_3 (c : Dev nD) (t : Fin cfg0.N) (d) : (dats m c).before 3 t d = iblk m c 3 t :=
  ((dats m c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.KernelIdeal.Hand

end
-- ==== Proof.KI.RunB.lean ====
import proofs.«152556_j7945689498002_1_alg».proof.Proof.KI.Cases
import Idealize.ShloMosaic.Lib.Pipeline.Value

/-!
The body at a grid point of a middle column block (neither the first nor the last): it adds the
block's row sums to the three running sums and leaves the output window's buffer untouched.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- The offsets of a whole-buffer load or store are zero. -/
theorem hz : (![0, 0] : Fin 2 → Nat) = fun _ => 0 := funext fun a => by fin_cases a <;> rfl

/-- One store through the whole-buffer rectangle leaves its payload, whatever the buffer held. -/
theorem read_store_whole {sg : RefSig} {κ : Kind} {sp : Space} {S : Shape} {e : EltTy} (hS : S.rank = 2)
    (v : View sg κ sp S e) (f : v.ty.Contents (Elt F)) (off : Fin S.rank → Nat) (h0 : off = fun _ => 0)
    (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero h0 inb y⟩), View.canon_unit_zero h0]

set_option maxHeartbeats 4000000 in
/-- The body in the middle case: from the four input buffers at their blocks, the output buffer at
    anything (handed back untouched) and the three running sums at `a0`, `a1`, `a2`, it runs to the
    same with the running sums advanced by the block's row sums. -/
theorem run_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 x1 : Vec F S1024x256 .f32) (x2 : Vec F S1024x1 .i32) (x3 : Vec F S1x1024 .i32) (xi4 : Vec F S1024x1 .f32)
    (a0 a1 a2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4
        ∗ owns (c : Thread nD τ) arg7 fullShare a0 ∗ owns (c : Thread nD τ) arg8 fullShare a1 ∗ owns (c : Thread nD τ) arg9 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4
            ∗ owns (c : Thread nD τ) arg7 fullShare (k0_pay3 (k0_pay10 x0) (k0_pay11 x1) (k0_pay12 (F := F) i) a0)
            ∗ owns (c : Thread nD τ) arg8 fullShare (k0_pay4 (k0_pay10 x0) (k0_pay11 x1) (k0_pay12 (F := F) i) (k0_pay13 x2 x3) a1)
            ∗ owns (c : Thread nD τ) arg9 fullShare (k0_pay5 (k0_pay12 (F := F) i) (k0_pay13 (F := F) x2 x3) a2)) -∗ K ⟨⟩))
      ⊢ wp frame (wpE (defs₀ (F := F)) Variants.none c none) E (cc0__supcon_kernel i arg2 harg2 arg3 harg3 arg4 harg4 arg5 harg5 arg6 harg6 arg7 harg7 arg8 harg8 arg9 harg9) K := by
  simp only [cc0__supcon_kernel_eq_skeleton]; unfold cc0__supcon_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg6.eq_unread hf4
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    rw [read_store_whole rfl _ _ _ hz]
    sl_unfold_run_names
    simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz]
  isplitl [HS1]
  · iexists _; isplitr; swap; · iexact HS1
    ipureintro
    rw [read_store_whole rfl _ _ _ hz]
    sl_unfold_run_names
    simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz]
  iexists _; isplitr; swap; · iexact HS2
  ipureintro
  rw [read_store_whole rfl _ _ _ hz]
  sl_unfold_run_names
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz]

end Cert.KernelIdeal.Hand

end
-- ==== Proof.KI.RunA.lean ====
import proofs.«152556_j7945689498002_1_alg».proof.Proof.KI.RunB

/-!
The body at a grid point of the first column block: it clears the three running sums, then adds the
block's row sums, and leaves the output window's buffer untouched.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- A store through the whole-buffer rectangle, made last, leaves its payload, whatever came before. -/
theorem read_store_whole_cons {sg : RefSig} {κ : Kind} {sp : Space} {S : Shape} {e : EltTy} (hS : S.rank = 2)
    (v : View sg κ sp S e) (f : v.ty.Contents (Elt F)) (off : Fin S.rank → Nat) (h0 : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.Mem.head _, View.mem_set_unit_zero h0 inb y⟩), View.canon_cons_unit_zero h0]

set_option maxHeartbeats 4000000 in
/-- The body in the first-column-block case: from the four input buffers at their blocks, the output
    buffer at anything (handed back untouched) and the three running sums at anything, it runs to the
    same with the running sums at the block's row sums added to the cleared columns. -/
theorem run_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 x1 : Vec F S1024x256 .f32) (x2 : Vec F S1024x1 .i32) (x3 : Vec F S1x1024 .i32) (xi4 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4
            ∗ owns (c : Thread nD τ) arg7 fullShare (k0_pay3 (k0_pay10 x0) (k0_pay11 x1) (k0_pay12 (F := F) i) (k0_pay7 (F := F)))
            ∗ owns (c : Thread nD τ) arg8 fullShare (k0_pay4 (k0_pay10 x0) (k0_pay11 x1) (k0_pay12 (F := F) i) (k0_pay13 x2 x3) (k0_pay8 (F := F)))
            ∗ owns (c : Thread nD τ) arg9 fullShare (k0_pay5 (k0_pay12 (F := F) i) (k0_pay13 (F := F) x2 x3) (k0_pay9 (F := F)))) -∗ K ⟨⟩))
      ⊢ wp frame (wpE (defs₀ (F := F)) Variants.none c none) E (cc0__supcon_kernel i arg2 harg2 arg3 harg3 arg4 harg4 arg5 harg5 arg6 harg6 arg7 harg7 arg8 harg8 arg9 harg9) K := by
  simp only [cc0__supcon_kernel_eq_skeleton]; unfold cc0__supcon_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    rw [read_store_whole_cons rfl _ _ _ hz]
    sl_unfold_run_names
    simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz, View.readCov_unit_zero (S := S1024x1) _ hz]
  isplitl [HS1]
  · iexists _; isplitr; swap; · iexact HS1
    ipureintro
    rw [read_store_whole_cons rfl _ _ _ hz]
    sl_unfold_run_names
    simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz, View.readCov_unit_zero (S := S1024x1) _ hz]
  iexists _; isplitr; swap; · iexact HS2
  ipureintro
  rw [read_store_whole_cons rfl _ _ _ hz]
  sl_unfold_run_names
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz, View.readCov_unit_zero (S := S1024x1) _ hz]

end Cert.KernelIdeal.Hand

end
-- ==== Proof.KI.RunC.lean ====
import proofs.«152556_j7945689498002_1_alg».proof.Proof.KI.RunA

/-!
The body at a grid point of the last column block: it adds the block's row sums to the three running
sums and stores the row losses computed from them into the output window's buffer.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

set_option maxHeartbeats 4000000 in
/-- The body in the last-column-block case: from the four input buffers at their blocks, the output
    buffer at anything and the three running sums at `a0`, `a1`, `a2`, it runs to the same with the
    running sums advanced by the block's row sums and the output buffer at the row losses of the
    advanced sums. -/
theorem run_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x1 .i32) (harg4 : arg4.IsWhole) (arg5 : Memref sig .tc .vmem S1x1024 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 x1 : Vec F S1024x256 .f32) (x2 : Vec F S1024x1 .i32) (x3 : Vec F S1x1024 .i32)
    (a0 a1 a2 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d)
        ∗ owns (c : Thread nD τ) arg7 fullShare a0 ∗ owns (c : Thread nD τ) arg8 fullShare a1 ∗ owns (c : Thread nD τ) arg9 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay6 (k0_pay4 (k0_pay10 x0) (k0_pay11 x1) (k0_pay12 (F := F) i) (k0_pay13 x2 x3) a1) (k0_pay5 (k0_pay12 (F := F) i) (k0_pay13 (F := F) x2 x3) a2) (k0_pay3 (k0_pay10 x0) (k0_pay11 x1) (k0_pay12 (F := F) i) a0))
            ∗ owns (c : Thread nD τ) arg7 fullShare (k0_pay3 (k0_pay10 x0) (k0_pay11 x1) (k0_pay12 (F := F) i) a0)
            ∗ owns (c : Thread nD τ) arg8 fullShare (k0_pay4 (k0_pay10 x0) (k0_pay11 x1) (k0_pay12 (F := F) i) (k0_pay13 x2 x3) a1)
            ∗ owns (c : Thread nD τ) arg9 fullShare (k0_pay5 (k0_pay12 (F := F) i) (k0_pay13 (F := F) x2 x3) a2)) -∗ K ⟨⟩))
      ⊢ wp frame (wpE (defs₀ (F := F)) Variants.none c none) E (cc0__supcon_kernel i arg2 harg2 arg3 harg3 arg4 harg4 arg5 harg5 arg6 harg6 arg7 harg7 arg8 harg8 arg9 harg9) K := by
  simp only [cc0__supcon_kernel_eq_skeleton]; unfold cc0__supcon_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3
  obtain rfl := harg7.eq_unread hfs0; obtain rfl := harg8.eq_unread hfs1; obtain rfl := harg9.eq_unread hfs2
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    sl_unfold_run_names
    rw [read_store_whole_cons rfl _ _ _ hz]
    simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz, View.readCov_unit_zero (S := S1024x1) _ hz]
  isplitl [HS0]
  · iexists _; isplitr; swap; · iexact HS0
    ipureintro
    sl_unfold_run_names
    rw [read_store_whole_cons rfl _ _ _ hz]
    simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz]
  isplitl [HS1]
  · iexists _; isplitr; swap; · iexact HS1
    ipureintro
    sl_unfold_run_names
    rw [read_store_whole_cons rfl _ _ _ hz]
    simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz]
  iexists _; isplitr; swap; · iexact HS2
  ipureintro
  sl_unfold_run_names
  rw [read_store_whole_cons rfl _ _ _ hz]
  simp only [View.readAt_eq_ld, harg2.read_unread, harg3.read_unread, harg4.read_unread, harg5.read_unread, harg6.read_unread, harg7.read_unread, harg8.read_unread, harg9.read_unread, View.ld_unit_zero (S := S1024x1) hz, View.ld_unit_zero (S := S1024x256) hz, View.ld_unit_zero (S := S1x1024) hz]

end Cert.KernelIdeal.Hand

end
-- ==== Proof.KI.Body.lean ====
import proofs.«152556_j7945689498002_1_alg».proof.Proof.KI.RunC

/-!
The body obligation of the one pipeline: at every grid point, from the invariant and every window's
current buffer at what it then holds, the kernel's body runs to the invariant at the next point and
every buffer at what the proof data says the body leaves. By cases on the column block of the
point: the first (the running sums are cleared first), a middle one, the last (the row losses are
stored into the output window's buffer).
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- What the body is called with at point `t`, the windows one by one, -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d)))

/-- and what it returns. -/
def bodyPost (c : Dev nD) (t : Fin cfg0.N) : sProp 𝕄 :=
  iprop((dats m c).Φ t.succ ∗ (dats m c).owesAt () t.succ
    ∗ (dats m c).leavesExact 0 t
    ∗ (dats m c).leavesExact 1 t
    ∗ (dats m c).leavesExact 2 t
    ∗ (dats m c).leavesExact 3 t
    ∗ (dats m c).leavesExact 4 t)

set_option maxHeartbeats 4800000 in
/-- The body at any point. The inputs' buffers hold their blocks; the closed forms of the two branch
    conditions say which case the point is in; the invariant hands the body the three running sums at
    what the point before left (at anything at the first point) and takes them back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m c).owesAt () t.succ = (dats m c).owesAt () t.castSucc from rfl]
  rw [show (dats m c).Φ t.succ = PhiS m c (t.val + 1) t.isLt from rfl, PhiS_succ]
  have hN : t.val < 64 := lt_of_lt_of_eq t.isLt (show cfg0.N = 64 from N_0)
  rw [show (dats m c).leavesExact 0 t = owns (c : Thread nD τ) (ms0_0 t) fullShare ((dats m c).after 0 t) from by
    unfold Dat.leavesExact; rw [liveAt0_0 t], after0]
  rw [show (dats m c).leavesExact 1 t = owns (c : Thread nD τ) (ms0_1 t) fullShare ((dats m c).after 1 t) from by
    unfold Dat.leavesExact; rw [liveAt0_1 t], after1]
  rw [show (dats m c).leavesExact 2 t = owns (c : Thread nD τ) (ms0_2 t) fullShare ((dats m c).after 2 t) from by
    unfold Dat.leavesExact; rw [liveAt0_2 t], after2]
  rw [show (dats m c).leavesExact 3 t = owns (c : Thread nD τ) (ms0_3 t) fullShare ((dats m c).after 3 t) from by
    unfold Dat.leavesExact; rw [liveAt0_3 t], after3]
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dats m c) 4 t (idleAt0_4 t hc1) (noFlush0_4 t hc1)]
    rw [accAt_first m c t h0]
    unfold accStep accZero; dsimp only
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩⟩
      iapply (run_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk m c 0 t) (iblk m c 1 t) (iblk m c 2 t) (iblk m c 3 t) ((dats m c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply (run_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk m c 0 t) (iblk m c 1 t) (iblk m c 2 t) (iblk m c 3 t) ((dats m c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond0_0 (grid0.coords t) := fun h => h0 ((hcond0_0 t).mp h)
    by_cases h1 : t.val % 8 = 7
    · have hc1 : cond0_1 (grid0.coords t) := (hcond0_1 t).mpr h1
      rw [show (dats m c).leavesExact 4 t = owns (c : Thread nD τ) (ms0_4 t) fullShare ((dats m c).after 4 t) from by
        unfold Dat.leavesExact; rw [liveAt0_4 t hc1], after4]
      unfold outAt lossOf
      rw [accAt_next m c t h0]
      unfold accStep; dsimp only
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply (run_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk m c 0 t) (iblk m c 1 t) (iblk m c 2 t) (iblk m c 3 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dats m c) 4 t (idleAt0_4 t hc1) (noFlush0_4 t hc1)]
      rw [accAt_next m c t h0]
      unfold accStep; dsimp only
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply (run_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) hc0 hc1 (iblk m c 0 t) (iblk m c 1 t) (iblk m c 2 t) (iblk m c 3 t) ((dats m c).before 4 t d4) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2 Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m c) (defs₀ (F := F)) Variants.none () Set.univ := fun t => by
  rw [bigSep_W0, bigSep_W0]
  exact sound_body m c t

end Cert.KernelIdeal.Hand

end
-- ==== Proof.KI.LaunchLemmas.lean ====
import proofs.«152556_j7945689498002_1_alg».proof.Proof.KI.Entry

/-!
Two windows of the kernel region read the same array (the features, as an 8192 x 256 matrix), so
the pipeline holds that array in two halves, one per window.  This module relates the pipeline's
holding of its arrays to the four distinct buffers behind them, each whole; names the buffer
contents when the region is left and after the host operations that follow it; and records which
buffers the host operations write.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A proposition held in two parts beside a rest is the whole beside the rest. -/
theorem join_front {A A₁ A₂ R : sProp 𝕄} (h : A ⊣⊢ iprop(A₁ ∗ A₂)) :
    (iprop(A₁ ∗ A₂ ∗ R) : sProp 𝕄) = iprop(A ∗ R) := by
  have h1 : (iprop(A₁ ∗ A₂ ∗ R) : sProp 𝕄) ⊢ iprop(A ∗ R) := by
    iintro ⟨H1, H2, HR⟩
    isplitl [H1 H2]
    · iapply h.2
      isplitl [H1]; · iexact H1
      iexact H2
    iexact HR
  have h2 : (iprop(A ∗ R) : sProp 𝕄) ⊢ iprop(A₁ ∗ A₂ ∗ R) := by
    iintro ⟨H, HR⟩
    ihave H' := h.1 $$ H
    icases H' with ⟨H1, H2⟩
    isplitl [H1]; · iexact H1
    isplitl [H2]; · iexact H2
    iexact HR
  exact BI.equiv_iff.mp ⟨h1, h2⟩

section
variable (dats : (c : Dev nD) → Dat τ (Elt F) Unit ℕ (UR sig nD τ) ℕ cfg0 c)

/-- The share of its array each window holds: the two windows on the features array a half each, every
    other window its whole array. -/
theorem share_0 (c : Dev nD) (hq0 : (dats c).q 0 = fullShare.left) : (dats c).share 0 = fullShare.left := by
  unfold Dat.share; exact (if_neg (by decide)).trans hq0
theorem share_1 (c : Dev nD) (hq1 : (dats c).q 1 = fullShare.right) : (dats c).share 1 = fullShare.right := by
  unfold Dat.share; exact (if_neg (by decide)).trans hq1
theorem share_2 (c : Dev nD) (hq2 : (dats c).q 2 = fullShare) : (dats c).share 2 = fullShare := by
  unfold Dat.share; exact (if_neg (by decide)).trans hq2
theorem share_3 (c : Dev nD) (hq3 : (dats c).q 3 = fullShare) : (dats c).share 3 = fullShare := by
  unfold Dat.share; exact (if_neg (by decide)).trans hq3
theorem share_4 (c : Dev nD) : (dats c).share 4 = fullShare := by
  unfold Dat.share; exact if_pos (by decide)

/-- The pipeline's arrays at contents read off one valuation of the buffers are the four buffers behind
    them, whole at the full share: the two halves of the features array join. -/
theorem arrays_eq_arrBufs (c : Dev nD)
    (hq0 : (dats c).q 0 = fullShare.left) (hq1 : (dats c).q 1 = fullShare.right)
    (hq2 : (dats c).q 2 = fullShare) (hq3 : (dats c).q 3 = fullShare)
    (V' : (b : Ref sig .tc) → Buf (Elt F) ((c : Thread nD τ).loc b))
    (Fw : (w : Fin cfg0.W) → Buf (Elt F) ((cfg0.win w).arr.view.loc (c : Thread nD τ)))
    (hF : ∀ w, Fw w = V' (Pipeline.arrRef spec0 w)) :
    ((dats c).arrays Fw : sProp 𝕄) = Pipeline.arrBufs spec0 c V' := by
  unfold Dat.arrays Pipeline.arrBufs
  rw [bigSep_W0, bigSep_eq_bigSepL_of_eq [main_v1, main_v5, main_v6, main_v7] (by decide) (by decide)]
  simp only [bigSepL_cons_cons, bigSepL_singleton]
  rw [share_0 dats c hq0, share_1 dats c hq1, share_2 dats c hq2, share_3 dats c hq3, share_4 dats c,
    (arr_whole0 0).set_eq_univ, (arr_whole0 2).set_eq_univ, (arr_whole0 3).set_eq_univ, (arr_whole0 4).set_eq_univ,
    hF 0, hF 1, hF 2, hF 3, hF 4]
  exact join_front (pointsTo_share (PosShare.mem_left_op_right fullShare))
end

/-! ## What the host operations write -/

/-- The references the host operations before the region write. -/
abbrev hostOps0_W : List (Ref sig .tc) := [main_v0, main_v1, main_v2, main_v3, main_v4, main_v5, main_v6]
theorem hostOps0_writes : (hostOps0 : List (HloOp τ sig (Elt F))).Forall fun op => op.writes ⊆ (hostOps0_W.map (Proc.devRef (τ := τ) .tc)).toFinset := by
  simp only [List.Forall]
  refine ⟨?_, ?_, ?_, ?_, ?_, ?_, ?_⟩ <;>
    (simp only [StableHlo.nullary_writes, StableHlo.unary_writes, StableHlo.binary_writes, StableHlo.reshape_writes, Finset.singleton_subset_iff, List.mem_toFinset]; exact List.mem_map_of_mem (by decide))

/-- The references the host operations after the region write. -/
abbrev hostOps1_W : List (Ref sig .tc) := [main_cst, main_v8, main_cst_0, main_v9, main_v10]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_⟩ <;>
    (simp only [StableHlo.nullary_writes, StableHlo.unary_writes, StableHlo.binary_writes, StableHlo.reshape_writes, Finset.singleton_subset_iff, List.mem_toFinset]; exact List.mem_map_of_mem (by decide))

/-- A buffer the host operations before the region do not write enters the region as launched. -/
theorem V_of (c : Dev nD) (r : Ref sig .tc) (h : r ∉ hostOps0_W) : V m c r = m ((c : Thread nD τ).loc r) :=
  StableHlo.after_of_writes_sub (hostOps0 (F := F)) (fun b => m (c, b)) hostOps0_writes h

/-! ## The buffers when the region is left, and after the host operations that follow -/

section Exit
variable (dats : (c : Dev nD) → Dat τ (Elt F) Unit ℕ (UR sig nD τ) ℕ cfg0 c)

/-- Core `c`'s buffer contents when the region is left: the output array as the write-backs leave it,
    every other buffer as the region found it. -/
def Wx (c : Dev nD) : Valuation τ sig (Elt F) :=
  Function.update (V0 m c) (Proc.devRef .tc main_v7) ((dats c).arrAt 4 cfg0.N)

/-- Its contents after the host operations that follow the region. -/
def Wend (c : Dev nD) : Valuation τ sig (Elt F) := StableHlo.after hostOps1 (Wx m dats c)

theorem Wx_v7 (c : Dev nD) : Wx m dats c (Proc.devRef .tc main_v7) = (dats c).arrAt 4 cfg0.N := by
  unfold Wx; exact Function.update_self _ _ _

theorem Wx_of (c : Dev nD) (r : Ref sig .tc) (h : r ∉ ([main_v7] : List (Ref sig .tc))) :
    Wx m dats c (Proc.devRef .tc r) = V m c r := by
  unfold Wx
  exact Function.update_of_ne (StableHlo.devRef_ne_of_ne (List.ne_of_not_mem_cons h) : (Proc.devRef .tc r : DevRef τ sig) ≠ Proc.devRef .tc main_v7) _ _

theorem Wend_of (c : Dev nD) (r : Ref sig .tc) (h : r ∉ hostOps1_W) :
    Wend m dats c (Proc.devRef .tc r) = Wx m dats c (Proc.devRef .tc r) :=
  StableHlo.after_of_writes_sub (hostOps1 (F := F)) _ hostOps1_writes h

/-- The result: minus the mean of the output array's 8192 entries. -/
theorem Wend_v10 (c : Dev nD) :
    Wend m dats c (Proc.devRef .tc main_v10)
      = Host.negf (F := F) (Host.divf (F := F) (Host.reduceAdd (F := F) ((dats c).arrAt 4 cfg0.N) (constant (F := F) S_ .f32 0x00000000#32) reducesTo_S8192x1_S_d0_1 h_S_) (constant (F := F) S_ .f32 0x46000000#32)) := by
  unfold Wend
  after_results
  rw [Wx_v7]

/-- Each window's array when the region is left is what `Wx` gives its buffer: an input array is
    never written, and stands as the region found it. -/
theorem arrAt_Wx (hA : ∀ c w, (dats c).A w = V m c (Pipeline.arrRef spec0 w)) (c : Dev nD) (w : Fin cfg0.W) :
    (dats c).arrAt w cfg0.N = Wx m dats c (Proc.devRef .tc (Pipeline.arrRef spec0 w)) :=
  match w with
  | ⟨0, _⟩ => ((dats c).arrAt_in 0 rfl _).trans ((hA c 0).trans (Wx_of m dats c main_v1 (by decide)).symm)
  | ⟨1, _⟩ => ((dats c).arrAt_in 1 rfl _).trans ((hA c 1).trans (Wx_of m dats c main_v1 (by decide)).symm)
  | ⟨2, _⟩ => ((dats c).arrAt_in 2 rfl _).trans ((hA c 2).trans (Wx_of m dats c main_v5 (by decide)).symm)
  | ⟨3, _⟩ => ((dats c).arrAt_in 3 rfl _).trans ((hA c 3).trans (Wx_of m dats c main_v6 (by decide)).symm)
  | ⟨4, _⟩ => (Wx_v7 m dats c).symm

/-- And the host operations after the region write none of them. -/
theorem arrAt_Wend (hA : ∀ c w, (dats c).A w = V m c (Pipeline.arrRef spec0 w)) (c : Dev nD) (w : Fin cfg0.W) :
    (dats c).arrAt w cfg0.N = Wend m dats c (Proc.devRef .tc (Pipeline.arrRef spec0 w)) :=
  (arrAt_Wx m dats hA c w).trans (Wend_of m dats c (Pipeline.arrRef spec0 w) (by revert w; decide)).symm

end Exit

end Cert.KernelIdeal.Hand

end
-- ==== Proof.KI.LaunchRun.lean ====
import proofs.«152556_j7945689498002_1_alg».proof.Proof.KI.LaunchLemmas

/-!
The run of the whole program from any proof data for its one kernel region: the host operations
before the region, the region, the host operations after it.  Two windows of the region read the
same array, so that array is held in two halves, one per window; after the region the halves are
joined again, the later host operations run over whole buffers, and the result and the two
arguments are read off the final memory.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Run
variable (dats : (c : Dev nD) → Dat τ (Elt F) Unit ℕ (UR sig nD τ) ℕ cfg0 c)

/-! ## The host operations after the region -/

/-- The buffers no window stages hold at the region's exit what they held at its entry. -/
theorem rest_Wx (c : Dev nD) :
    (Pipeline.unscopedRest spec0 c (V m c) : sProp 𝕄)
      = Pipeline.unscopedRest spec0 c (fun b => Wx m dats c (Proc.devRef .tc b)) := by
  unfold Pipeline.unscopedRest
  exact bigSep_congr fun b hb => by
    beta_reduce
    rw [Wx_of m dats c b fun h => (Finset.mem_sdiff.mp hb).2
      (Finset.mem_image.mpr ⟨4, Finset.mem_univ _, (show Pipeline.arrRef spec0 4 = b from (List.mem_singleton.mp h).symm)⟩)]

set_option backward.isDefEq.respectTransparency.types false in
/-- The host operations after the region, run over all the unscoped buffers held whole. -/
theorem tail_held (c : Dev nD) (Q' : PUnit → sProp 𝕄) :
    iprop(((StableHlo.held (c.tc : Thread nD τ) (Pipeline.ucRefs τ sig) (Wend m dats c) : sProp 𝕄) -∗ Q' ⟨⟩)
        ∗ boundary (c.tc : Thread nD τ) ∗ (StableHlo.held (c.tc : Thread nD τ) (Pipeline.ucRefs τ sig) (Wx m dats c) : sProp 𝕄))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  iintro ⟨Hk, Hb⟩
  iapply (Pipeline.wp_seqs_then (fun q => (cfgs q).toPCfg (Val := Elt F)) defs₀ Variants.none c (Pipeline.ucRefs τ sig) [] [hostOps1]
    (fun ops ho op h => by
      rw [List.mem_singleton] at ho; subst ho
      exact Pipeline.sub_ucRefs op ((List.forall_iff_forall_mem.mp hostOps1_sub) op h))
    (fun ops ho op h => by
      rw [List.mem_singleton] at ho; subst ho
      exact (List.forall_iff_forall_mem.mp hostOps1_fresh) op h)
    (Wx m dats c)) $$ Hb
  iintro Hb
  rw [Pipeline.chain_nil, wp_pure]
  imodintro
  iapply Hk
  icases Hb with ⟨-, H⟩
  iexact H

/-- The same from what the region hands back — the pipeline's arrays, the features array in two halves, and the
    buffers no window stages —, giving the arrays back as they were and those buffers after the operations. -/
theorem tail_run (hA : ∀ c w, (dats c).A w = V m c (Pipeline.arrRef spec0 w)) (c : Dev nD)
    (hq0 : (dats c).q 0 = fullShare.left) (hq1 : (dats c).q 1 = fullShare.right)
    (hq2 : (dats c).q 2 = fullShare) (hq3 : (dats c).q 3 = fullShare) (Q' : PUnit → sProp 𝕄) :
    iprop((iprop((dats c).arrays ((dats c).arrAt · cfg0.N)
              ∗ Pipeline.unscopedRest spec0 c (fun b => Wend m dats c (Proc.devRef .tc b))) -∗ Q' ⟨⟩)
        ∗ boundary (c.tc : Thread nD τ) ∗ (dats c).arrays ((dats c).arrAt · cfg0.N)
        ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have e_end : (iprop((dats c).arrays ((dats c).arrAt · cfg0.N)
        ∗ Pipeline.unscopedRest spec0 c (fun b => Wend m dats c (Proc.devRef .tc b))) : sProp 𝕄)
      = StableHlo.held (c.tc : Thread nD τ) (Pipeline.ucRefs τ sig) (Wend m dats c) := by
    rw [arrays_eq_arrBufs dats c hq0 hq1 hq2 hq3 (fun b => Wend m dats c (Proc.devRef .tc b)) _ (arrAt_Wend m dats hA c)]
    exact (Pipeline.unscopedBufs_split₀ cfgs (0 : Fin 1) winFacts₀0.arr_unscoped c _).symm.trans
      (Pipeline.unscopedBufs_held c (Wend m dats c))
  have e_x : (iprop((dats c).arrays ((dats c).arrAt · cfg0.N)
        ∗ Pipeline.unscopedRestP Pipeline.Prefetch.none spec0 c (V m c)) : sProp 𝕄)
      = StableHlo.held (c.tc : Thread nD τ) (Pipeline.ucRefs τ sig) (Wx m dats c) := by
    rw [Pipeline.unscopedRestP_none, rest_Wx m dats c,
      arrays_eq_arrBufs dats c hq0 hq1 hq2 hq3 (fun b => Wx m dats c (Proc.devRef .tc b)) _ (arrAt_Wx m dats hA c)]
    exact (Pipeline.unscopedBufs_split₀ cfgs (0 : Fin 1) winFacts₀0.arr_unscoped c _).symm.trans
      (Pipeline.unscopedBufs_held c (Wx m dats c))
  rw [e_end, e_x]
  exact tail_held m dats c Q'

end Run

section Launch
variable (dats : (c : Dev nD) → Dat τ (Elt F) Unit ℕ (UR sig nD τ) ℕ cfg0 c)

set_option backward.isDefEq.respectTransparency.types false in
/-- THE RUN. For any proof data of the kernel region whose arrays are the buffers as the region finds them, which holds
    the features array in two halves (one per window reading it) and every other input array whole, which owes nothing,
    whose body obligation holds and whose invariant is the scratch buffers and the generator register at its two ends:
    every weakly fair execution of the program on the TensorCores terminates, and in every final state the result is
    minus the mean of the entries the write-backs left in the output array, and the two arguments are as launched. -/
theorem run_of
    (hA : ∀ c w, (dats c).A w = V m c (Pipeline.arrRef spec0 w))
    (hq0 : ∀ c, (dats c).q 0 = fullShare.left) (hq1 : ∀ c, (dats c).q 1 = fullShare.right)
    (hq2 : ∀ c, (dats c).q 2 = fullShare) (hq3 : ∀ c, (dats c).q 3 = fullShare)
    (howed : ∀ c t, (dats c).owed t = 0)
    (hbody : ∀ c, Pipeline.BodyObligationLoose (dats c) defs₀ Variants.none () Set.univ)
    (hin : ∀ c, Pipeline.ΦA spec0 c ⊢ (dats c).Φ 0)
    (hout : ∀ c, (dats c).Φ (Fin.last cfg0.N) ⊢ Pipeline.ΦA spec0 c) :
    θ_run defs (onTc (τ := τ) (main (F := F))) ⟨m, fun _ => 0, ρ⟩ (fun r => ∀ c : Dev nD,
        r.2.mem ((c.tc : Thread nD τ).loc main_v10)
          = Host.negf (F := F) (Host.divf (F := F) (Host.reduceAdd (F := F) ((dats c).arrAt 4 cfg0.N) (constant (F := F) S_ .f32 0x00000000#32) reducesTo_S8192x1_S_d0_1 h_S_) (constant (F := F) S_ .f32 0x46000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  have phinj : Function.Injective (cellOf (nD := nD) (τ := τ)
      (Pipeline.pin (fun q => (cfgs q).toPCfg (Val := Elt F)) (fun q => (cfgs q).toPCfg_adm))) := cellOf_inj
  exact Pipeline.θ_run_region_pf_tail (fun q => (cfgs q).toPCfg (Val := Elt F)) (fun q => (cfgs q).toPCfg_adm) (fun _ => dats) ()
    phinj (0 : Fin 1) winFacts₀0 (Pipeline.OwnSemFacts.none spec0) (Pipeline.PreFacts.none spec0) emb₁ defs₀ Variants.none m ρ main
    (fun _ => Pipeline.chain [StableHlo.seq hostOps1]) hbody block_pos0 arr_whole0 stage_whole0 howed
    (G := fun _ => iprop(emp))
    (u₀ := initOf (Pipeline.cells _ phinj) (Pipeline.launchToks _ phinj))
    (hu₀ := by
      iintro Hu; imodintro
      isplitl [Hu]; · iapply (show (ownU _ : sProp 𝕄) ⊢ BI.own (emb₁ (initOf (Pipeline.cells _ phinj) (Pipeline.launchToks _ phinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => Entails.of_eq
      (arrays_eq_arrBufs dats c (hq0 c) (hq1 c) (hq2 c) (hq3 c) (V m c) _ (fun w => hA c w)).symm)
    (hpf := fun _ k => k.elim0)
    (X := fun c => iprop(∃ r, prngReg c r)) (Y := fun c => iprop(∃ r, prngReg c r))
    (Z := fun c => Pipeline.unscopedRestP Pipeline.Prefetch.none spec0 c (V m c))
    (Z' := fun c => Pipeline.unscopedRest spec0 c (fun b => Wend m dats c (Proc.devRef .tc b)))
    (hX := fun c => by
      iintro ⟨HU, -, -, -, Hp, -⟩; imodintro
      isplitl [Hp]; · iexists _; iexact Hp
      iexact HU)
    (hin := fun c => (show _ ⊢ Pipeline.ΦA spec0 c from by
      unfold Pipeline.ΦA; iintro ⟨Hp, -, Hr⟩
      isplitl [Hr]; · iexact Hr
      iexact Hp).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_run m dats hA c (hq0 c) (hq1 c) (hq2 c) (hq3 c) Q')
    (QY := fun c s => ∀ b ∈ Pipeline.restRefs sig spec0, s.mem ((c.tc : Thread nD τ).loc b) = Wend m dats c (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => Wend m dats c (Proc.devRef .tc b)) s')
      isplitl [HU] <;> iassumption)
    (hQ := fun s h c =>
      ⟨((h c).2.2 main_v10 (Pipeline.mem_restRefs_of main_v10 rfl (by decide))).trans (Wend_v10 m dats c),
       ((h c).2.2 main_arg0 (Pipeline.mem_restRefs_of main_arg0 rfl (by decide))).trans
          ((Wend_of m dats c main_arg0 (by decide)).trans ((Wx_of m dats c main_arg0 (by decide)).trans (V_of m c main_arg0 (by decide)))),
       ((h c).2.2 main_arg1 (Pipeline.mem_restRefs_of main_arg1 rfl (by decide))).trans
          ((Wend_of m dats c main_arg1 (by decide)).trans ((Wx_of m dats c main_arg1 (by decide)).trans (V_of m c main_arg1 (by decide))))⟩)

end Launch

end Cert.KernelIdeal.Hand

end
-- ==== Proof.KI.Frame.lean ====
import proofs.«152556_j7945689498002_1_alg».proof.Proof.KI.Body
import proofs.«152556_j7945689498002_1_alg».proof.Proof.KI.LaunchRun

/-!
The frame of the program: every weakly fair execution terminates, and in every final state the two
arguments are as launched. It is the run of the whole program from the proof data of its one
kernel region, keeping of the final state only what it says of the arguments.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

/-- The program runs to the end from any memory with zero counters and leaves its two arguments unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2)
    (run_of m ρ (dats m) (A_eq m) (q0 m) (q1 m) (fun _ => rfl) (fun _ => rfl) (fun _ _ => rfl)
      (fun c => (body_obligation m c).loose) (hin m) (hout m))

end Cert.KernelIdeal.Hand

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.KV.PaySim.lean ====
import proofs.«152556_j7945689498002_1_alg».proof.Proof.Gen.KernelIdeal.Skeleton
import proofs.«152556_j7945689498002_1_alg».proof.Proof.LibPlainDot
import Idealize.ShloMosaic.Lib.Pipeline.Value
import Idealize.ShloMosaic.Lib.ValueIdx
import Idealize.ShloMosaic.Lib.ValueLayout

/-!
The scaled similarity tile read at an entry: the inner product of row `p` of the normalised row
block with row `c` of the normalised column block (the column block is transposed before the
product), times the reciprocal temperature.
-/

noncomputable section

namespace Cert.KernelIdeal.Hand

open Idealize.ShloMosaic Idealize.ShloMosaic.ValueIdx
open Cert.KernelIdeal Cert.KernelIdeal.Gen

/-- The reciprocal temperature, as the program names it. -/
abbrev invTempWord : EReal := Named.named (F := Ideal) κ "inv_temp" (φ := .f32) 0x41649249#32

theorem pay2_apply (a b : FVec Ideal S1024x256 .bf16) (p c : Fin 1024) :
    k0_pay2 (F := Ideal) a b (ix2 p c) = (∑ k : Fin 256, a (ix2 p k) * b (ix2 c k)) * invTempWord := by
  unfold k0_pay2
  simp only [mulf_apply, broadcast_apply]
  refine congrArg (· * invTempWord) ?_
  refine (Cert.PlainDot.matmul_zero_apply dot_S1024x256_S256x1024_S1024x1024_1_0_0_1_n_n rfl none a
    (transpose S256x1024 [1, 0] b transposes_S1024x256_p1_0_S256x1024) p c).trans ?_
  refine Finset.sum_congr rfl fun k _ => ?_
  rw [transpose_ix2_apply]

end Cert.KernelIdeal.Hand

end
-- ==== Proof.Spec.lean ====
import Idealize.ShloMosaic.PureOps.Ideal
import Mathlib.Algebra.BigOperators.Fin

/-!
The supervised contrastive loss, written twice over the extended reals from the same data: the
matrix `f` of the 8192 feature rows (256 entries each) and the 8192 row labels `L`.

Kernel form: rows normalised by multiplying with the reciprocal square root of their sum of
squares; similarities scaled by MULTIPLYING with the temperature's reciprocal; per row `r` the three
sums over all other rows `S r = Σ_j exp(s r j)·(1 - [r = j])`, `W r = Σ_j ([L r = L j] - [r = j])·s r j`,
`C r = Σ_j ([L r = L j] - [r = j])`; row loss `W r / C r - log (S r)`; the result is minus the mean.

Reference form: rows normalised by DIVIDING by the square root of their sum of squares; similarities
DIVIDED by the temperature; per pair `log (e r j / S r)`, masked, summed, divided by `C r`; minus the mean.
-/

noncomputable section

namespace Cert.SupCon

open Idealize.ShloMosaic

/-- The reciprocal temperature the kernel multiplies by: exactly `1 / temp`. -/
def invTemp : EReal := ((134217728 / 9395241 : ℝ) : EReal)
/-- The temperature the reference divides by: the binary32 number nearest to 0.07. -/
def temp : EReal := Ideal.ofBits .f32 0x3D8F5C29#32
/-- The number of rows, as the binary32 number 8192 both programs divide the sum of row losses by. -/
def rowsLit : EReal := Ideal.ofBits .f32 0x46000000#32

/-- The identity mask. -/
def eye (r j : Fin 8192) : EReal := if r = j then 1 else 0
/-- The same-label mask. -/
def sameLabel (L : Fin 8192 → BitVec 32) (r j : Fin 8192) : EReal := if L r = L j then 1 else 0
/-- The positive-pair mask: same label, not the row itself. -/
def posMask (L : Fin 8192 → BitVec 32) (r j : Fin 8192) : EReal := sameLabel L r j - eye r j
/-- A row's sum of squares. -/
def sumSq (f : Fin 8192 → Fin 256 → EReal) (r : Fin 8192) : EReal := ∑ k : Fin 256, f r k * f r k
/-- The number of positive partners of a row. -/
def posCount (L : Fin 8192 → BitVec 32) (r : Fin 8192) : EReal := ∑ j : Fin 8192, posMask L r j

/-! ### The kernel's form -/

def kRow (f : Fin 8192 → Fin 256 → EReal) (r : Fin 8192) (k : Fin 256) : EReal := f r k * Ideal.rsqrt (sumSq f r)
def kSim (f : Fin 8192 → Fin 256 → EReal) (r j : Fin 8192) : EReal := (∑ k : Fin 256, kRow f r k * kRow f j k) * invTemp
def kExpSum (f : Fin 8192 → Fin 256 → EReal) (r : Fin 8192) : EReal := ∑ j : Fin 8192, Ideal.exp (kSim f r j) * (1 - eye r j)
def kPosSum (f : Fin 8192 → Fin 256 → EReal) (L : Fin 8192 → BitVec 32) (r : Fin 8192) : EReal := ∑ j : Fin 8192, posMask L r j * kSim f r j
def kLoss (f : Fin 8192 → Fin 256 → EReal) (L : Fin 8192 → BitVec 32) (r : Fin 8192) : EReal :=
  Ideal.div (kPosSum f L r) (posCount L r) - Ideal.log (kExpSum f r)
def kernelValue (f : Fin 8192 → Fin 256 → EReal) (L : Fin 8192 → BitVec 32) : EReal :=
  -(Ideal.div (∑ r : Fin 8192, kLoss f L r) rowsLit)

/-! ### The reference's form -/

def rRow (f : Fin 8192 → Fin 256 → EReal) (r : Fin 8192) (k : Fin 256) : EReal := Ideal.div (f r k) (Ideal.sqrt (sumSq f r))
def rExp (f : Fin 8192 → Fin 256 → EReal) (r j : Fin 8192) : EReal := Ideal.exp (Ideal.div (∑ k : Fin 256, rRow f r k * rRow f j k) temp)
def rExpSum (f : Fin 8192 → Fin 256 → EReal) (r : Fin 8192) : EReal := ∑ j : Fin 8192, rExp f r j * (1 - eye r j)
def rLogRatio (f : Fin 8192 → Fin 256 → EReal) (r j : Fin 8192) : EReal := Ideal.log (Ideal.div (rExp f r j) (rExpSum f r))
def rLoss (f : Fin 8192 → Fin 256 → EReal) (L : Fin 8192 → BitVec 32) (r : Fin 8192) : EReal :=
  Ideal.div (∑ j : Fin 8192, rLogRatio f r j * posMask L r j) (posCount L r)
def referenceValue (f : Fin 8192 → Fin 256 → EReal) (L : Fin 8192 → BitVec 32) : EReal :=
  -(Ideal.div (∑ r : Fin 8192, rLoss f L r) rowsLit)

end Cert.SupCon

end
-- ==== Proof.KV.NamedConst.lean ====
import proofs.«152556_j7945689498002_1_alg».proof.Defs
import proofs.«152556_j7945689498002_1_alg».proof.Proof.KV.PaySim
import proofs.«152556_j7945689498002_1_alg».proof.Proof.Spec
import Idealize.ShloMosaic.PureOps.IdealRules

/-!
The one constant the idealised kernel names: the reciprocal temperature it multiplies similarities
by is, on the extended reals, exactly one over the temperature the reference divides by.
-/

noncomputable section

namespace Cert.KernelIdeal.Hand

open Idealize.ShloMosaic
open Cert.KernelIdeal

/-- The named reciprocal temperature denotes the rational the certificate's table gives it. -/
theorem invTempWord_eq : invTempWord = Cert.SupCon.invTemp :=
  IdealRules.named_const.ideal_named_scalar _ _ _ _ rfl

/-- The idealised kernel differs from the printed one only in naming that constant. -/
theorem preserves : Cert.preserves_Kernel_KernelIdeal :=
  IdealRules.named_const.statement Cert.KernelIdeal.κ "inv_temp" .f32 0x41649249#32 ((134217728 / 9395241 : ℝ) : EReal) rfl

end Cert.KernelIdeal.Hand

end
-- ==== Proof.KV.Final.lean ====
import proofs.«152556_j7945689498002_1_alg».proof.Proof.KI.Steps
import Idealize.ShloMosaic.Lib.Pipeline.Value
import Idealize.ShloMosaic.Lib.ValueIdx

/-!
From the output window's blocks to the output array.

The output is a column of 8192 row losses, cut into eight blocks of 1024 rows. Grid point
`(i0, i1)` works on row block `i0`; the block is written back to rows `i0 * 1024 … i0 * 1024 + 1023`
of the array only at the last column step `i1 = 7`, that is at the points `t` with `t % 8 = 7`, and the
eight row blocks are disjoint and fill the array. So row `r` of the final array is row `r % 1024` of
what the body left at point `(r / 1024) * 8 + 7`.
-/

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F] [Named F]

variable (m : (ℓ : Loc nD τ sig) → Buf (Elt F) ℓ)

/-- The output window's block index at a point: the point's row block on the row axis, and the one
    column block. -/
theorem out_index : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- The last point of the row block that holds row `r`. -/
def lastPoint (r : ℕ) (hr : r < 8192) : Fin cfg0.N :=
  ⟨r / 1024 * 8 + 7, by have hN : cfg0.N = 64 := Gen.N_0; omega⟩

/-- The whole output column: row `r` is row `r % 1024` of what the body left at the last point of
    row block `r / 1024`. -/
def rowsOut (c : Dev nD) : S8192x1.Idx → Elt F .f32 := fun i =>
  outAt m c (lastPoint (i 0).val (i 0).isLt) (ValueIdx.ix2 ⟨(i 0).val % 1024, Nat.mod_lt _ (by decide)⟩ (0 : Fin 1))

/-- At an index of the array that sits in the block of a last point `t`, at the block's index `y`,
    the whole column reads what the body left at `t`, at `y`. -/
theorem rowsOut_at (c : Dev nD) (t : Fin cfg0.N) (h7 : t.val % 8 = 7) (i : S8192x1.Idx) (y : S1024x1.Idx)
    (h0 : (i 0).val = t.val / 8 * 1024 + (y 0).val) : rowsOut m c i = outAt m c t y := by
  have hy0 : (y 0).val < 1024 := (y 0).isLt
  have hy1 : (y 1).val < 1 := (y 1).isLt
  have ht : lastPoint (i 0).val (i 0).isLt = t := Fin.ext (by show (i 0).val / 1024 * 8 + 7 = t.val; omega)
  have hy : ValueIdx.ix2 (⟨(i 0).val % 1024, Nat.mod_lt _ (by decide)⟩ : Fin 1024) (0 : Fin 1) = y := by
    funext a; apply Fin.ext
    match a with
    | ⟨0, _⟩ => show (i 0).val % 1024 = (y 0).val; omega
    | ⟨1, _⟩ => show 0 = (y 1).val; omega
  unfold rowsOut
  rw [ht, hy]

/-- What a last point writes back is its block of the whole column. -/
theorem out_flushed {c : Dev nD} (dat : Pipeline.Dat τ (Elt F) Unit ℕ (UR sig nD τ) ℕ cfg0 c)
    (hafter4 : ∀ t, dat.after 4 t = outAt m c t) (t : Fin cfg0.N) (hf : (cfg0.win 4).flush t = true) :
    dat.flushed 4 t = ((cfg0.win 4).blk t).view.read (Elt F) (rowsOut m c) := by
  have h7 : t.val % 8 = 7 := (flush0_4 t).mp hf
  obtain ⟨e0, e1⟩ := out_index t
  show (cfg0.win 4).cut (grid0.coords t) (dat.after 4 t) = _
  rw [hafter4]
  funext y
  show outAt m c t ((cfg0.win 4).xinj (grid0.coords t) y) = rowsOut m c (((cfg0.win 4).blk t).view.emb y)
  refine (rowsOut_at m c t h7 _ _ ?_).symm
  show win0_4.index t (0 : Fin 2) * 1024 + 1 * (y 0).val = t.val / 8 * 1024 + (y 0).val
  rw [e0]; omega

/-- An index of the array is in point `t`'s block iff each coordinate is in the block's range. -/
theorem out_mem_blk (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v7).slice (win0_4.rect t)).set ↔ _
  rw [View.set_slice_whole, Rect.mem_set_unit]
  exact Iff.rfl

/-- Every row of the array is in the block some last point writes back: row `r` in that of the last
    point of row block `r / 1024`. -/
theorem out_cover (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  refine ⟨lastPoint (i 0).val hi0, (flush0_4 _).mpr (by show ((i 0).val / 1024 * 8 + 7) % 8 = 7; omega), ?_⟩
  obtain ⟨e0, e1⟩ := out_index (lastPoint (i 0).val hi0)
  have ev : (lastPoint (i 0).val hi0).val = (i 0).val / 1024 * 8 + 7 := rfl
  rw [out_mem_blk]
  intro a
  match a with
  | ⟨0, _⟩ => show win0_4.index (lastPoint (i 0).val hi0) (0 : Fin 2) * 1024 ≤ (i 0).val ∧ (i 0).val < win0_4.index (lastPoint (i 0).val hi0) (0 : Fin 2) * 1024 + 1024; rw [e0, ev]; omega
  | ⟨1, _⟩ => show win0_4.index (lastPoint (i 0).val hi0) (1 : Fin 2) * 1 ≤ (i 1).val ∧ (i 1).val < win0_4.index (lastPoint (i 0).val hi0) (1 : Fin 2) * 1 + 1; rw [e1]; omega

/-- The output array after the run is the whole column. -/
theorem arr_rows {c : Dev nD} (dat : Pipeline.Dat τ (Elt F) Unit ℕ (UR sig nD τ) ℕ cfg0 c)
    (hafter4 : ∀ t, dat.after 4 t = outAt m c t) : dat.arrAt 4 cfg0.N = rowsOut m c :=
  dat.arrAt_eq_of_cover 4 (rowsOut m c) (out_flushed m dat hafter4) out_cover

/-- Row `r` of the output array after the run: row `r % 1024` of what the body left at the last
    point of row block `r / 1024`. -/
theorem arr_final {c : Dev nD} (dat : Pipeline.Dat τ (Elt F) Unit ℕ (UR sig nD τ) ℕ cfg0 c)
    (hA : ∀ w, dat.A w = V m c (Pipeline.arrRef spec0 w))
    (hafter4 : ∀ t, dat.after 4 t = outAt m c t)
    (r : Fin 8192) :
    dat.arrAt 4 cfg0.N (ValueIdx.ix2 r (0 : Fin 1)) = outAt m c ⟨(r.val / 1024) * 8 + 7, by have := r.isLt; have hN : cfg0.N = 64 := Gen.N_0; omega⟩ (ValueIdx.ix2 ⟨r.val % 1024, Nat.mod_lt _ (by decide)⟩ (0 : Fin 1)) := by
  rw [arr_rows m dat hafter4]
  rfl

end Cert.KernelIdeal.Hand

end
-- ==== Proof.KV.Tail.lean ====
import proofs.«152556_j7945689498002_1_alg».proof.Proof.Gen.KernelIdeal
import proofs.«152556_j7945689498002_1_alg».proof.Proof.Spec
import Idealize.ShloMosaic.PureOps.Ideal.Laws
import Idealize.ShloMosaic.Lib.ValueIdx

/-!
The host's last lines, read over the extended reals: the sum of a one-column matrix over both of
its axes is the sum of its 8192 rows, and the result is minus that sum divided by the row count.
-/

noncomputable section

namespace Cert.KernelIdeal.Hand

open Idealize.ShloMosaic Idealize.ShloMosaic.TcCoe
open Cert.KernelIdeal Cert.KernelIdeal.Gen

/-- The indices of a matrix with 8192 rows and one column are its rows. -/
def colRows : Fin 8192 ≃ S8192x1.Idx where
  toFun r := ValueIdx.ix2 r (0 : Fin 1)
  invFun i := i 0
  left_inv _ := rfl
  right_inv i := (congrArg (ValueIdx.ix2 (i 0)) (Subsingleton.elim (0 : Fin 1) (i 1))).trans (ValueIdx.eq_ix2 i).symm

/-- The sum over every index of a one-column matrix is the sum over its rows. -/
theorem sum_colRows (X : S8192x1.Idx → EReal) : ∑ i : S8192x1.Idx, X i = ∑ r : Fin 8192, X (ValueIdx.ix2 r (0 : Fin 1)) :=
  (Equiv.sum_comp colRows X).symm

/-- The host's tail at a column `X` of row losses: zero plus the sum of all entries, divided by the
    row count, negated. -/
theorem tail_value (X : FVec Ideal S8192x1 .f32) :
    Host.negf (F := Ideal) (Host.divf (F := Ideal) (Host.reduceAdd (F := Ideal) X (constant (F := Ideal) S_ .f32 0x00000000#32) reducesTo_S8192x1_S_d0_1 h_S_) (constant (F := Ideal) S_ .f32 0x46000000#32)) ValueIdx.ix0
      = -(Ideal.div (∑ r : Fin 8192, X (ValueIdx.ix2 r (0 : Fin 1))) Cert.SupCon.rowsLit) := by
  show -(Ideal.div (Ideal.hostReduceAdd reducesTo_S8192x1_S_d0_1 X (Ideal.ofBits .f32 0x00000000#32) ValueIdx.ix0) (Ideal.ofBits .f32 0x46000000#32)) = _
  rw [Ideal.hostReduceAdd_total reducesTo_S8192x1_S_d0_1 (fun b => b.elim0), Ideal.ofBits_zero_f32, zero_add, sum_colRows]
  rfl

end Cert.KernelIdeal.Hand

end
-- ==== Proof.KV.Blocks.lean ====
import proofs.«152556_j7945689498002_1_alg».proof.Proof.KI.Entry
import Idealize.ShloMosaic.Lib.ValueIdx

/-!
Where a grid point's blocks sit in their arrays. Point `t` of the 64 has row block `t / 8` and
column block `t % 8`; entry `(p, k)` of its row block of the feature rows is entry
`(t/8·1024 + p, k)` of the array, of its column block entry `(t%8·1024 + p, k)`; likewise for the
label column and the label row.
-/

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F] [Named F]
variable (m : (ℓ : Loc nD τ sig) → Buf (Elt F) ℓ)

/-- The grid walk: point `t` has coordinates `(t / 8, t % 8)`. -/
theorem coords_val : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- The windows' block indices at point `t`. -/
theorem index_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

theorem pt_lt (t : Fin cfg0.N) : t.val < 64 := lt_of_lt_of_eq t.isLt N_0

/-- The row block of the feature rows. -/
theorem blk0_apply (c : Dev nD) (t : Fin cfg0.N) (p : Fin 1024) (k : Fin 256) :
    (iblk m c 0 t : S1024x256.Idx → Elt F .f32) (ix2 p k)
      = (V m c main_v1 : S8192x256.Idx → Elt F .f32) (ix2 ⟨t.val / 8 * 1024 + p.val, by have := pt_lt t; have := p.isLt; omega⟩ k) := by
  obtain ⟨e0, e1, -⟩ := index_facts t
  show (V m c main_v1 : S8192x256.Idx → Elt F .f32) (((cfg0.win 0).blk t).view.emb (ix2 p k)) = _
  refine congrArg (V m c main_v1 : S8192x256.Idx → Elt F .f32) ?_
  funext a; apply Fin.ext
  match a with
  | ⟨0, _⟩ => show win0_0.index t (0 : Fin 2) * 1024 + 1 * p.val = t.val / 8 * 1024 + p.val; omega
  | ⟨1, _⟩ => show win0_0.index t (1 : Fin 2) * 256 + 1 * k.val = k.val; omega

/-- The column block of the feature rows. -/
theorem blk1_apply (c : Dev nD) (t : Fin cfg0.N) (p : Fin 1024) (k : Fin 256) :
    (iblk m c 1 t : S1024x256.Idx → Elt F .f32) (ix2 p k)
      = (V m c main_v1 : S8192x256.Idx → Elt F .f32) (ix2 ⟨t.val % 8 * 1024 + p.val, by have := p.isLt; omega⟩ k) := by
  obtain ⟨-, -, e0, e1, -⟩ := index_facts t
  show (V m c main_v1 : S8192x256.Idx → Elt F .f32) (((cfg0.win 1).blk t).view.emb (ix2 p k)) = _
  refine congrArg (V m c main_v1 : S8192x256.Idx → Elt F .f32) ?_
  funext a; apply Fin.ext
  match a with
  | ⟨0, _⟩ => show win0_1.index t (0 : Fin 2) * 1024 + 1 * p.val = t.val % 8 * 1024 + p.val; omega
  | ⟨1, _⟩ => show win0_1.index t (1 : Fin 2) * 256 + 1 * k.val = k.val; omega

/-- The row block of the label column. -/
theorem blk2_apply (c : Dev nD) (t : Fin cfg0.N) (p : Fin 1024) (u : Fin 1) :
    (iblk m c 2 t : S1024x1.Idx → Elt F .i32) (ix2 p u)
      = (V m c main_v5 : S8192x1.Idx → Elt F .i32) (ix2 ⟨t.val / 8 * 1024 + p.val, by have := pt_lt t; have := p.isLt; omega⟩ (0 : Fin 1)) := by
  obtain ⟨-, -, -, -, e0, e1, -⟩ := index_facts t
  show (V m c main_v5 : S8192x1.Idx → Elt F .i32) (((cfg0.win 2).blk t).view.emb (ix2 p u)) = _
  refine congrArg (V m c main_v5 : S8192x1.Idx → Elt F .i32) ?_
  funext a; apply Fin.ext
  match a with
  | ⟨0, _⟩ => show win0_2.index t (0 : Fin 2) * 1024 + 1 * p.val = t.val / 8 * 1024 + p.val; omega
  | ⟨1, _⟩ => show win0_2.index t (1 : Fin 2) * 1 + 1 * u.val = 0; have := u.isLt; omega

/-- The column block of the label row. -/
theorem blk3_apply (c : Dev nD) (t : Fin cfg0.N) (u : Fin 1) (q : Fin 1024) :
    (iblk m c 3 t : S1x1024.Idx → Elt F .i32) (ix2 u q)
      = (V m c main_v6 : S1x8192.Idx → Elt F .i32) (ix2 (0 : Fin 1) ⟨t.val % 8 * 1024 + q.val, by have := q.isLt; omega⟩) := by
  obtain ⟨-, -, -, -, -, -, e0, e1, -⟩ := index_facts t
  show (V m c main_v6 : S1x8192.Idx → Elt F .i32) (((cfg0.win 3).blk t).view.emb (ix2 u q)) = _
  refine congrArg (V m c main_v6 : S1x8192.Idx → Elt F .i32) ?_
  funext a; apply Fin.ext
  match a with
  | ⟨0, _⟩ => show win0_3.index t (0 : Fin 2) * 1 + 1 * u.val = 0; have := u.isLt; omega
  | ⟨1, _⟩ => show win0_3.index t (1 : Fin 2) * 1024 + 1 * q.val = t.val % 8 * 1024 + q.val; omega

end Cert.KernelIdeal.Hand

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.KV.PayRows.lean ====
import proofs.«152556_j7945689498002_1_alg».proof.Proof.Gen.KernelIdeal.Skeleton
import proofs.«152556_j7945689498002_1_alg».proof.Proof.LibColumn
import proofs.«152556_j7945689498002_1_alg».proof.Proof.LibLaneSum
import Idealize.ShloMosaic.Lib.Pipeline.Value
import Idealize.ShloMosaic.Lib.ValueIdx

/-!
A normalised block read at an entry: the entry times the reciprocal square root of its row's sum of
squares. (The rounding to the narrower format is the identity on the extended reals.)
-/

noncomputable section

namespace Cert.KernelIdeal.Hand

open Idealize.ShloMosaic Idealize.ShloMosaic.ValueIdx
open Cert.KernelIdeal Cert.KernelIdeal.Gen

/-- The row sums of squares of a block, as a column read at row `p`. -/
theorem rowSq_apply (q : FVec Ideal S1024x256 .f32) (p : Fin 1024) (u : Fin 1) :
    shapeCast S1024x1 (multiReduction .add [1] S1024 (mulf q q) 0x00000000#32 reduces_S1024x256_S1024 (.inl rfl) rfl) shapeCasts_S1024_S1024x1 (ix2 p u)
      = ∑ d : Fin 256, q (ix2 p d) * q (ix2 p d) := by
  refine (Cert.GraphConv.Column.shapeCast_a_a1_apply _ shapeCasts_S1024_S1024x1 p u).trans ?_
  exact Cert.LaneSum.sum_last2 (mulf q q) 0x00000000#32 reduces_S1024x256_S1024 (.inl rfl) rfl p

/-- The row block normalised, at entry `(p, k)`. -/
theorem pay10_apply (q : FVec Ideal S1024x256 .f32) (p : Fin 1024) (k : Fin 256) :
    k0_pay10 (F := Ideal) q (ix2 p k) = q (ix2 p k) * Ideal.rsqrt (∑ d : Fin 256, q (ix2 p d) * q (ix2 p d)) := by
  unfold k0_pay10
  simp only [shapeCast_self, truncf_apply, mulf_apply]
  rw [Cert.GraphConv.Column.broadcastTo_a1_ab_apply]
  show _ * Ideal.rsqrt _ = _
  rw [rowSq_apply]

/-- The column block normalised, at entry `(p, k)`: the same function. -/
theorem pay11_apply (q : FVec Ideal S1024x256 .f32) (p : Fin 1024) (k : Fin 256) :
    k0_pay11 (F := Ideal) q (ix2 p k) = q (ix2 p k) * Ideal.rsqrt (∑ d : Fin 256, q (ix2 p d) * q (ix2 p d)) := by
  unfold k0_pay11
  simp only [shapeCast_self, truncf_apply, mulf_apply]
  rw [Cert.GraphConv.Column.broadcastTo_a1_ab_apply]
  show _ * Ideal.rsqrt _ = _
  rw [rowSq_apply]

end Cert.KernelIdeal.Hand

end
-- ==== Proof.KV.MaskWords.lean ====
import proofs.«152556_j7945689498002_1_alg».proof.Proof.Gen.KernelIdeal.Skeleton
import proofs.«152556_j7945689498002_1_alg».proof.Proof.LibColumn
import Idealize.ShloMosaic.Lib.Pipeline.Value
import Idealize.ShloMosaic.Lib.ValueIdx
import Idealize.ShloMosaic.Lib.ValueLayout

/-!
The two 0/1 masks of a tile, read at an entry. The identity mask of the tile at grid point
`(i0, i1)` is 1 exactly where the global row `i0·1024 + p` is the global column `i1·1024 + c`; the
same-label mask is 1 exactly where the row's label word equals the column's.
-/

noncomputable section

namespace Cert.KernelIdeal.Hand

open Idealize.ShloMosaic Idealize.ShloMosaic.ValueIdx
open Cert.KernelIdeal Cert.KernelIdeal.Gen

/-- An equality test of two words, widened and converted, is 1 where they are equal and 0 elsewhere. -/
theorem eqMask_scalar (a b : BitVec 32) :
    (((((IntOp.cmpi .eq a b).setWidth 32 : BitVec 32).toInt : ℝ)) : EReal) = if a = b then 1 else 0 := by
  by_cases h : a = b
  · subst h
    have : ((IntOp.cmpi .eq a a).setWidth 32 : BitVec 32) = 1#32 := by
      simp [IntOp.cmpi]
    rw [this, if_pos rfl]
    norm_num
  · have hb : (a == b) = false := beq_eq_false_iff_ne.mpr h
    have : ((IntOp.cmpi .eq a b).setWidth 32 : BitVec 32) = 0#32 := by
      simp [IntOp.cmpi, hb]
    rw [this, if_neg h]
    norm_num

/-- A block offset plus a coordinate inside the block, as a word, has the value one expects. -/
theorem offset_word_toNat (i : ℕ) (hi : i < 8) (p : ℕ) (hp : p < 1024) :
    (BitVec.ofNat 32 i * 1024#32 + BitVec.ofNat 32 p).toNat = i * 1024 + p := by
  simp only [BitVec.toNat_add, BitVec.toNat_mul, BitVec.toNat_ofNat]
  omega

theorem offset_word_eq_iff (i j : ℕ) (hi : i < 8) (hj : j < 8) (p c : ℕ) (hp : p < 1024) (hc : c < 1024) :
    (BitVec.ofNat 32 i * 1024#32 + BitVec.ofNat 32 p = BitVec.ofNat 32 j * 1024#32 + BitVec.ofNat 32 c)
      ↔ i * 1024 + p = j * 1024 + c := by
  constructor
  · intro h
    have := congrArg BitVec.toNat h
    rwa [offset_word_toNat i hi p hp, offset_word_toNat j hj c hc] at this
  · intro h
    apply BitVec.eq_of_toNat_eq
    rw [offset_word_toNat i hi p hp, offset_word_toNat j hj c hc, h]

end Cert.KernelIdeal.Hand

end
-- ==== Proof.KV.PayMasks.lean ====
import proofs.«152556_j7945689498002_1_alg».proof.Proof.KV.MaskWords

/-!
The identity mask and the same-label mask of a tile, read at an entry.
-/

noncomputable section

namespace Cert.KernelIdeal.Hand

open Idealize.ShloMosaic Idealize.ShloMosaic.ValueIdx
open Cert.KernelIdeal Cert.KernelIdeal.Gen

/-- The tile's global row numbers, as a column of words, at row `p`. -/
theorem rowWord_apply (i0 : ℕ) (p : Fin 1024) (c : Fin 1024) :
    broadcastTo S1024x1024 (addi (broadcast S1024x1 (Scalar.muli (BitVec.ofNat 32 i0) 1024#32)) (iota .tc S1024x1 32 [0] iota_S1024x1_d0_w32))
        broadcasts_S1024x1_S1024x1024 (ix2 p c)
      = BitVec.ofNat 32 i0 * 1024#32 + BitVec.ofNat 32 p.val := by
  rw [Cert.GraphConv.Column.broadcastTo_a1_ab_apply]
  show _ + iota .tc S1024x1 32 [0] iota_S1024x1_d0_w32 (ix2 p 0) = _
  rw [iota_single_apply]
  rfl

/-- The tile's global column numbers, as a row of words, at column `c`. -/
theorem colWord_apply (i1 : ℕ) (p : Fin 1024) (c : Fin 1024) :
    broadcastTo S1024x1024 (addi (broadcast S1x1024 (Scalar.muli (BitVec.ofNat 32 i1) 1024#32)) (iota .tc S1x1024 32 [1] iota_S1x1024_d1_w32))
        broadcasts_S1x1024_S1024x1024 (ix2 p c)
      = BitVec.ofNat 32 i1 * 1024#32 + BitVec.ofNat 32 c.val := by
  rw [broadcastTo_1b_ab_apply]
  show _ + iota .tc S1x1024 32 [1] iota_S1x1024_d1_w32 (ix2 0 c) = _
  rw [iota_single_apply]
  rfl

/-- The identity mask of the tile at grid point `i`: 1 where the global row is the global column. -/
theorem pay12_apply (i : grid0.Coords) (p c : Fin 1024) :
    k0_pay12 (F := Ideal) i (ix2 p c) = if (i 0).val * 1024 + p.val = (i 1).val * 1024 + c.val then 1 else 0 := by
  have h0 : (i 0).val < 8 := (i 0).isLt
  have h1 : (i 1).val < 8 := (i 1).isLt
  unfold k0_pay12
  show ((((IntOp.cmpi .eq _ _).setWidth 32 : BitVec 32).toInt : ℝ) : EReal) = _
  rw [rowWord_apply, colWord_apply, eqMask_scalar]
  exact if_congr (offset_word_eq_iff _ _ h0 h1 _ _ p.isLt c.isLt) rfl rfl

/-- The same-label mask of a tile: 1 where the row's label word is the column's. -/
theorem pay13_apply (lr : Vec Ideal S1024x1 .i32) (lc : Vec Ideal S1x1024 .i32) (p c : Fin 1024) :
    k0_pay13 (F := Ideal) lr lc (ix2 p c) = if lr (ix2 p (0 : Fin 1)) = lc (ix2 (0 : Fin 1) c) then 1 else 0 := by
  unfold k0_pay13
  simp only [shapeCast_self]
  show ((((IntOp.cmpi .eq _ _).setWidth 32 : BitVec 32).toInt : ℝ) : EReal) = _
  rw [Cert.GraphConv.Column.broadcastTo_a1_ab_apply, broadcastTo_1b_ab_apply, eqMask_scalar]

end Cert.KernelIdeal.Hand

end
-- ==== Proof.KV.PaySums.lean ====
import proofs.«152556_j7945689498002_1_alg».proof.Proof.Gen.KernelIdeal.Skeleton
import proofs.«152556_j7945689498002_1_alg».proof.Proof.LibColumn
import proofs.«152556_j7945689498002_1_alg».proof.Proof.LibLaneSum
import Idealize.ShloMosaic.Lib.Pipeline.Value
import Idealize.ShloMosaic.Lib.ValueIdx
import Idealize.ShloMosaic.PureOps.Ideal.Laws

/-!
One grid point's additions to the three running sums, read at a row: the running sum plus the sum
over the tile's 1024 columns of, respectively, the masked exponentials, the masked scaled
similarities and the positive-pair mask; the cleared sums are zero; the row loss from the three sums.
-/

noncomputable section

namespace Cert.KernelIdeal.Hand

open Idealize.ShloMosaic Idealize.ShloMosaic.ValueIdx
open Cert.KernelIdeal Cert.KernelIdeal.Gen

/-- The word of the number one denotes 1. -/
theorem one_word : Ideal.ofBits .f32 0x3F800000#32 = 1 := by
  simp [Ideal.ofBits, Ideal.ieee, -EReal.coe_mul]; norm_num

/-- A tile's row sums as a column, at row `p`. -/
theorem tileRowSum_apply (x : FVec Ideal S1024x1024 .f32) (p : Fin 1024) (u : Fin 1) :
    shapeCast S1024x1 (multiReduction .add [1] S1024 x 0x00000000#32 reduces_S1024x1024_S1024 (.inl rfl) rfl) shapeCasts_S1024_S1024x1 (ix2 p u)
      = ∑ c : Fin 1024, x (ix2 p c) := by
  refine (Cert.GraphConv.Column.shapeCast_a_a1_apply _ shapeCasts_S1024_S1024x1 p u).trans ?_
  exact Cert.LaneSum.sum_last2 x 0x00000000#32 reduces_S1024x1024_S1024 (.inl rfl) rfl p

/-- The masked exponentials added to their running sum. -/
theorem pay3_apply (a b : FVec Ideal S1024x256 .bf16) (e : FVec Ideal S1024x1024 .f32) (s : Vec Ideal S1024x1 .f32) (p : Fin 1024) (u : Fin 1) :
    k0_pay3 (F := Ideal) a b e s (ix2 p u)
      = s (ix2 p u) + ∑ c : Fin 1024, Ideal.exp (k0_pay2 (F := Ideal) a b (ix2 p c)) * (1 - e (ix2 p c)) := by
  unfold k0_pay3
  simp only [shapeCast_self, addf_apply]
  refine congrArg (s (ix2 p u) + ·) ?_
  rw [tileRowSum_apply]
  refine Finset.sum_congr rfl fun c _ => ?_
  show Ideal.exp _ * (Ideal.ofBits .f32 0x3F800000#32 - _) = _
  rw [one_word]

/-- The masked scaled similarities added to their running sum. -/
theorem pay4_apply (a b : FVec Ideal S1024x256 .bf16) (e l : FVec Ideal S1024x1024 .f32) (s : Vec Ideal S1024x1 .f32) (p : Fin 1024) (u : Fin 1) :
    k0_pay4 (F := Ideal) a b e l s (ix2 p u)
      = s (ix2 p u) + ∑ c : Fin 1024, (l (ix2 p c) - e (ix2 p c)) * k0_pay2 (F := Ideal) a b (ix2 p c) := by
  unfold k0_pay4
  simp only [shapeCast_self, addf_apply]
  refine congrArg (s (ix2 p u) + ·) ?_
  rw [tileRowSum_apply]
  rfl

/-- The positive-pair mask added to its running sum. -/
theorem pay5_apply (e l : FVec Ideal S1024x1024 .f32) (s : Vec Ideal S1024x1 .f32) (p : Fin 1024) (u : Fin 1) :
    k0_pay5 (F := Ideal) e l s (ix2 p u) = s (ix2 p u) + ∑ c : Fin 1024, (l (ix2 p c) - e (ix2 p c)) := by
  unfold k0_pay5
  simp only [shapeCast_self, addf_apply]
  refine congrArg (s (ix2 p u) + ·) ?_
  rw [tileRowSum_apply]
  rfl

/-- The row loss from the three finished sums. -/
theorem pay6_apply (w n s : Vec Ideal S1024x1 .f32) (j : S1024x1.Idx) :
    k0_pay6 (F := Ideal) w n s j = Ideal.div (w j) (n j) - Ideal.log (s j) := rfl

/-- The cleared sums are zero. -/
theorem pay7_apply (j : S1024x1.Idx) : k0_pay7 (F := Ideal) j = 0 := by
  unfold k0_pay7; simp only [shapeCast_self, broadcast_apply]
  exact Ideal.ofBits_zero_f32
theorem pay8_apply (j : S1024x1.Idx) : k0_pay8 (F := Ideal) j = 0 := by
  unfold k0_pay8; simp only [shapeCast_self, broadcast_apply]
  exact Ideal.ofBits_zero_f32
theorem pay9_apply (j : S1024x1.Idx) : k0_pay9 (F := Ideal) j = 0 := by
  unfold k0_pay9; simp only [shapeCast_self, broadcast_apply]
  exact Ideal.ofBits_zero_f32

end Cert.KernelIdeal.Hand

end
-- ==== Proof.KV.AccTerms.lean ====
import proofs.«152556_j7945689498002_1_alg».proof.Proof.KI.Steps
import proofs.«152556_j7945689498002_1_alg».proof.Proof.KV.Blocks
import proofs.«152556_j7945689498002_1_alg».proof.Proof.KV.PayRows
import proofs.«152556_j7945689498002_1_alg».proof.Proof.KV.PaySim
import proofs.«152556_j7945689498002_1_alg».proof.Proof.KV.PayMasks
import proofs.«152556_j7945689498002_1_alg».proof.Proof.KV.PaySums
import proofs.«152556_j7945689498002_1_alg».proof.Proof.Spec

/-!
What one grid point adds to the three running sums, in the specification's terms.

Point `t` works on row block `t / 8` and column block `t % 8`. For row `p` of the row block, that is
row `R = t / 8 * 1024 + p` of the 8192, the point adds the sum over the 1024 columns `q` of the column
block, that is over the rows `J = t % 8 * 1024 + q` of the 8192, of: the exponential of the scaled
similarity of rows `R` and `J` off the diagonal; the positive-pair mask times the scaled similarity;
the positive-pair mask.
-/

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.SupCon

/-! ### The summands -/

/-- The masked exponential of a pair of rows. -/
def expTerm (f : Fin 8192 → Fin 256 → EReal) (r j : Fin 8192) : EReal := Ideal.exp (kSim f r j) * (1 - eye r j)
/-- The masked scaled similarity of a pair of rows. -/
def posTerm (f : Fin 8192 → Fin 256 → EReal) (L : Fin 8192 → BitVec 32) (r j : Fin 8192) : EReal := posMask L r j * kSim f r j
/-- The positive-pair mask of a pair of rows. -/
def cntTerm (L : Fin 8192 → BitVec 32) (r j : Fin 8192) : EReal := posMask L r j

theorem kExpSum_eq (f : Fin 8192 → Fin 256 → EReal) (r : Fin 8192) : kExpSum f r = ∑ j : Fin 8192, expTerm f r j := rfl
theorem kPosSum_eq (f : Fin 8192 → Fin 256 → EReal) (L : Fin 8192 → BitVec 32) (r : Fin 8192) :
    kPosSum f L r = ∑ j : Fin 8192, posTerm f L r j := rfl
theorem posCount_eq (L : Fin 8192 → BitVec 32) (r : Fin 8192) : posCount L r = ∑ j : Fin 8192, cntTerm L r j := rfl

/-! ### One tile entry, over any blocks -/

/-- The scaled similarity tile at entry `(p, q)`, when row `p` of the row block is row `R` of the
    features and row `q` of the column block is row `J`. -/
theorem sim_entry (f : Fin 8192 → Fin 256 → EReal) (x y : Vec Ideal S1024x256 .f32) (p q : Fin 1024) (R J : Fin 8192)
    (hx : ∀ k, x (ix2 p k) = f R k) (hy : ∀ k, y (ix2 q k) = f J k) (hinv : invTempWord = invTemp) :
    k0_pay2 (F := Ideal) (k0_pay10 (F := Ideal) x) (k0_pay11 (F := Ideal) y) (ix2 p q) = kSim f R J := by
  rw [pay2_apply, hinv]
  unfold kSim
  refine congrArg (· * invTemp) (Finset.sum_congr rfl fun k _ => ?_)
  rw [pay10_apply, pay11_apply]
  unfold kRow sumSq
  simp only [hx, hy]

/-- The identity mask of the tile at entry `(p, q)`. -/
theorem eye_entry (i : grid0.Coords) (p q : Fin 1024) (R J : Fin 8192)
    (hR : R.val = (i 0).val * 1024 + p.val) (hJ : J.val = (i 1).val * 1024 + q.val) :
    k0_pay12 (F := Ideal) i (ix2 p q) = eye R J := by
  rw [pay12_apply]
  unfold eye
  exact if_congr (by rw [Fin.ext_iff, hR, hJ]) rfl rfl

/-- The same-label mask of the tile at entry `(p, q)`. -/
theorem label_entry (L : Fin 8192 → BitVec 32) (lr : Vec Ideal S1024x1 .i32) (lc : Vec Ideal S1x1024 .i32) (p q : Fin 1024) (R J : Fin 8192)
    (hlr : lr (ix2 p (0 : Fin 1)) = L R) (hlc : lc (ix2 (0 : Fin 1) q) = L J) :
    k0_pay13 (F := Ideal) lr lc (ix2 p q) = sameLabel L R J := by
  rw [pay13_apply, hlr, hlc]
  rfl

/-! ### One point's additions, over any blocks -/

/-- The masked exponentials: row `p`'s running sum grows by the sum over the tile's columns. -/
theorem accStep_exp (f : Fin 8192 → Fin 256 → EReal) (i : grid0.Coords) (x y : Vec Ideal S1024x256 .f32)
    (lr : Vec Ideal S1024x1 .i32) (lc : Vec Ideal S1x1024 .i32) (a : Acc Ideal) (p : Fin 1024) (u : Fin 1)
    (R : Fin 8192) (J : Fin 1024 → Fin 8192)
    (hx : ∀ k, x (ix2 p k) = f R k) (hy : ∀ q k, y (ix2 q k) = f (J q) k)
    (hR : R.val = (i 0).val * 1024 + p.val) (hJ : ∀ q, (J q).val = (i 1).val * 1024 + q.val)
    (hinv : invTempWord = invTemp) :
    (accStep i x y lr lc a).1 (ix2 p u) = a.1 (ix2 p u) + ∑ q : Fin 1024, expTerm f R (J q) := by
  show k0_pay3 (F := Ideal) (k0_pay10 (F := Ideal) x) (k0_pay11 (F := Ideal) y) (k0_pay12 (F := Ideal) i) a.1 (ix2 p u) = _
  rw [pay3_apply]
  refine congrArg (a.1 (ix2 p u) + ·) (Finset.sum_congr rfl fun q _ => ?_)
  rw [sim_entry f x y p q R (J q) hx (hy q) hinv, eye_entry i p q R (J q) hR (hJ q)]
  rfl

/-- The masked scaled similarities. -/
theorem accStep_pos (f : Fin 8192 → Fin 256 → EReal) (L : Fin 8192 → BitVec 32) (i : grid0.Coords) (x y : Vec Ideal S1024x256 .f32)
    (lr : Vec Ideal S1024x1 .i32) (lc : Vec Ideal S1x1024 .i32) (a : Acc Ideal) (p : Fin 1024) (u : Fin 1)
    (R : Fin 8192) (J : Fin 1024 → Fin 8192)
    (hx : ∀ k, x (ix2 p k) = f R k) (hy : ∀ q k, y (ix2 q k) = f (J q) k)
    (hlr : lr (ix2 p (0 : Fin 1)) = L R) (hlc : ∀ q, lc (ix2 (0 : Fin 1) q) = L (J q))
    (hR : R.val = (i 0).val * 1024 + p.val) (hJ : ∀ q, (J q).val = (i 1).val * 1024 + q.val)
    (hinv : invTempWord = invTemp) :
    (accStep i x y lr lc a).2.1 (ix2 p u) = a.2.1 (ix2 p u) + ∑ q : Fin 1024, posTerm f L R (J q) := by
  show k0_pay4 (F := Ideal) (k0_pay10 (F := Ideal) x) (k0_pay11 (F := Ideal) y) (k0_pay12 (F := Ideal) i) (k0_pay13 (F := Ideal) lr lc) a.2.1 (ix2 p u) = _
  rw [pay4_apply]
  refine congrArg (a.2.1 (ix2 p u) + ·) (Finset.sum_congr rfl fun q _ => ?_)
  rw [sim_entry f x y p q R (J q) hx (hy q) hinv, eye_entry i p q R (J q) hR (hJ q),
    label_entry L lr lc p q R (J q) hlr (hlc q)]
  rfl

/-- The positive-pair counts. -/
theorem accStep_cnt (L : Fin 8192 → BitVec 32) (i : grid0.Coords) (x y : Vec Ideal S1024x256 .f32)
    (lr : Vec Ideal S1024x1 .i32) (lc : Vec Ideal S1x1024 .i32) (a : Acc Ideal) (p : Fin 1024) (u : Fin 1)
    (R : Fin 8192) (J : Fin 1024 → Fin 8192)
    (hlr : lr (ix2 p (0 : Fin 1)) = L R) (hlc : ∀ q, lc (ix2 (0 : Fin 1) q) = L (J q))
    (hR : R.val = (i 0).val * 1024 + p.val) (hJ : ∀ q, (J q).val = (i 1).val * 1024 + q.val) :
    (accStep i x y lr lc a).2.2 (ix2 p u) = a.2.2 (ix2 p u) + ∑ q : Fin 1024, cntTerm L R (J q) := by
  show k0_pay5 (F := Ideal) (k0_pay12 (F := Ideal) i) (k0_pay13 (F := Ideal) lr lc) a.2.2 (ix2 p u) = _
  rw [pay5_apply]
  refine congrArg (a.2.2 (ix2 p u) + ·) (Finset.sum_congr rfl fun q _ => ?_)
  rw [eye_entry i p q R (J q) hR (hJ q), label_entry L lr lc p q R (J q) hlr (hlc q)]
  rfl

end Cert.KernelIdeal.Hand

end
-- ==== Proof.KV.AccSteps.lean ====
import proofs.«152556_j7945689498002_1_alg».proof.Proof.KV.AccTerms

/-!
The three running sums at the kernel's own blocks: what grid point `t` adds for row `p` of its row
block, when the feature array holds the rows `f` and the two label arrays hold the labels `L`; and
the cleared sums.
-/

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.SupCon

variable (m : (ℓ : Loc nD τ sig) → Buf (Elt Ideal) ℓ) (c : Dev nD)
variable (f : Fin 8192 → Fin 256 → EReal) (L : Fin 8192 → BitVec 32)

/-- The cleared sums are zero. -/
theorem accZero_exp (j : S1024x1.Idx) : (accZero (F := Ideal)).1 j = 0 := pay7_apply j
theorem accZero_pos (j : S1024x1.Idx) : (accZero (F := Ideal)).2.1 j = 0 := pay8_apply j
theorem accZero_cnt (j : S1024x1.Idx) : (accZero (F := Ideal)).2.2 j = 0 := pay9_apply j

/-- Row `p` of point `t`'s row block, among the 8192 rows. -/
abbrev rowAt (t : Fin cfg0.N) (p : Fin 1024) : Fin 8192 := ⟨t.val / 8 * 1024 + p.val, by have := pt_lt t; have := p.isLt; omega⟩
/-- Column `q` of point `t`'s column block, among the 8192 rows. -/
abbrev colAt (t : Fin cfg0.N) (q : Fin 1024) : Fin 8192 := ⟨t.val % 8 * 1024 + q.val, by have := q.isLt; omega⟩

/-- The masked exponentials at point `t`. -/
theorem step_exp (hf : ∀ r k, (V m c main_v1 : S8192x256.Idx → EReal) (ix2 r k) = f r k)
    (hinv : invTempWord = invTemp) (t : Fin cfg0.N) (p : Fin 1024) (a : Acc Ideal) :
    (accStep (grid0.coords t) (iblk m c 0 t) (iblk m c 1 t) (iblk m c 2 t) (iblk m c 3 t) a).1 (ix2 p (0 : Fin 1))
      = a.1 (ix2 p (0 : Fin 1)) + ∑ q : Fin 1024, expTerm f (rowAt t p) (colAt t q) :=
  accStep_exp f (grid0.coords t) (iblk m c 0 t) (iblk m c 1 t) (iblk m c 2 t) (iblk m c 3 t) a p (0 : Fin 1) (rowAt t p) (colAt t)
    (fun k => (blk0_apply m c t p k).trans (hf _ k))
    (fun q k => (blk1_apply m c t q k).trans (hf _ k))
    (by show t.val / 8 * 1024 + p.val = _; rw [(coords_val t).1])
    (fun q => by show t.val % 8 * 1024 + q.val = _; rw [(coords_val t).2])
    hinv

/-- The masked scaled similarities at point `t`. -/
theorem step_pos (hf : ∀ r k, (V m c main_v1 : S8192x256.Idx → EReal) (ix2 r k) = f r k)
    (hcol : ∀ r, (V m c main_v5 : S8192x1.Idx → BitVec 32) (ix2 r (0 : Fin 1)) = L r)
    (hrow : ∀ r, (V m c main_v6 : S1x8192.Idx → BitVec 32) (ix2 (0 : Fin 1) r) = L r)
    (hinv : invTempWord = invTemp) (t : Fin cfg0.N) (p : Fin 1024) (a : Acc Ideal) :
    (accStep (grid0.coords t) (iblk m c 0 t) (iblk m c 1 t) (iblk m c 2 t) (iblk m c 3 t) a).2.1 (ix2 p (0 : Fin 1))
      = a.2.1 (ix2 p (0 : Fin 1)) + ∑ q : Fin 1024, posTerm f L (rowAt t p) (colAt t q) :=
  accStep_pos f L (grid0.coords t) (iblk m c 0 t) (iblk m c 1 t) (iblk m c 2 t) (iblk m c 3 t) a p (0 : Fin 1) (rowAt t p) (colAt t)
    (fun k => (blk0_apply m c t p k).trans (hf _ k))
    (fun q k => (blk1_apply m c t q k).trans (hf _ k))
    ((blk2_apply m c t p (0 : Fin 1)).trans (hcol _))
    (fun q => (blk3_apply m c t (0 : Fin 1) q).trans (hrow _))
    (by show t.val / 8 * 1024 + p.val = _; rw [(coords_val t).1])
    (fun q => by show t.val % 8 * 1024 + q.val = _; rw [(coords_val t).2])
    hinv

/-- The positive-pair counts at point `t`. -/
theorem step_cnt (hcol : ∀ r, (V m c main_v5 : S8192x1.Idx → BitVec 32) (ix2 r (0 : Fin 1)) = L r)
    (hrow : ∀ r, (V m c main_v6 : S1x8192.Idx → BitVec 32) (ix2 (0 : Fin 1) r) = L r)
    (t : Fin cfg0.N) (p : Fin 1024) (a : Acc Ideal) :
    (accStep (grid0.coords t) (iblk m c 0 t) (iblk m c 1 t) (iblk m c 2 t) (iblk m c 3 t) a).2.2 (ix2 p (0 : Fin 1))
      = a.2.2 (ix2 p (0 : Fin 1)) + ∑ q : Fin 1024, cntTerm L (rowAt t p) (colAt t q) :=
  accStep_cnt L (grid0.coords t) (iblk m c 0 t) (iblk m c 1 t) (iblk m c 2 t) (iblk m c 3 t) a p (0 : Fin 1) (rowAt t p) (colAt t)
    ((blk2_apply m c t p (0 : Fin 1)).trans (hcol _))
    (fun q => (blk3_apply m c t (0 : Fin 1) q).trans (hrow _))
    (by show t.val / 8 * 1024 + p.val = _; rw [(coords_val t).1])
    (fun q => by show t.val % 8 * 1024 + q.val = _; rw [(coords_val t).2])

end Cert.KernelIdeal.Hand

end
-- ==== Proof.LibAccTile.lean ====
/-
  One law of an accumulator that is cleared tile by tile, in an additive commutative monoid. Points are numbered
  tile by tile, `S` consecutive points per tile. At the first point of a tile the accumulator is cleared and
  receives the point's term; at every other point it adds the point's term to what the point before left. Then at
  the last point of tile `m` it holds the sum of the tile's `S` terms.
-/
import Idealize.ShloMosaic.PureOps.Ideal
import Mathlib.Algebra.BigOperators.Fin

open scoped BigOperators

namespace Cert.BlockSums

/-- Within tile `m`, after the point at position `k` the accumulator holds the tile's first `k + 1` terms. -/
theorem acc_tile_partial {M : Type*} [AddCommMonoid M] (S : ℕ) (N : ℕ) (p acc : ℕ → M)
    (h : ∀ n, n < N → acc n = (if n % S = 0 then 0 else acc (n - 1)) + p n) (m : ℕ) :
    ∀ k, k < S → m * S + k < N → acc (m * S + k) = ∑ j ∈ Finset.range (k + 1), p (m * S + j) := by
  have hmod : ∀ k, k < S → (m * S + k) % S = k := fun k hk => by
    rw [Nat.add_comm, Nat.add_mul_mod_self_right, Nat.mod_eq_of_lt hk]
  intro k
  induction k with
  | zero =>
    intro hk hN
    rw [h _ hN, if_pos (hmod 0 hk), zero_add, Finset.sum_range_one]
  | succ k ih =>
    intro hk hN
    have hne : ¬(m * S + (k + 1)) % S = 0 := by rw [hmod (k + 1) hk]; exact Nat.succ_ne_zero k
    have hprev : m * S + (k + 1) - 1 = m * S + k := rfl
    rw [h _ hN, if_neg hne, hprev, Finset.sum_range_succ _ (k + 1),
      ih (Nat.lt_of_succ_lt hk) (lt_trans (Nat.add_lt_add_left (Nat.lt_succ_self k) (m * S)) hN)]

/-- at the last point of tile `m` the accumulator holds the sum of the tile's `S` terms -/
theorem acc_tile {M : Type*} [AddCommMonoid M] (S : ℕ) (hS : 0 < S) (N : ℕ) (p acc : ℕ → M)
    (h : ∀ n, n < N → acc n = (if n % S = 0 then 0 else acc (n - 1)) + p n)
    (m : ℕ) (hm : m * S + (S - 1) < N) :
    acc (m * S + (S - 1)) = ∑ k : Fin S, p (m * S + k.val) := by
  rw [acc_tile_partial S N p acc h m (S - 1) (Nat.sub_lt hS Nat.one_pos) hm, Nat.sub_add_cancel hS, Finset.sum_range]

/-- tiles of 8 points -/
theorem acc_tile_8 {M : Type*} [AddCommMonoid M] (N : ℕ) (p acc : ℕ → M)
    (h : ∀ n, n < N → acc n = (if n % 8 = 0 then 0 else acc (n - 1)) + p n)
    (m : ℕ) (hm : m * 8 + 7 < N) :
    acc (m * 8 + 7) = ∑ k : Fin 8, p (m * 8 + k.val) :=
  acc_tile 8 (by decide) N p acc h m hm

/-- tiles of 16 points -/
theorem acc_tile_16 {M : Type*} [AddCommMonoid M] (N : ℕ) (p acc : ℕ → M)
    (h : ∀ n, n < N → acc n = (if n % 16 = 0 then 0 else acc (n - 1)) + p n)
    (m : ℕ) (hm : m * 16 + 15 < N) :
    acc (m * 16 + 15) = ∑ k : Fin 16, p (m * 16 + k.val) :=
  acc_tile 16 (by decide) N p acc h m hm

end Cert.BlockSums
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.KV.AccWalk.lean ====
import proofs.«152556_j7945689498002_1_alg».proof.Proof.KI.Steps
import proofs.«152556_j7945689498002_1_alg».proof.Proof.KV.Blocks
import proofs.«152556_j7945689498002_1_alg».proof.Proof.LibAccTile
import proofs.«152556_j7945689498002_1_alg».proof.Proof.LibBlockSums

/-!
The grid walk read as a sum over a whole row. A running sum that is cleared at the first column block
of each row block, and to which every grid point adds, for each of the row block's 1024 rows, the sum
of a summand `g` over the point's 1024 columns, holds after the last column block of row block `i0`
the sum of `g` over all 8192 columns — for each of the three running sums alike.
-/

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-- 8192 indices are 8 blocks of 1024. -/
theorem sum_cols_8192 {M : Type*} [AddCommMonoid M] (f : Fin 8192 → M) :
    ∑ i : Fin 8192, f i = ∑ t : Fin 8, ∑ j : Fin 1024, f ⟨t.val * 1024 + j.val, by
      have := t.isLt; have := j.isLt; omega⟩ :=
  Cert.BlockSums.sum_blocks 8 1024 f

/-- After the last column block of row block `i0`, a running sum holds, at row `p` of the block, the
    sum over all columns of its summand at global row `i0 * 1024 + p`. -/
theorem walk (m : (ℓ : Loc nD τ sig) → Buf (Elt Ideal) ℓ) (c : Dev nD)
    (proj : Acc Ideal → Vec Ideal S1024x1 .f32)
    (g : Fin 8192 → Fin 8192 → EReal)
    (hzero : ∀ j, proj accZero j = 0)
    (hstep : ∀ (t : Fin cfg0.N) (p : Fin 1024) (a : Acc Ideal),
        proj (accStep (grid0.coords t) (iblk m c 0 t) (iblk m c 1 t) (iblk m c 2 t) (iblk m c 3 t) a) (ix2 p (0 : Fin 1))
          = proj a (ix2 p (0 : Fin 1))
            + ∑ q : Fin 1024, g ⟨t.val / 8 * 1024 + p.val, by have := pt_lt t; have := p.isLt; omega⟩
                ⟨t.val % 8 * 1024 + q.val, by have := q.isLt; omega⟩)
    (i0 : Fin 8) (p : Fin 1024) :
    proj (accAt m c (i0.val * 8 + 7) (by have := i0.isLt; have hN : cfg0.N = 64 := N_0; omega)) (ix2 p (0 : Fin 1))
      = ∑ j : Fin 8192, g ⟨i0.val * 1024 + p.val, by have := i0.isLt; have := p.isLt; omega⟩ j := by
  have hN : cfg0.N = 64 := N_0
  -- the running sum at row `p` after each position of the walk, and each position's term
  obtain ⟨acc, hacc⟩ : ∃ acc : ℕ → EReal, ∀ (n : ℕ) (h : n < cfg0.N), acc n = proj (accAt m c n h) (ix2 p (0 : Fin 1)) :=
    ⟨fun n => if h : n < cfg0.N then proj (accAt m c n h) (ix2 p (0 : Fin 1)) else 0, fun n h => dif_pos h⟩
  obtain ⟨pt, hpt⟩ : ∃ pt : ℕ → EReal, ∀ n : ℕ, pt n = ∑ q : Fin 1024,
      g ⟨n / 8 % 8 * 1024 + p.val, by
          have := p.isLt; have := Nat.mod_lt (n / 8) (show 0 < 8 by decide); omega⟩
        ⟨n % 8 * 1024 + q.val, by have := q.isLt; omega⟩ := ⟨_, fun _ => rfl⟩
  have hrec : ∀ n, n < 64 → acc n = (if n % 8 = 0 then 0 else acc (n - 1)) + pt n := by
    intro n hn
    have hn' : n < cfg0.N := by omega
    rw [hacc n hn', hpt n]
    by_cases h8 : n % 8 = 0
    · rw [if_pos h8]
      refine ((congrArg (fun a => proj a (ix2 p (0 : Fin 1))) (accAt_first m c ⟨n, hn'⟩ h8)).trans
        ((hstep ⟨n, hn'⟩ p accZero).trans ?_))
      rw [hzero]
      refine congrArg (0 + ·) (Finset.sum_congr rfl fun q _ => ?_)
      exact congrArg₂ g (Fin.ext (show n / 8 * 1024 + p.val = n / 8 % 8 * 1024 + p.val by omega)) rfl
    · rw [if_neg h8]
      have hn1 : n - 1 < cfg0.N := by omega
      rw [hacc (n - 1) hn1]
      refine ((congrArg (fun a => proj a (ix2 p (0 : Fin 1))) (accAt_next m c ⟨n, hn'⟩ h8)).trans
        ((hstep ⟨n, hn'⟩ p _).trans ?_))
      refine congrArg₂ (· + ·) rfl (Finset.sum_congr rfl fun q _ => ?_)
      exact congrArg₂ g (Fin.ext (show n / 8 * 1024 + p.val = n / 8 % 8 * 1024 + p.val by omega)) rfl
  have hi : i0.val * 8 + 7 < cfg0.N := by have := i0.isLt; omega
  have htile := Cert.BlockSums.acc_tile_8 64 pt acc hrec i0.val (by have := i0.isLt; omega)
  rw [hacc _ hi] at htile
  refine htile.trans ?_
  have hR : i0.val * 1024 + p.val < 8192 := by have := i0.isLt; have := p.isLt; omega
  rw [sum_cols_8192 (fun j => g ⟨i0.val * 1024 + p.val, hR⟩ j)]
  refine Finset.sum_congr rfl fun k _ => ?_
  rw [hpt]
  refine Finset.sum_congr rfl fun q _ => ?_
  exact congrArg₂ g
    (Fin.ext (show (i0.val * 8 + k.val) / 8 % 8 * 1024 + p.val = i0.val * 1024 + p.val by
      have := k.isLt; have := i0.isLt; omega))
    (Fin.ext (show (i0.val * 8 + k.val) % 8 * 1024 + q.val = k.val * 1024 + q.val by
      have := k.isLt; omega))

end Cert.KernelIdeal.Hand

end
-- ==== Proof.KV.OutClosed.lean ====
import proofs.«152556_j7945689498002_1_alg».proof.Proof.KV.AccSteps
import proofs.«152556_j7945689498002_1_alg».proof.Proof.KV.AccWalk
import proofs.«152556_j7945689498002_1_alg».proof.Proof.KV.Final

/-!
The output column in closed form. Row `r` of the 8192 sits in row block `r / 1024` at row
`r % 1024`. After the last column block of that row block the three running sums of the row hold
the sums over all 8192 rows `j` of the masked exponentials, of the masked scaled similarities and of
the positive-pair mask, and the row loss computed from them is the specification's row loss.
-/

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.SupCon

/-- The row loss from running sums that hold the three whole-row sums. -/
theorem loss_of_sums (f : Fin 8192 → Fin 256 → EReal) (L : Fin 8192 → BitVec 32) (r : Fin 8192) (a : Acc Ideal) (j : S1024x1.Idx)
    (hS : a.1 j = kExpSum f r) (hW : a.2.1 j = kPosSum f L r) (hC : a.2.2 j = posCount L r) :
    lossOf a j = kLoss f L r := by
  show k0_pay6 (F := Ideal) a.2.1 a.2.2 a.1 j = _
  rw [pay6_apply, hS, hW, hC]
  rfl

/-- Row `r` of the output column is the specification's row loss of row `r`. -/
theorem out_closed (m : (ℓ : Loc nD τ sig) → Buf (Elt Ideal) ℓ) (c : Dev nD)
    (f : Fin 8192 → Fin 256 → EReal) (L : Fin 8192 → BitVec 32)
    (hf : ∀ r k, (V m c main_v1 : S8192x256.Idx → EReal) (ix2 r k) = f r k)
    (hcol : ∀ r, (V m c main_v5 : S8192x1.Idx → BitVec 32) (ix2 r (0 : Fin 1)) = L r)
    (hrow : ∀ r, (V m c main_v6 : S1x8192.Idx → BitVec 32) (ix2 (0 : Fin 1) r) = L r)
    (hinv : invTempWord = invTemp) (r : Fin 8192) :
    rowsOut m c (ix2 r (0 : Fin 1)) = kLoss f L r := by
  have hr : r.val < 8192 := r.isLt
  have e : (⟨r.val / 1024 * 1024 + r.val % 1024, by omega⟩ : Fin 8192) = r := Fin.ext (Nat.div_add_mod' r.val 1024)
  have hS := walk m c (fun a => a.1) (expTerm f) accZero_exp (step_exp m c f hf hinv)
    ⟨r.val / 1024, by omega⟩ ⟨r.val % 1024, Nat.mod_lt _ (by decide)⟩
  have hW := walk m c (fun a => a.2.1) (posTerm f L) accZero_pos (step_pos m c f L hf hcol hrow hinv)
    ⟨r.val / 1024, by omega⟩ ⟨r.val % 1024, Nat.mod_lt _ (by decide)⟩
  have hC := walk m c (fun a => a.2.2) (cntTerm L) accZero_cnt (step_cnt m c L hcol hrow)
    ⟨r.val / 1024, by omega⟩ ⟨r.val % 1024, Nat.mod_lt _ (by decide)⟩
  rw [e] at hS hW hC
  exact loss_of_sums f L r _ _ hS hW hC

end Cert.KernelIdeal.Hand

end
-- ==== Proof.Rows.lean ====
import proofs.«152556_j7945689498002_1_alg».proof.Proof.Spec
import Idealize.ShloMosaic.Lib.ValueIdx

/-!
The two arrays the loss is a function of, read off the program's arguments.

The features arrive as 4096 samples × 2 views × 256 entries; both programs first put the views
outermost and flatten the first two axes, so that row `r = v * 4096 + b` of the 8192 × 256 matrix
holds view `v` of sample `b`.  The labels arrive one per sample and are repeated once per view,
so that row `r` carries the label of sample `r % 4096`.
-/

noncomputable section

namespace Cert.SupCon

open Idealize.ShloMosaic Idealize.ShloMosaic.ValueIdx

/-- Row `r` of the feature matrix: view `r / 4096` of sample `r % 4096`. -/
def rowsOf (x : (⟨3, ![4096, 2, 256]⟩ : Shape).Idx → EReal) (r : Fin 8192) (k : Fin 256) : EReal :=
  x (ix3 (⟨r.val % 4096, Nat.mod_lt _ (by decide)⟩ : Fin 4096) (⟨r.val / 4096, by have := r.isLt; omega⟩ : Fin 2) k)

/-- Row `r`'s label: the label of sample `r % 4096`. -/
def labelsOf (lab : (⟨1, ![4096]⟩ : Shape).Idx → BitVec 32) (r : Fin 8192) : BitVec 32 :=
  lab (ix1 (⟨r.val % 4096, Nat.mod_lt _ (by decide)⟩ : Fin 4096))

end Cert.SupCon

end
-- ==== Proof.Layout.lean ====
import proofs.«152556_j7945689498002_1_alg».proof.Proof.Rows
import Idealize.ShloMosaic.Lib.Pipeline.Value
import Idealize.ShloMosaic.Lib.ValueIdx
import Idealize.ShloMosaic.Lib.ValueLayout

/-!
The two re-layings both programs start with, read at an entry. The features `[4096, 2, 256]`,
transposed to `[2, 4096, 256]` and flattened to `[8192, 256]`, hold at row `r = v·4096 + b` the
features of sample `b`, view `v`. The labels `[4096]`, viewed `[1, 4096]`, repeated to `[2, 4096]`
and flattened to `[8192]`, hold at `r = v·4096 + b` the label of sample `b`; as a column `[8192, 1]`
or a row `[1, 8192]` they are read at the same `r`.
-/

noncomputable section

namespace Cert.SupCon

open Idealize.ShloMosaic Idealize.ShloMosaic.ValueIdx

variable {α : Type}

/-- The flattened transposed features at `(r, k)`. -/
theorem rows_layout (x : (⟨3, ![4096, 2, 256]⟩ : Shape).Idx → α)
    (ht : (⟨3, ![4096, 2, 256]⟩ : Shape).Transposes [1, 0, 2] ⟨3, ![2, 4096, 256]⟩)
    (hs : (⟨3, ![2, 4096, 256]⟩ : Shape).ShapeCasts ⟨2, ![8192, 256]⟩) (r : Fin 8192) (k : Fin 256) :
    shapeCast ⟨2, ![8192, 256]⟩ (transpose ⟨3, ![2, 4096, 256]⟩ [1, 0, 2] x ht) hs (ix2 r k)
      = x (ix3 (⟨r.val % 4096, Nat.mod_lt _ (by decide)⟩ : Fin 4096) (⟨r.val / 4096, by have := r.isLt; omega⟩ : Fin 2) k) := by
  refine (shapeCast_apply _ hs (ix2 r k)
    (ix3 (⟨r.val / 4096, by have := r.isLt; omega⟩ : Fin 2) (⟨r.val % 4096, Nat.mod_lt _ (by decide)⟩ : Fin 4096) k) ?_).trans ?_
  · rw [Shape.rowMajor_val_three, Shape.rowMajor_val_two]
    show (r.val / 4096 * 4096 + r.val % 4096) * 256 + k.val = r.val * 256 + k.val
    have := Nat.div_add_mod r.val 4096
    omega
  · exact transpose_apply _ x ht _ _ fun b => match b with | ⟨0, _⟩ => rfl | ⟨1, _⟩ => rfl | ⟨2, _⟩ => rfl

/-- The tiled labels at `r`. -/
theorem labels_layout (lab : (⟨1, ![4096]⟩ : Shape).Idx → α)
    (h1 : (⟨1, ![4096]⟩ : Shape).ShapeCasts ⟨2, ![1, 4096]⟩)
    (hb : (⟨2, ![1, 4096]⟩ : Shape).BroadcastsInDim ⟨2, ![2, 4096]⟩ (![0, 1] : Fin 2 → Fin 2))
    (h2 : (⟨2, ![2, 4096]⟩ : Shape).ShapeCasts ⟨1, ![8192]⟩) (r : Fin 8192) :
    shapeCast ⟨1, ![8192]⟩ (broadcastInDim ⟨2, ![2, 4096]⟩ ![0, 1] hb (shapeCast ⟨2, ![1, 4096]⟩ lab h1)) h2 (ix1 r)
      = lab (ix1 (⟨r.val % 4096, Nat.mod_lt _ (by decide)⟩ : Fin 4096)) := by
  refine (shapeCast_apply _ h2 (ix1 r)
    (ix2 (⟨r.val / 4096, by have := r.isLt; omega⟩ : Fin 2) (⟨r.val % 4096, Nat.mod_lt _ (by decide)⟩ : Fin 4096)) ?_).trans ?_
  · rw [Shape.rowMajor_val_two, Shape.rowMajor_val_one]
    show r.val / 4096 * 4096 + r.val % 4096 = r.val
    have := Nat.div_add_mod r.val 4096
    omega
  · refine (broadcastInDim_apply _ hb _ _ (ix2 (0 : Fin 1) (⟨r.val % 4096, Nat.mod_lt _ (by decide)⟩ : Fin 4096)) fun a => ?_).trans ?_
    · match a with
      | ⟨0, _⟩ => rfl
      | ⟨1, _⟩ => rfl
    · exact shapeCast_a_1a_apply lab h1 _ _

/-- The tiled labels as a column, at row `r`. -/
theorem labels_column (v : (⟨1, ![8192]⟩ : Shape).Idx → α) (h : (⟨1, ![8192]⟩ : Shape).ShapeCasts ⟨2, ![8192, 1]⟩) (r : Fin 8192) (u : Fin 1) :
    shapeCast ⟨2, ![8192, 1]⟩ v h (ix2 r u) = v (ix1 r) :=
  shapeCast_apply v h _ _ (by
    have hu : u.val = 0 := by omega
    rw [Shape.rowMajor_val_two, Shape.rowMajor_val_one]
    show r.val = r.val * 1 + u.val
    omega)

/-- The tiled labels as a row, at column `r`. -/
theorem labels_row (v : (⟨1, ![8192]⟩ : Shape).Idx → α) (h : (⟨1, ![8192]⟩ : Shape).ShapeCasts ⟨2, ![1, 8192]⟩) (u : Fin 1) (r : Fin 8192) :
    shapeCast ⟨2, ![1, 8192]⟩ v h (ix2 u r) = v (ix1 r) :=
  shapeCast_apply v h _ _ (by
    have hu : u.val = 0 := by omega
    rw [Shape.rowMajor_val_two, Shape.rowMajor_val_one]
    show r.val = u.val * 8192 + r.val
    omega)

end Cert.SupCon

end
-- ==== Proof.KV.EntryValues.lean ====
import proofs.«152556_j7945689498002_1_alg».proof.Proof.KI.Entry
import proofs.«152556_j7945689498002_1_alg».proof.Proof.Layout
import Idealize.ShloMosaic.Lib.StableHlo.Run
import Idealize.ShloMosaic.PureOps.Ideal

/-!
What the region finds in the three arrays its input windows read. The host lines before the region
transpose the features to views-outermost and flatten them to 8192 rows, and repeat the labels once
per view, flatten them and view them as a column and as a row. Read at an index, the feature array
holds at row `r` view `r / 4096` of sample `r % 4096`, and both label arrays hold at `r` the label of
sample `r % 4096`.
-/

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The feature array at the region's entry: the launch features transposed and flattened. -/
theorem V_main_v1 (c : Dev nD) :
    (V m c main_v1 : S8192x256.Idx → EReal)
      = shapeCast S8192x256 (transpose S2x4096x256 [1, 0, 2] (m ((c : Thread nD τ).loc main_arg0) : S4096x2x256.Idx → EReal)
          transposes_S4096x2x256_S2x4096x256_1_0_2) shapeCasts_S2x4096x256_S8192x256 := by
  show StableHlo.after hostOps0 (fun b => m (c, b)) (Proc.devRef .tc main_v1) = _
  after_results
  rfl

/-- The label column at the region's entry: the launch labels repeated per view, flattened, as a column. -/
theorem V_main_v5 (c : Dev nD) :
    (V m c main_v5 : S8192x1.Idx → BitVec 32)
      = shapeCast S8192x1 (shapeCast S8192 (broadcastInDim S2x4096 ![0, 1] bcast_S1x4096_S2x4096_0_1
          (shapeCast S1x4096 (m ((c : Thread nD τ).loc main_arg1) : S4096.Idx → BitVec 32) shapeCasts_S4096_S1x4096))
          shapeCasts_S2x4096_S8192) shapeCasts_S8192_S8192x1 := by
  show StableHlo.after hostOps0 (fun b => m (c, b)) (Proc.devRef .tc main_v5) = _
  after_results
  rfl

/-- The label row at the region's entry: the same flattened labels, as a row. -/
theorem V_main_v6 (c : Dev nD) :
    (V m c main_v6 : S1x8192.Idx → BitVec 32)
      = shapeCast S1x8192 (shapeCast S8192 (broadcastInDim S2x4096 ![0, 1] bcast_S1x4096_S2x4096_0_1
          (shapeCast S1x4096 (m ((c : Thread nD τ).loc main_arg1) : S4096.Idx → BitVec 32) shapeCasts_S4096_S1x4096))
          shapeCasts_S2x4096_S8192) shapeCasts_S8192_S1x8192 := by
  show StableHlo.after hostOps0 (fun b => m (c, b)) (Proc.devRef .tc main_v6) = _
  after_results
  rfl

/-- The feature array at `(r, k)`: view `r / 4096` of sample `r % 4096`, entry `k`. -/
theorem V_rows (c : Dev nD) (r : Fin 8192) (k : Fin 256) :
    (V m c main_v1 : S8192x256.Idx → EReal) (ValueIdx.ix2 r k)
      = Cert.SupCon.rowsOf (m ((c : Thread nD τ).loc main_arg0)) r k := by
  rw [V_main_v1]
  exact Cert.SupCon.rows_layout _ _ _ r k

/-- The label column at row `r`: the label of sample `r % 4096`. -/
theorem V_labcol (c : Dev nD) (r : Fin 8192) :
    (V m c main_v5 : S8192x1.Idx → BitVec 32) (ValueIdx.ix2 r (0 : Fin 1))
      = Cert.SupCon.labelsOf (m ((c : Thread nD τ).loc main_arg1)) r := by
  rw [V_main_v5]
  exact (Cert.SupCon.labels_column _ _ r 0).trans (Cert.SupCon.labels_layout _ _ _ _ r)

/-- The label row at column `r`: the label of sample `r % 4096`. -/
theorem V_labrow (c : Dev nD) (r : Fin 8192) :
    (V m c main_v6 : S1x8192.Idx → BitVec 32) (ValueIdx.ix2 (0 : Fin 1) r)
      = Cert.SupCon.labelsOf (m ((c : Thread nD τ).loc main_arg1)) r := by
  rw [V_main_v6]
  exact (Cert.SupCon.labels_row _ _ 0 r).trans (Cert.SupCon.labels_layout _ _ _ _ r)

end Cert.KernelIdeal.Hand

end
-- ==== Proof.KV.KernelRun.lean ====
import proofs.«152556_j7945689498002_1_alg».proof.Proof.KI.LaunchRun
import proofs.«152556_j7945689498002_1_alg».proof.Proof.KI.Body
import proofs.«152556_j7945689498002_1_alg».proof.Proof.KV.Final
import proofs.«152556_j7945689498002_1_alg».proof.Proof.KV.Tail
import proofs.«152556_j7945689498002_1_alg».proof.Proof.KV.OutClosed
import proofs.«152556_j7945689498002_1_alg».proof.Proof.KV.EntryValues
import proofs.«152556_j7945689498002_1_alg».proof.Proof.KV.NamedConst

/-!
The idealised kernel's run with its result read as the specification's kernel form of the loss: the
output array ends holding, row by row, the row losses of the finished running sums; the host lines
after the region sum them, divide by the number of rows and negate.
-/

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen Cert.SupCon

/-- Every weakly fair execution of the idealised kernel's program terminates with its result the
    kernel form of the loss at the rows and labels of the launch arguments, and the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v10)
          = (fun _ => kernelValue (rowsOf (m ((c.tc : Thread nD τ).loc main_arg0)))
              (labelsOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c).1.trans ?_, (h c).2⟩)
    (run_of m ρ (dats m) (A_eq m) (q0 m) (q1 m) (fun _ => rfl) (fun _ => rfl) (fun _ _ => rfl)
      (fun c => (body_obligation m c).loose) (hin m) (hout m))
  funext i
  rw [eq_ix0 i, tail_value, arr_rows m (dats m c) (after4 m c)]
  unfold kernelValue
  refine congrArg (fun z => -(Ideal.div z rowsLit)) (Finset.sum_congr rfl fun r _ => ?_)
  exact out_closed m c (rowsOf (m ((c.tc : Thread nD τ).loc main_arg0))) (labelsOf (m ((c.tc : Thread nD τ).loc main_arg1)))
    (V_rows m c) (V_labcol m c) (V_labrow m c) invTempWord_eq r

end Cert.KernelIdeal.Hand

end
-- ==== Proof.RefFeat.lean ====
import proofs.«152556_j7945689498002_1_alg».proof.Proof.Rows
import proofs.«152556_j7945689498002_1_alg».proof.Proof.Gen.ReferenceIdeal.Read

/-!
The reference program's feature side, stage by stage at an index: the flattened rows, each row's sum of
squares and norm, the normalised rows, the similarity of two rows, and its exponential after the
division by the temperature — each the specification's expression of the feature rows.
-/

noncomputable section

namespace Cert.RefSide

open Idealize.ShloMosaic Idealize.ShloMosaic.ValueIdx Cert.ReferenceIdeal Cert.ReferenceIdeal.Read Cert.SupCon

/-- The flattened feature matrix at (r, k) is row `r`'s entry `k`. -/
theorem v1_at (x : (⟨S4096x2x256, .f32⟩ : BufTy).Contents (Elt Ideal)) (r : Fin 8192) (k : Fin 256) :
    val_main_v1 (F := Ideal) x (ix2 r k) = rowsOf x r k := by
  rw [val_main_v1_apply, val_main_v0_apply]
  unfold rowsOf
  refine congrArg x (funext fun a => Fin.ext ?_)
  have hr := r.isLt
  have hk := k.isLt
  match a with
  | ⟨0, _⟩ => show (r.val * 256 + k.val) / 256 % 4096 = r.val % 4096; omega
  | ⟨1, _⟩ => show (r.val * 256 + k.val) / 1048576 = r.val / 4096; omega
  | ⟨2, _⟩ => show (r.val * 256 + k.val) % 256 = k.val; omega

/-- The row sums of the squared matrix are the rows' sums of squares. -/
theorem sumsq_at (x : (⟨S4096x2x256, .f32⟩ : BufTy).Contents (Elt Ideal)) (r : Fin 8192) :
    val_main_call0_v1 (F := Ideal) x (ix1 r) = sumSq (rowsOf x) r := by
  rw [val_main_call0_v1_apply, val_main_call0_cst_apply, Ideal.ofBits_def, Ideal.ofBits_zero_f32, zero_add]
  unfold sumSq
  refine Finset.sum_congr rfl fun k _ => ?_
  have e : idx_main_call0_v1 (ix1 r) k = ix2 r k :=
    funext fun a => Fin.ext (by match a with | ⟨0, _⟩ => rfl | ⟨1, _⟩ => rfl)
  rw [e, val_main_call0_v0_apply, v1_at]
  rfl

/-- The norm column at row `r` is the square root of the row's sum of squares. -/
theorem norm_at (x : (⟨S4096x2x256, .f32⟩ : BufTy).Contents (Elt Ideal)) (r : Fin 8192) (z : Fin 1) :
    val_main_v2 (F := Ideal) x (ix2 r z) = Ideal.sqrt (sumSq (rowsOf x) r) := by
  rw [val_main_v2_apply, val_main_call0_v2_apply]
  have e : idx_main_call0_v2 (ix2 r z) = ix1 r :=
    funext fun a => Fin.ext (by match a with | ⟨0, _⟩ => rfl)
  rw [e, sumsq_at]
  rfl

/-- The normalised matrix at (r, k): the entry divided by the row's norm. -/
theorem row_at (x : (⟨S4096x2x256, .f32⟩ : BufTy).Contents (Elt Ideal)) (r : Fin 8192) (k : Fin 256) :
    val_main_v4 (F := Ideal) x (ix2 r k) = rRow (rowsOf x) r k := by
  rw [val_main_v4_apply, val_main_v3_apply, v1_at]
  have e : idx_main_v3 (ix2 r k) = ix2 r (0 : Fin 1) :=
    funext fun a => Fin.ext (by match a with | ⟨0, _⟩ => rfl | ⟨1, _⟩ => rfl)
  rw [e, norm_at]
  rfl

/-- The product of the normalised matrix with its transpose at (r, j): the similarity of rows `r` and `j`. -/
theorem dot_at (x : (⟨S4096x2x256, .f32⟩ : BufTy).Contents (Elt Ideal)) (r j : Fin 8192) :
    val_main_v6 (F := Ideal) x (ix2 r j) = ∑ k : Fin 256, rRow (rowsOf x) r k * rRow (rowsOf x) j k := by
  rw [val_main_v6_apply]
  refine Finset.sum_congr rfl fun k _ => ?_
  have el : lidx_main_v6 (ix2 r j) k = ix2 r k :=
    funext fun a => Fin.ext (by match a with | ⟨0, _⟩ => rfl | ⟨1, _⟩ => rfl)
  have er : idx_main_v5 (ridx_main_v6 (ix2 r j) k) = ix2 j k :=
    funext fun a => Fin.ext (by match a with | ⟨0, _⟩ => rfl | ⟨1, _⟩ => rfl)
  rw [el, val_main_v5_apply, er, row_at, row_at]

/-- The exponential of the similarity divided by the temperature. -/
theorem exp_at (x : (⟨S4096x2x256, .f32⟩ : BufTy).Contents (Elt Ideal)) (r j : Fin 8192) :
    val_main_v9 (F := Ideal) x (ix2 r j) = rExp (rowsOf x) r j := by
  rw [val_main_v9_apply, val_main_v8_apply, dot_at, val_main_v7_apply, val_main_cst_apply]
  rfl

end Cert.RefSide

end
-- ==== Proof.RefMask.lean ====
import proofs.«152556_j7945689498002_1_alg».proof.Proof.Rows
import proofs.«152556_j7945689498002_1_alg».proof.Proof.Gen.ReferenceIdeal.Read

/-!
The reference program's mask side at an index: the comparison of the two coordinate arrays is the
identity mask, the comparison of the repeated labels down the rows with the same labels along the
columns is the same-label mask, and their difference is the positive-pair mask.
-/

noncomputable section

namespace Cert.RefSide

open Idealize.ShloMosaic Idealize.ShloMosaic.ValueIdx Cert.ReferenceIdeal Cert.ReferenceIdeal.Read Cert.SupCon

/-- A one-bit comparison of two words, converted to a float: one where they are equal, else zero. -/
theorem uitofp_cmpi_eq (a b : BitVec 32) :
    FloatOps.uitofp (F := Ideal) .f32 (IntOp.cmpi .eq a b) = if a = b then 1 else 0 := by
  show (((IntOp.cmpi .eq a b).toNat : ℝ) : EReal) = _
  unfold IntOp.cmpi
  by_cases h : a = b
  · subst h; simp
  · simp [h]

/-- Row numbers below 8192 are told apart by their 32-bit words. -/
theorem ofNat_inj (r j : Fin 8192) : BitVec.ofNat 32 r.val = BitVec.ofNat 32 j.val ↔ r = j := by
  constructor
  · intro h
    have h' := congrArg BitVec.toNat h
    simp only [BitVec.toNat_ofNat] at h'
    have hr := r.isLt
    have hj := j.isLt
    exact Fin.ext (by omega)
  · rintro rfl; rfl

/-- The comparison of the row-number array with the column-number array is the identity mask. -/
theorem eye_at (r j : Fin 8192) : val_main_v18 (F := Ideal) (ix2 r j) = eye r j := by
  rw [val_main_v18_apply, val_main_v17_apply, val_main_v16_apply, val_main_v13_apply, val_main_v14_apply,
    val_main_v15_apply, val_main_c_apply, uitofp_cmpi_eq]
  unfold eye
  show (if IntOp.addi (BitVec.ofNat 32 r.val) 0#32 = BitVec.ofNat 32 j.val then (1 : EReal) else 0) = _
  unfold IntOp.addi
  rw [BitVec.add_zero]
  exact if_congr (ofNat_inj r j) rfl rfl

/-- The labels repeated once per view, at row `r`. -/
theorem labels_at (lab : (⟨S4096, .i32⟩ : BufTy).Contents (Elt Ideal)) (r : Fin 8192) :
    val_main_v12 (F := Ideal) lab (ix1 r) = labelsOf lab r := by
  rw [val_main_v12_apply, val_main_v11_apply, val_main_v10_apply]
  unfold labelsOf
  refine congrArg lab (funext fun a => Fin.ext ?_)
  match a with
  | ⟨0, _⟩ => show 0 * 4096 + r.val % 4096 = r.val % 4096; omega

/-- The comparison of the labels down the rows with the labels along the columns is the same-label mask. -/
theorem same_at (lab : (⟨S4096, .i32⟩ : BufTy).Contents (Elt Ideal)) (r j : Fin 8192) :
    val_main_v24 (F := Ideal) lab (ix2 r j) = sameLabel (labelsOf lab) r j := by
  rw [val_main_v24_apply, val_main_v23_apply, val_main_v21_apply, val_main_v19_apply, val_main_v22_apply,
    val_main_v20_apply, uitofp_cmpi_eq]
  have e1 : idx_main_v19 (idx_main_v21 (ix2 r j)) = ix1 r :=
    funext fun a => Fin.ext (by match a with | ⟨0, _⟩ => rfl)
  have e2 : idx_main_v20 (idx_main_v22 (ix2 r j)) = ix1 j :=
    funext fun a => Fin.ext (by match a with | ⟨0, _⟩ => rfl)
  rw [e1, e2, labels_at, labels_at]
  rfl

/-- The difference of the two masks is the positive-pair mask. -/
theorem pos_at (lab : (⟨S4096, .i32⟩ : BufTy).Contents (Elt Ideal)) (r j : Fin 8192) :
    val_main_v25 (F := Ideal) lab (ix2 r j) = posMask (labelsOf lab) r j := by
  rw [val_main_v25_apply, same_at, eye_at]
  rfl

/-- The word of the constant one. -/
theorem one_word : Ideal.ofBits .f32 0x3F800000#32 = 1 := by
  simp [Ideal.ofBits, Ideal.ieee]
  first
    | (rw [← EReal.coe_mul, ← EReal.coe_one]; exact congrArg _ (by norm_num))
    | (norm_cast; norm_num)

/-- One minus the identity mask. -/
theorem offdiag_at (r j : Fin 8192) : val_main_v27 (F := Ideal) (ix2 r j) = 1 - eye r j := by
  rw [val_main_v27_apply, val_main_v26_apply, val_main_cst_0_apply, eye_at, Ideal.ofBits_def, one_word]
  rfl

end Cert.RefSide

end
-- ==== Proof.RefValue.lean ====
import proofs.«152556_j7945689498002_1_alg».proof.Proof.RefFeat
import proofs.«152556_j7945689498002_1_alg».proof.Proof.RefMask

/-!
The reference program's result is the specification's reference form of the loss, evaluated at the
feature rows and the row labels read off the program's two arguments.
-/

noncomputable section

namespace Cert.RefSide

open Idealize.ShloMosaic Idealize.ShloMosaic.ValueIdx Cert.ReferenceIdeal Cert.ReferenceIdeal.Read Cert.SupCon

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The masked exponentials summed along a row. -/
theorem expsum_at (x : (⟨S4096x2x256, .f32⟩ : BufTy).Contents (Elt Ideal)) (r : Fin 8192) :
    val_main_v29 (F := Ideal) x (ix1 r) = rExpSum (rowsOf x) r := by
  rw [val_main_v29_apply, val_main_cst_1_apply, Ideal.ofBits_def, Ideal.ofBits_zero_f32, zero_add]
  unfold rExpSum
  refine Finset.sum_congr rfl fun j _ => ?_
  have e : idx_main_v29 (ix1 r) j = ix2 r j :=
    funext fun a => Fin.ext (by match a with | ⟨0, _⟩ => rfl | ⟨1, _⟩ => rfl)
  rw [e, val_main_v28_apply, exp_at, offdiag_at]
  rfl

/-- The logarithm of an exponential over its row's masked sum. -/
theorem logratio_at (x : (⟨S4096x2x256, .f32⟩ : BufTy).Contents (Elt Ideal)) (r j : Fin 8192) :
    val_main_v33 (F := Ideal) x (ix2 r j) = rLogRatio (rowsOf x) r j := by
  rw [val_main_v33_apply, val_main_v32_apply, exp_at, val_main_v31_apply, val_main_v30_apply]
  have e : idx_main_v30 (idx_main_v31 (ix2 r j)) = ix1 r :=
    funext fun a => Fin.ext (by match a with | ⟨0, _⟩ => rfl)
  rw [e, expsum_at]
  rfl

/-- The masked log ratios summed along a row. -/
theorem possum_at (x : (⟨S4096x2x256, .f32⟩ : BufTy).Contents (Elt Ideal)) (lab : (⟨S4096, .i32⟩ : BufTy).Contents (Elt Ideal))
    (r : Fin 8192) :
    val_main_v35 (F := Ideal) x lab (ix1 r)
      = ∑ j : Fin 8192, rLogRatio (rowsOf x) r j * posMask (labelsOf lab) r j := by
  rw [val_main_v35_apply, val_main_cst_2_apply, Ideal.ofBits_def, Ideal.ofBits_zero_f32, zero_add]
  refine Finset.sum_congr rfl fun j _ => ?_
  have e : idx_main_v35 (ix1 r) j = ix2 r j :=
    funext fun a => Fin.ext (by match a with | ⟨0, _⟩ => rfl | ⟨1, _⟩ => rfl)
  rw [e, val_main_v34_apply, logratio_at, pos_at]
  rfl

/-- The positive-pair mask summed along a row: the number of positive partners. -/
theorem poscount_at (lab : (⟨S4096, .i32⟩ : BufTy).Contents (Elt Ideal)) (r : Fin 8192) :
    val_main_v36 (F := Ideal) lab (ix1 r) = posCount (labelsOf lab) r := by
  rw [val_main_v36_apply, val_main_cst_3_apply, Ideal.ofBits_def, Ideal.ofBits_zero_f32, zero_add]
  unfold posCount
  refine Finset.sum_congr rfl fun j _ => ?_
  have e : idx_main_v36 (ix1 r) j = ix2 r j :=
    funext fun a => Fin.ext (by match a with | ⟨0, _⟩ => rfl | ⟨1, _⟩ => rfl)
  rw [e, pos_at]

/-- A row's loss. -/
theorem loss_at (x : (⟨S4096x2x256, .f32⟩ : BufTy).Contents (Elt Ideal)) (lab : (⟨S4096, .i32⟩ : BufTy).Contents (Elt Ideal))
    (r : Fin 8192) :
    val_main_v37 (F := Ideal) x lab (ix1 r) = rLoss (rowsOf x) (labelsOf lab) r := by
  rw [val_main_v37_apply, possum_at, poscount_at]
  rfl

/-- The reference's result, at its one index, is the reference form of the loss. -/
theorem reference_result_at (x : (⟨S4096x2x256, .f32⟩ : BufTy).Contents (Elt Ideal))
    (lab : (⟨S4096, .i32⟩ : BufTy).Contents (Elt Ideal)) (i : S_.Idx) :
    val_main_v40 (F := Ideal) x lab i = referenceValue (rowsOf x) (labelsOf lab) := by
  rw [val_main_v40_apply, val_main_v39_apply, val_main_v38_apply, val_main_cst_4_apply, val_main_cst_5_apply,
    Ideal.ofBits_def, Ideal.ofBits_zero_f32, zero_add, sum_idx1]
  unfold referenceValue rowsLit
  simp only [loss_at]
  rfl

/-- The reference's result as an array of the scalar shape. -/
theorem reference_result (x : (⟨S4096x2x256, .f32⟩ : BufTy).Contents (Elt Ideal))
    (lab : (⟨S4096, .i32⟩ : BufTy).Contents (Elt Ideal)) :
    val_main_v40 (F := Ideal) x lab = fun _ => referenceValue (rowsOf x) (labelsOf lab) :=
  funext fun i => reference_result_at x lab i

end Cert.RefSide

end
-- ==== Proof.RefRun.lean ====
import proofs.«152556_j7945689498002_1_alg».proof.Proof.RefValue

/-!
The reference program's run with its result read as the specification's reference form of the loss.
-/

noncomputable section

namespace Cert.RefSide

open Idealize.ShloMosaic Idealize.ShloMosaic.TcCoe Idealize.SL.Sem Idealize.ShloMosaic.ValueIdx
open Cert.ReferenceIdeal Cert.ReferenceIdeal.Gen Cert.ReferenceIdeal.Read Cert.SupCon

/-- Every weakly fair execution of the reference terminates with its result the reference form of the loss
    at the rows and labels of the launch arguments, and the arguments unchanged. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v40)
          = (fun _ => referenceValue (rowsOf (m ((c.tc : Thread nD τ).loc main_arg0)))
              (labelsOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v40_eq m c).trans (reference_result _ _)), (h c).2⟩)
    (Cert.ReferenceIdeal.Value.run (F := Ideal) m ρ)

end Cert.RefSide

end
-- ==== Proof.RefPre.lean ====
import proofs.«152556_j7945689498002_1_alg».proof.Pre_finite_inputs
import proofs.«152556_j7945689498002_1_alg».proof.Proof.Rows
import Idealize.ShloMosaic.Lib.ReduceAll
import Idealize.ShloMosaic.Lib.Pipeline.Value
import Idealize.ShloMosaic.PureOps.Ideal.Laws

/-!
What the precondition says of the feature rows: every entry is a real number (its absolute value is
below +∞), and every row's sum of squares is positive.
-/

noncomputable section

namespace Cert.SupCon.Pre

open Idealize.ShloMosaic Idealize.ShloMosaic.ValueIdx Cert.Pre_finite_inputs

/-- The scalar shape has one index. -/
instance : Subsingleton S_.Idx := ⟨fun a b => funext fun d => d.elim0⟩

variable [Cert.Pre_finite_inputs.Facts]

/-- The word the absolute values are compared with is +∞. -/
theorem inf_word : Ideal.ofBits .f32 0x7F800000#32 = ⊤ := by simp [Ideal.ofBits, Ideal.ieee]

theorem lt_of_cmp_olt {u v : EReal} (h : Ideal.cmp .olt u v = 1#1) : u < v := by
  unfold Ideal.cmp at h
  by_contra hn
  simp [hn] at h

theorem lt_of_cmp_ogt {u v : EReal} (h : Ideal.cmp .ogt u v = 1#1) : v < u := by
  unfold Ideal.cmp at h
  by_contra hn
  simp [hn] at h

/-- An extended real whose absolute value is below +∞ is a real. -/
theorem real_of_abs_lt_top (a : EReal) (h : max a (-a) < ⊤) : ∃ y : ℝ, a = (y : EReal) := by
  induction a using EReal.rec with
  | bot => simp at h
  | coe y => exact ⟨y, rfl⟩
  | top => simp at h

/-- Every entry of the features is a real. -/
theorem entry_real (x : FVec Ideal S4096x2x256 .f32) (lab : IVec S4096 32)
    (h : fn (F := Ideal) x lab = fun _ => 1#1) (i : S4096x2x256.Idx) : ∃ y : ℝ, x i = (y : EReal) := by
  have e := congrFun h ix0
  dsimp only [fn] at e
  have h3 := (IntOp.andi_eq_one.1 e).1
  have a := Host.reduce_andi_all _ _ _ _ _ h3 i
  rw [cmpf_apply, broadcastInDim_apply _ _ _ i ix0 (fun a => a.elim0)] at a
  have a' : Ideal.cmp .olt (max (x i) (-(x i))) (Ideal.ofBits .f32 0x7F800000#32) = 1#1 := a
  rw [inf_word] at a'
  exact real_of_abs_lt_top _ (lt_of_cmp_olt a')

/-- Every (sample, view) row of the features has a positive sum of squares. -/
theorem sumsq_pos (x : FVec Ideal S4096x2x256 .f32) (lab : IVec S4096 32)
    (h : fn (F := Ideal) x lab = fun _ => 1#1) (b : Fin 4096) (v : Fin 2) :
    0 < ∑ k : Fin 256, x (ix3 b v k) * x (ix3 b v k) := by
  have e := congrFun h ix0
  dsimp only [fn] at e
  have h8 := (IntOp.andi_eq_one.1 e).2
  have a := Host.reduce_andi_all _ _ _ _ _ h8 (ix2 b v)
  rw [cmpf_apply, broadcastInDim_apply _ _ _ (ix2 b v) ix0 (fun a => a.elim0)] at a
  simp only [Host.reduceAdd, Ideal.hostReduceAdd_def] at a
  rw [Ideal.hostReduceAdd_single Facts.reducesTo_S4096x2x256_S4096x2_d2 (by decide)] at a
  have a' := lt_of_cmp_ogt (Ideal.cmpf_def _ _ _ ▸ a)
  have e0 : ∀ i : S_.Idx, constant (F := Ideal) S_ .f32 0x00000000#32 i = 0 := fun _ => Ideal.ofBits_zero_f32
  rw [e0, e0, zero_add] at a'
  refine lt_of_lt_of_eq a' (Finset.sum_congr rfl fun k _ => ?_)
  exact congrArg (fun j => x j * x j)
    (funext fun a => Fin.ext (by match a with | ⟨0, _⟩ => rfl | ⟨1, _⟩ => rfl | ⟨2, _⟩ => rfl))

/-- (a) Every entry of every feature row is a real. -/
theorem rows_real (x : FVec Ideal S4096x2x256 .f32) (lab : IVec S4096 32)
    (h : fn (F := Ideal) x lab = fun _ => 1#1) (r : Fin 8192) (k : Fin 256) :
    ∃ y : ℝ, rowsOf x r k = (y : EReal) :=
  entry_real x lab h _

/-- (b) Every feature row's sum of squares is positive. -/
theorem rows_sumSq_pos (x : FVec Ideal S4096x2x256 .f32) (lab : IVec S4096 32)
    (h : fn (F := Ideal) x lab = fun _ => 1#1) (r : Fin 8192) : 0 < sumSq (rowsOf x) r :=
  sumsq_pos x lab h _ _

end Cert.SupCon.Pre

end
-- ==== Proof.RefPairing.lean ====
import proofs.«152556_j7945689498002_1_alg».proof.Proof.Rows

/-!
Every row has a positive partner: rows `r` and `r ± 4096` are the two views of one sample, so they
carry the same label, and they are different rows.
-/

noncomputable section

namespace Cert.SupCon

open Idealize.ShloMosaic Idealize.ShloMosaic.ValueIdx

/-- The other view of row `r`'s sample is a different row with the same label. -/
theorem labels_paired (lab : (⟨1, ![4096]⟩ : Shape).Idx → BitVec 32) (r : Fin 8192) :
    ∃ j : Fin 8192, j ≠ r ∧ labelsOf lab j = labelsOf lab r := by
  refine ⟨⟨(r.val + 4096) % 8192, Nat.mod_lt _ (by decide)⟩, ?_, ?_⟩
  · intro h
    have h' : (r.val + 4096) % 8192 = r.val := congrArg Fin.val h
    have := r.isLt
    omega
  · unfold labelsOf
    refine congrArg lab (congrArg (ix1 (n := 4096)) (Fin.ext ?_))
    show (r.val + 4096) % 8192 % 4096 = r.val % 4096
    omega

end Cert.SupCon

end
-- ==== Proof.AlgebraConsts.lean ====
import proofs.«152556_j7945689498002_1_alg».proof.Proof.Spec
import Mathlib.Tactic

/-!
Constants and coercion lemmas for the algebra of the supervised contrastive loss.

* the temperature literal denotes the real `9395241 / 134217728`, whose reciprocal is `invTemp`;
* the coercion `ℝ → EReal` commutes with finite sums;
* the three masks are coercions of real `0/1` masks.
-/

noncomputable section

namespace Cert.SupCon

open Idealize.ShloMosaic

/-- The temperature literal denotes `(2^23 + 1006633) · 2^(123 - 127 - 23) = 9395241 / 2^27`. -/
theorem temp_eq : temp = ((9395241 / 134217728 : ℝ) : EReal) := by
  unfold temp
  simp [Ideal.ofBits, Ideal.ieee, -EReal.coe_mul]; norm_num

/-- The coercion of a finite real sum is the sum of the coercions. -/
theorem coe_finset_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The real identity mask. -/
def eyeR (r j : Fin 8192) : ℝ := if r = j then 1 else 0
/-- The real positive-pair mask: same label, not the row itself. -/
def pmR (L : Fin 8192 → BitVec 32) (r j : Fin 8192) : ℝ := (if L r = L j then 1 else 0) - eyeR r j

theorem eye_coe (r j : Fin 8192) : eye r j = ((eyeR r j : ℝ) : EReal) := by
  unfold eye eyeR; split_ifs <;> simp

theorem one_sub_eye_coe (r j : Fin 8192) : (1 : EReal) - eye r j = ((1 - eyeR r j : ℝ) : EReal) := by
  rw [eye_coe, EReal.coe_sub, EReal.coe_one]

theorem posMask_coe (L : Fin 8192 → BitVec 32) (r j : Fin 8192) : posMask L r j = ((pmR L r j : ℝ) : EReal) := by
  unfold posMask sameLabel pmR
  rw [eye_coe, EReal.coe_sub]
  split_ifs <;> simp

/-- The positive-pair mask takes the values `0` and `1` only. -/
theorem pmR_nonneg (L : Fin 8192 → BitVec 32) (r j : Fin 8192) : 0 ≤ pmR L r j := by
  unfold pmR eyeR
  by_cases h : r = j
  · subst h; simp
  · by_cases hl : L r = L j <;> simp [h, hl]

theorem pmR_partner (L : Fin 8192 → BitVec 32) {r j : Fin 8192} (hne : j ≠ r) (hl : L j = L r) : pmR L r j = 1 := by
  unfold pmR eyeR
  simp [hl.symm, Ne.symm hne]

theorem one_sub_eyeR_nonneg (r j : Fin 8192) : 0 ≤ 1 - eyeR r j := by
  unfold eyeR; split_ifs <;> simp

theorem one_sub_eyeR_of_ne {r j : Fin 8192} (hne : j ≠ r) : 1 - eyeR r j = 1 := by
  unfold eyeR; simp [Ne.symm hne]

end Cert.SupCon

end
-- ==== Proof.AlgebraRows.lean ====
import proofs.«152556_j7945689498002_1_alg».proof.Proof.AlgebraConsts

/-!
Rows and similarities. For a real feature matrix `x` whose rows have positive sums of squares, the
kernel's normalised row (`x · (√s)⁻¹`) and the reference's (`x / √s`) are the coercion of the same real
`x r k / √(s r)`; the kernel's similarity (dot product times the reciprocal temperature) is the coercion
of a real `simR`, and the reference's exponential of (dot product divided by the temperature) is the
coercion of `Real.exp` of that same real.
-/

noncomputable section

namespace Cert.SupCon

open Idealize.ShloMosaic

/-- A real matrix read as a matrix of extended reals. -/
def lift (x : Fin 8192 → Fin 256 → ℝ) : Fin 8192 → Fin 256 → EReal := fun r k => ((x r k : ℝ) : EReal)

/-- A row's real sum of squares. -/
def ssR (x : Fin 8192 → Fin 256 → ℝ) (r : Fin 8192) : ℝ := ∑ k : Fin 256, x r k * x r k
/-- The normalised row. -/
def nrmR (x : Fin 8192 → Fin 256 → ℝ) (r : Fin 8192) (k : Fin 256) : ℝ := x r k / Real.sqrt (ssR x r)
/-- The dot product of two normalised rows. -/
def dotR (x : Fin 8192 → Fin 256 → ℝ) (r j : Fin 8192) : ℝ := ∑ k : Fin 256, nrmR x r k * nrmR x j k
/-- The similarity: the dot product over the temperature. -/
def simR (x : Fin 8192 → Fin 256 → ℝ) (r j : Fin 8192) : ℝ := dotR x r j * (134217728 / 9395241)

variable (x : Fin 8192 → Fin 256 → ℝ)

theorem sumSq_coe (r : Fin 8192) : sumSq (lift x) r = ((ssR x r : ℝ) : EReal) := by
  unfold sumSq ssR lift
  rw [coe_finset_sum]
  exact Finset.sum_congr rfl (fun k _ => (EReal.coe_mul _ _).symm)

theorem rsqrt_coe_pos {t : ℝ} (ht : 0 < t) : Ideal.rsqrt (t : EReal) = (((Real.sqrt t)⁻¹ : ℝ) : EReal) := by
  rw [Ideal.rsqrt_coe, if_neg (not_lt.mpr ht.le), if_neg ht.ne']

theorem sqrt_coe_pos {t : ℝ} (ht : 0 < t) : Ideal.sqrt (t : EReal) = ((Real.sqrt t : ℝ) : EReal) := by
  rw [Ideal.sqrt_coe, if_neg (not_lt.mpr ht.le)]

theorem kRow_coe (r : Fin 8192) (k : Fin 256) (hpos : 0 < ssR x r) :
    kRow (lift x) r k = ((nrmR x r k : ℝ) : EReal) := by
  unfold kRow
  rw [sumSq_coe, rsqrt_coe_pos hpos]
  unfold lift nrmR
  rw [← EReal.coe_mul, div_eq_mul_inv]

theorem rRow_coe (r : Fin 8192) (k : Fin 256) (hpos : 0 < ssR x r) :
    rRow (lift x) r k = ((nrmR x r k : ℝ) : EReal) := by
  unfold rRow
  rw [sumSq_coe, sqrt_coe_pos hpos, Ideal.div_coe (Real.sqrt_pos.mpr hpos).ne']
  unfold lift nrmR
  rw [← EReal.coe_mul, one_div, div_eq_mul_inv]

theorem kSim_coe (r j : Fin 8192) (hr : 0 < ssR x r) (hj : 0 < ssR x j) :
    kSim (lift x) r j = ((simR x r j : ℝ) : EReal) := by
  unfold kSim invTemp simR dotR
  rw [EReal.coe_mul, coe_finset_sum]
  congr 1
  exact Finset.sum_congr rfl (fun k _ => by rw [kRow_coe x r k hr, kRow_coe x j k hj, EReal.coe_mul])

theorem rExp_coe (r j : Fin 8192) (hr : 0 < ssR x r) (hj : 0 < ssR x j) :
    rExp (lift x) r j = ((Real.exp (simR x r j) : ℝ) : EReal) := by
  unfold rExp
  have hsum : (∑ k : Fin 256, rRow (lift x) r k * rRow (lift x) j k) = ((dotR x r j : ℝ) : EReal) := by
    unfold dotR
    rw [coe_finset_sum]
    exact Finset.sum_congr rfl (fun k _ => by rw [rRow_coe x r k hr, rRow_coe x j k hj, EReal.coe_mul])
  have hc : (1 / (9395241 / 134217728 : ℝ)) = 134217728 / 9395241 := by norm_num
  rw [hsum, temp_eq, Ideal.div_coe (by norm_num), ← EReal.coe_mul, Ideal.exp_coe, hc]
  rfl

/-- The kernel's exponential of its similarity is the same coercion. -/
theorem kExp_coe (r j : Fin 8192) (hr : 0 < ssR x r) (hj : 0 < ssR x j) :
    Ideal.exp (kSim (lift x) r j) = ((Real.exp (simR x r j) : ℝ) : EReal) := by
  rw [kSim_coe x r j hr hj, Ideal.exp_coe]

end Cert.SupCon

end
-- ==== Proof.AlgebraKernel.lean ====
import proofs.«152556_j7945689498002_1_alg».proof.Proof.AlgebraRows

/-!
The kernel's row loss. With `E r = Σ_j exp(s r j)·(1 - [r = j])`, `c r = Σ_j p r j` and
`W r = Σ_j p r j · s r j` over the reals, the kernel's three row sums are the coercions of `E r`, `c r`
and `W r`; `E r > 0` as soon as another row exists, and `c r ≥ 1` as soon as the row has a partner with
its label. Hence the kernel's row loss is the coercion of `W r / c r - log (E r)`.
-/

noncomputable section

namespace Cert.SupCon

open Idealize.ShloMosaic

/-- The sum of the exponentials of a row's similarities to all other rows. -/
def expSumR (x : Fin 8192 → Fin 256 → ℝ) (r : Fin 8192) : ℝ :=
  ∑ j : Fin 8192, Real.exp (simR x r j) * (1 - eyeR r j)
/-- The number of positive partners of a row. -/
def cntR (L : Fin 8192 → BitVec 32) (r : Fin 8192) : ℝ := ∑ j : Fin 8192, pmR L r j
/-- The sum of a row's similarities to its positive partners. -/
def posSumR (x : Fin 8192 → Fin 256 → ℝ) (L : Fin 8192 → BitVec 32) (r : Fin 8192) : ℝ :=
  ∑ j : Fin 8192, pmR L r j * simR x r j
/-- The row loss. -/
def lossR (x : Fin 8192 → Fin 256 → ℝ) (L : Fin 8192 → BitVec 32) (r : Fin 8192) : ℝ :=
  posSumR x L r / cntR L r - Real.log (expSumR x r)

variable (x : Fin 8192 → Fin 256 → ℝ) (L : Fin 8192 → BitVec 32)

theorem kExpSum_coe (hpos : ∀ r, 0 < ssR x r) (r : Fin 8192) :
    kExpSum (lift x) r = ((expSumR x r : ℝ) : EReal) := by
  unfold kExpSum expSumR
  rw [coe_finset_sum]
  exact Finset.sum_congr rfl
    (fun j _ => by rw [kExp_coe x r j (hpos r) (hpos j), one_sub_eye_coe, EReal.coe_mul])

theorem posCount_coe (r : Fin 8192) : posCount L r = ((cntR L r : ℝ) : EReal) := by
  unfold posCount cntR
  rw [coe_finset_sum]
  exact Finset.sum_congr rfl (fun j _ => posMask_coe L r j)

theorem kPosSum_coe (hpos : ∀ r, 0 < ssR x r) (r : Fin 8192) :
    kPosSum (lift x) L r = ((posSumR x L r : ℝ) : EReal) := by
  unfold kPosSum posSumR
  rw [coe_finset_sum]
  exact Finset.sum_congr rfl
    (fun j _ => by rw [posMask_coe, kSim_coe x r j (hpos r) (hpos j), EReal.coe_mul])

/-- Every term of `E r` is nonnegative and the term of any other row is an exponential. -/
theorem expSumR_pos (r : Fin 8192) (hj : ∃ j, j ≠ r) : 0 < expSumR x r := by
  obtain ⟨j, hj⟩ := hj
  unfold expSumR
  refine lt_of_lt_of_le ?_ (Finset.single_le_sum
    (f := fun i => Real.exp (simR x r i) * (1 - eyeR r i))
    (fun i _ => mul_nonneg (Real.exp_pos _).le (one_sub_eyeR_nonneg r i)) (Finset.mem_univ j))
  show 0 < Real.exp (simR x r j) * (1 - eyeR r j)
  rw [one_sub_eyeR_of_ne hj, mul_one]
  exact Real.exp_pos _

/-- Every term of `c r` is nonnegative and the partner's term is `1`. -/
theorem cntR_ge_one (r : Fin 8192) (hp : ∃ j, j ≠ r ∧ L j = L r) : 1 ≤ cntR L r := by
  obtain ⟨j, hne, hl⟩ := hp
  unfold cntR
  calc (1 : ℝ) = pmR L r j := (pmR_partner L hne hl).symm
    _ ≤ ∑ i : Fin 8192, pmR L r i :=
        Finset.single_le_sum (f := fun i => pmR L r i) (fun i _ => pmR_nonneg L r i) (Finset.mem_univ j)

theorem log_coe_pos {t : ℝ} (ht : 0 < t) : Ideal.log (t : EReal) = ((Real.log t : ℝ) : EReal) := by
  rw [Ideal.log_coe, if_neg (not_le.mpr ht)]

theorem kLoss_coe (hpos : ∀ r, 0 < ssR x r) (r : Fin 8192) (hp : ∃ j, j ≠ r ∧ L j = L r) :
    kLoss (lift x) L r = ((lossR x L r : ℝ) : EReal) := by
  have hc : cntR L r ≠ 0 := (lt_of_lt_of_le one_pos (cntR_ge_one L r hp)).ne'
  have hE : 0 < expSumR x r := expSumR_pos x r (hp.imp fun j h => h.1)
  unfold kLoss lossR
  rw [kPosSum_coe x L hpos r, posCount_coe, kExpSum_coe x hpos r, Ideal.div_coe hc, log_coe_pos hE,
    ← EReal.coe_mul, ← EReal.coe_sub, mul_one_div]

end Cert.SupCon

end
-- ==== Proof.AlgebraReference.lean ====
import proofs.«152556_j7945689498002_1_alg».proof.Proof.AlgebraKernel

/-!
The reference's row loss. Its sum of exponentials is the coercion of the same `E r`; each log-ratio is
`log (exp (s r j) / E r) = s r j - log (E r)` because `E r > 0`; the masked sum of these is
`W r - log (E r) · c r`, and dividing by `c r ≠ 0` gives `W r / c r - log (E r)`: the same real as the
kernel's row loss.
-/

noncomputable section

namespace Cert.SupCon

open Idealize.ShloMosaic

variable (x : Fin 8192 → Fin 256 → ℝ) (L : Fin 8192 → BitVec 32)

theorem rExpSum_coe (hpos : ∀ r, 0 < ssR x r) (r : Fin 8192) :
    rExpSum (lift x) r = ((expSumR x r : ℝ) : EReal) := by
  unfold rExpSum expSumR
  rw [coe_finset_sum]
  exact Finset.sum_congr rfl
    (fun j _ => by rw [rExp_coe x r j (hpos r) (hpos j), one_sub_eye_coe, EReal.coe_mul])

theorem rLogRatio_coe (hpos : ∀ r, 0 < ssR x r) (r j : Fin 8192) (hE : 0 < expSumR x r) :
    rLogRatio (lift x) r j = ((simR x r j - Real.log (expSumR x r) : ℝ) : EReal) := by
  unfold rLogRatio
  rw [rExp_coe x r j (hpos r) (hpos j), rExpSum_coe x hpos r, Ideal.div_coe hE.ne', ← EReal.coe_mul,
    log_coe_pos (mul_pos (Real.exp_pos _) (one_div_pos.mpr hE)), mul_one_div,
    Real.log_div (Real.exp_pos _).ne' hE.ne', Real.log_exp]

/-- The one real law joining the two forms: `(Σ_j (s_j - l)·p_j) / c = (Σ_j p_j·s_j) / c - l` for `c = Σ_j p_j ≠ 0`. -/
theorem masked_sum_div (r : Fin 8192) (l : ℝ) (hc : cntR L r ≠ 0) :
    (∑ j : Fin 8192, (simR x r j - l) * pmR L r j) * (1 / cntR L r) = posSumR x L r / cntR L r - l := by
  have h : ∑ j : Fin 8192, (simR x r j - l) * pmR L r j = posSumR x L r - l * cntR L r := by
    unfold posSumR cntR
    rw [Finset.mul_sum, ← Finset.sum_sub_distrib]
    exact Finset.sum_congr rfl (fun j _ => by ring)
  rw [h]
  field_simp

theorem rLoss_coe (hpos : ∀ r, 0 < ssR x r) (r : Fin 8192) (hp : ∃ j, j ≠ r ∧ L j = L r) :
    rLoss (lift x) L r = ((lossR x L r : ℝ) : EReal) := by
  have hc : cntR L r ≠ 0 := (lt_of_lt_of_le one_pos (cntR_ge_one L r hp)).ne'
  have hE : 0 < expSumR x r := expSumR_pos x r (hp.imp fun j h => h.1)
  have hsum : (∑ j : Fin 8192, rLogRatio (lift x) r j * posMask L r j)
      = ((∑ j : Fin 8192, (simR x r j - Real.log (expSumR x r)) * pmR L r j : ℝ) : EReal) := by
    rw [coe_finset_sum]
    exact Finset.sum_congr rfl
      (fun j _ => by rw [rLogRatio_coe x hpos r j hE, posMask_coe, EReal.coe_mul])
  unfold rLoss
  rw [hsum, posCount_coe, Ideal.div_coe hc, ← EReal.coe_mul, masked_sum_div x L r _ hc]
  rfl

end Cert.SupCon

end
-- ==== Proof.Algebra.lean ====
import proofs.«152556_j7945689498002_1_alg».proof.Proof.AlgebraReference

/-!
The kernel's form and the reference's form of the supervised contrastive loss agree on every real
feature matrix whose rows are nonzero and whose rows each have a partner with the same label: row by
row both losses are the coercion of the same real `W r / c r - log (E r)`, and the outer sum, the
division by the number of rows and the negation are the same operations on both sides.
-/

noncomputable section

namespace Cert.SupCon

open Idealize.ShloMosaic

theorem kernelValue_eq_referenceValue (f : Fin 8192 → Fin 256 → EReal) (L : Fin 8192 → BitVec 32)
    (hfin : ∀ r k, ∃ x : ℝ, f r k = (x : EReal))
    (hpos : ∀ r, 0 < sumSq f r)
    (hpair : ∀ r, ∃ j, j ≠ r ∧ L j = L r) :
    kernelValue f L = referenceValue f L := by
  choose x hx using hfin
  have hf : f = lift x := funext fun r => funext fun k => hx r k
  subst hf
  have hpos' : ∀ r, 0 < ssR x r := fun r => by
    have h := hpos r
    rw [sumSq_coe] at h
    exact EReal.coe_pos.mp h
  have hrow : ∀ r, kLoss (lift x) L r = rLoss (lift x) L r := fun r => by
    rw [kLoss_coe x L hpos' r (hpair r), rLoss_coe x L hpos' r (hpair r)]
  unfold kernelValue referenceValue
  rw [Finset.sum_congr rfl (fun r _ => hrow r)]

end Cert.SupCon

end
-- ==== Proof.Algebraic.lean ====
import proofs.«152556_j7945689498002_1_alg».proof.Defs
import proofs.«152556_j7945689498002_1_alg».proof.Proof.KV.KernelRun
import proofs.«152556_j7945689498002_1_alg».proof.Proof.RefRun
import proofs.«152556_j7945689498002_1_alg».proof.Proof.RefPre
import proofs.«152556_j7945689498002_1_alg».proof.Proof.RefPairing
import proofs.«152556_j7945689498002_1_alg».proof.Proof.Algebra
import proofs.«152556_j7945689498002_1_alg».proof.Proof.Gen.KernelIdeal
import proofs.«152556_j7945689498002_1_alg».proof.Proof.Gen.ReferenceIdeal
import proofs.«152556_j7945689498002_1_alg».proof.Proof.Gen.Pre_finite_inputs

/-!
The two idealised programs end with equal results: the kernel's run ends at the kernel form of the
loss, the reference's at the reference form, of the same rows and labels; under the precondition
(every feature entry a real number, no all-zero feature row) and because every row has its other
view as a partner with the same label, the two forms are one extended real.
-/

noncomputable section

namespace Cert.Proof.Hand

open Idealize.ShloMosaic Idealize.ShloMosaic.TcCoe Idealize.SL.Sem Cert.SupCon

theorem algebraic : Cert.algebraic_KernelIdeal_ReferenceIdeal := by
  intro m ρ m' ρ' hpre hagree
  refine ⟨fun c => fun _ => kernelValue (rowsOf (m ((c.tc : Thread Cert.KernelIdeal.nD Cert.KernelIdeal.τ).loc Cert.KernelIdeal.main_arg0)))
      (labelsOf (m ((c.tc : Thread Cert.KernelIdeal.nD Cert.KernelIdeal.τ).loc Cert.KernelIdeal.main_arg1))),
    Cert.KernelIdeal.Hand.kernel_run m ρ, ?_⟩
  refine (θ_run Cert.ReferenceIdeal.defs _ _).mono (fun _ h c => ⟨(h c).1.trans ?_, (h c).2⟩)
    (Cert.RefSide.reference_run m' ρ')
  rw [(hagree c).1, (hagree c).2]
  funext _
  exact (kernelValue_eq_referenceValue _ _ (Cert.SupCon.Pre.rows_real _ _ (hpre c)) (Cert.SupCon.Pre.rows_sumSq_pos _ _ (hpre c))
    (labels_paired _)).symm

end Cert.Proof.Hand

end
-- ==== Proof.lean ====
/-
  The certificate of the supervised-contrastive-loss kernel against its jnp reference.

  The kernel tiles the 8192 × 8192 similarity matrix into 1024 × 1024 tiles on an 8 × 8 grid. A grid
  point normalises its row block and its column block of the feature rows, forms the tile of scaled
  similarities, and adds the tile's masked row sums into three running columns that are cleared at a
  row block's first column block and turned into the row losses at its last. The reference forms the
  whole matrix at once. On the extended reals both results are minus the mean of the row losses
  W r / C r - log (S r): the frames of the three programs, the naming of the reciprocal temperature,
  and the equality of the two results under the precondition (every feature entry finite, no feature
  row all zero).
-/
import proofs.«152556_j7945689498002_1_alg».proof.Defs
import proofs.«152556_j7945689498002_1_alg».proof.Proof.Gen.Kernel
import proofs.«152556_j7945689498002_1_alg».proof.Proof.Gen.KernelIdeal
import proofs.«152556_j7945689498002_1_alg».proof.Proof.Gen.ReferenceIdeal
import proofs.«152556_j7945689498002_1_alg».proof.Proof.Gen.Pre_finite_inputs
import proofs.«152556_j7945689498002_1_alg».proof.Proof.Gen.ReferenceIdeal.Run
import proofs.«152556_j7945689498002_1_alg».proof.Proof.Gen.ReferenceIdeal.Read
import proofs.«152556_j7945689498002_1_alg».proof.Proof.K.Frame
import proofs.«152556_j7945689498002_1_alg».proof.Proof.KI.Frame
import proofs.«152556_j7945689498002_1_alg».proof.Proof.KV.NamedConst
import proofs.«152556_j7945689498002_1_alg».proof.Proof.Algebraic

noncomputable section

namespace Cert.Proof

open Idealize.ShloMosaic Idealize.SL.Sem

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    frame_reference,
    Cert.KernelIdeal.Hand.preserves,
    Cert.Proof.Hand.algebraic⟩

end Cert.Proof

end
